-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x512 .f32) (main_arg1 : IVec S8192x8192 32) (main_arg2 : FVec F S512x256 .f32) (main_arg3 : FVec F S512x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S256x1 : Shape := ⟨2, ![256, 1]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1x8192 : Shape := ⟨2, ![1, 8192]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 11
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S256x1, .f32⟩
  | .hbm, ⟨5, _⟩ => ⟨S256x1, .f32⟩
  | .hbm, ⟨6, _⟩ => ⟨S8192x256, .bf16⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .i32⟩
  | .local _ .vmem, ⟨16, _⟩ => ⟨S1024x1024, .i32⟩
  | .local _ .vmem, ⟨17, _⟩ => ⟨S8192x256, .bf16⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x1, .f32⟩
  | .local _ .vmem, ⟨22, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v18 : BitVec 32 := Scalar.muli arg1 c1024_i32
  v18
def k1_off1 (i : grid1.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  let c0_8 : Index := 0#32
  ![v20.toNat, 0]
def k1_cond2 (i : grid1.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_26 : BitVec 32 := 0#32
  let v55 : BitVec 1 := Scalar.cmpi .ne v54 c0_i32_26
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S512x1_S256x1_0_0 : S512x1.Slices ![0, 0] S256x1
  slices_S512x1_S256x1_256_0 : S512x1.Slices ![256, 0] S256x1
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1024x1_S1024x1_0_0 : ∀ a, (![0, 0] : Fin 2 → Nat) a + S1024x1.size a ≤ S1024x1.size a
  h_S1024x1 : 0 < S1024x1.numel
  transposes_S8192x1_S1x8192_1_0 : S8192x1.Transposes [1, 0] S1x8192
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .i32 = 32 ∨ (Rect.block (s := S8192x8192) S1024x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S512x1 : Shape := ⟨2, ![512, 1]⟩
abbrev S8192x256 : Shape := ⟨2, ![8192, 256]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x256, .f32⟩
  | .hbm, ⟨3, _⟩ => ⟨S512x1, .f32⟩
  | .hbm, ⟨4, _⟩ => ⟨S8192x256, .f32⟩
  | .hbm, ⟨5, _⟩ => ⟨S256x1, .f32⟩
  | .hbm, ⟨6, _⟩ => ⟨S8192x1, .f32⟩
  | .hbm, ⟨7, _⟩ => ⟨S256x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .i1⟩
  | .hbm, ⟨49, _⟩ => ⟨S_, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.RefTerm.lean ====
/-
  The reference's result as ONE pure term of its four argument arrays: the operations of its program in order,
  the bodies of the functions it calls written out at the call (the leaky rectifier, the two masks, the
  exponential linear unit).
-/
import proofs.«174499_j29283087024215_2_alg».proof.ReferenceIdeal
import Idealize.ShloMosaic.PureOps.Ideal

noncomputable section

namespace Cert.ReferenceIdeal.RefValue

open Idealize.ShloMosaic Cert.ReferenceIdeal

variable [Facts]
open Facts₀ Facts

/-- h = x · W as the program computes it. -/
def hTerm (a0 : FVec Ideal S8192x512 .f32) (a2 : FVec Ideal S512x256 .f32) : FVec Ideal S8192x256 .f32 :=
  Host.dotGeneral (F := Ideal) dot_S8192x512_S512x256_S8192x256_1_0_0_1_n_n none a0 a2

/-- The masked scores (the program's value %12): f1 broadcast along rows plus f2 transposed and broadcast along
    columns, the leaky rectifier as a select on `≥ 0`, then the mask as a select on `adj > 0`. -/
def attTerm (a0 : FVec Ideal S8192x512 .f32) (a1 : IVec S8192x8192 32) (a2 : FVec Ideal S512x256 .f32)
    (a3 : FVec Ideal S512x1 .f32) : FVec Ideal S8192x8192 .f32 :=
  let v0 : FVec Ideal S8192x256 .f32 := hTerm a0 a2
  let v1 : FVec Ideal S256x1 .f32 := extractStridedSlice S256x1 ![0, 0] a3 slices_S512x1_S256x1_0_0
  let v2 : FVec Ideal S8192x1 .f32 := Host.dotGeneral (F := Ideal) dot_S8192x256_S256x1_S8192x1_1_0_0_1_n_n none v0 v1
  let v3 : FVec Ideal S256x1 .f32 := extractStridedSlice S256x1 ![256, 0] a3 slices_S512x1_S256x1_256_0
  let v4 : FVec Ideal S8192x1 .f32 := Host.dotGeneral (F := Ideal) dot_S8192x256_S256x1_S8192x1_1_0_0_1_n_n none v0 v3
  let v5 : FVec Ideal S1x8192 .f32 := transpose S1x8192 [1, 0] v4 transposes_S8192x1_S1x8192_1_0
  let v6 : FVec Ideal S8192x8192 .f32 := broadcastInDim S8192x8192 ![0, 1] bcast_S8192x1_S8192x8192_0_1 v2
  let v7 : FVec Ideal S8192x8192 .f32 := broadcastInDim S8192x8192 ![0, 1] bcast_S1x8192_S8192x8192_0_1 v5
  let v8 : FVec Ideal S8192x8192 .f32 := addf v6 v7
  let cst : FVec Ideal S_ .f32 := constant (F := Ideal) S_ .f32 0x3E4CCCCD#32
  let l0 : FVec Ideal S8192x8192 .f32 := broadcastInDim S8192x8192 ![] bcast_S_S8192x8192 (constant (F := Ideal) S_ .f32 0x00000000#32)
  let l1 : IVec S8192x8192 1 := cmpf .oge v8 l0
  let l3 : FVec Ideal S8192x8192 .f32 := broadcastInDim S8192x8192 ![] bcast_S_S8192x8192 (id cst)
  let l4 : FVec Ideal S8192x8192 .f32 := mulf l3 v8
  let v9 : FVec Ideal S8192x8192 .f32 := select l1 v8 l4
  let v10 : IVec S8192x8192 32 := broadcastInDim S8192x8192 ![] bcast_S_S8192x8192 (constantI S_ 32 0#32)
  let v11 : IVec S8192x8192 1 := cmpi .sgt a1 v10
  let w1 : FVec Ideal S8192x8192 .f32 := broadcastInDim S8192x8192 ![] bcast_S_S8192x8192 (id (constant (F := Ideal) S_ .f32 0xD9FFCB9E#32))
  select v11 v9 w1

/-- The softmax of the masked scores along axis 1 (the program's value %23). -/
def smTerm (v12 : FVec Ideal S8192x8192 .f32) : FVec Ideal S8192x8192 .f32 :=
  let v13 : FVec Ideal S8192 .f32 := Host.reduce FloatOps.maximumf v12 (constant (F := Ideal) S_ .f32 0xFF800000#32) reducesTo_S8192x8192_S8192_d1 h_S_
  let v14 : FVec Ideal S8192 .f32 := broadcastInDim S8192 ![] bcast_S_S8192 (constant (F := Ideal) S_ .f32 0xFF800000#32)
  let v15 : FVec Ideal S8192 .f32 := maximumf v14 v13
  let v16 : FVec Ideal S8192x1 .f32 := broadcastInDim S8192x1 ![0] bcast_S8192_S8192x1_0 v15
  let v17 : FVec Ideal S8192x8192 .f32 := broadcastInDim S8192x8192 ![0, 1] bcast_S8192x1_S8192x8192_0_1 v16
  let v18 : FVec Ideal S8192x8192 .f32 := subf v12 v17
  let v19 : FVec Ideal S8192x8192 .f32 := Host.exp v18
  let v20 : FVec Ideal S8192 .f32 := Host.reduceAdd v19 (constant (F := Ideal) S_ .f32 0x00000000#32) reducesTo_S8192x8192_S8192_d1 h_S_
  let v21 : FVec Ideal S8192x1 .f32 := broadcastInDim S8192x1 ![0] bcast_S8192_S8192x1_0 v20
  let v22 : FVec Ideal S8192x8192 .f32 := broadcastInDim S8192x8192 ![0, 1] bcast_S8192x1_S8192x8192_0_1 v21
  Host.divf v19 v22

/-- The exponential linear unit as the program spells it (the body of the function it calls). -/
def eluTerm (v24 : FVec Ideal S8192x256 .f32) : FVec Ideal S8192x256 .f32 :=
  let e0 : FVec Ideal S8192x256 .f32 := broadcastInDim S8192x256 ![] bcast_S_S8192x256 (constant (F := Ideal) S_ .f32 0x00000000#32)
  let e1 : IVec S8192x256 1 := cmpf .ogt v24 e0
  let e2 : FVec Ideal S8192x256 .f32 := broadcastInDim S8192x256 ![] bcast_S_S8192x256 (constant (F := Ideal) S_ .f32 0x00000000#32)
  let e3 : IVec S8192x256 1 := cmpf .ogt v24 e2
  let k1 : FVec Ideal S8192x256 .f32 := broadcastInDim S8192x256 ![] bcast_S_S8192x256 (id (constant (F := Ideal) S_ .f32 0x00000000#32))
  let e4 : FVec Ideal S8192x256 .f32 := select e3 k1 v24
  let e5 : FVec Ideal S8192x256 .f32 := Host.expm1 e4
  let e6 : FVec Ideal S8192x256 .f32 := broadcastInDim S8192x256 ![] bcast_S_S8192x256 (constant (F := Ideal) S_ .f32 0x3F800000#32)
  let e7 : FVec Ideal S8192x256 .f32 := mulf e6 e5
  select e1 v24 e7

/-- The reference's result. -/
def refTerm (a0 : FVec Ideal S8192x512 .f32) (a1 : IVec S8192x8192 32) (a2 : FVec Ideal S512x256 .f32)
    (a3 : FVec Ideal S512x1 .f32) : FVec Ideal S8192x256 .f32 :=
  eluTerm (Host.dotGeneral (F := Ideal) dot_S8192x8192_S8192x256_S8192x256_1_0_0_1_n_n none
    (smTerm (attTerm a0 a1 a2 a3)) (hTerm a0 a2))

end Cert.ReferenceIdeal.RefValue

end
-- ==== Proof.RefRun.lean ====
/-
  The reference program's run.  Its program is a straight line once the functions it calls are written out at
  their calls: fifty-four operations, each writing one buffer as a function of buffers written earlier.  Every
  weakly fair execution therefore terminates with each buffer at the fold of the operations over the launch
  contents; read at the result buffer the fold is the operations composed in program order, which is `refTerm`
  of the four argument arrays, and the argument buffers, which no operation writes, end as they began.
-/
import proofs.«174499_j29283087024215_2_alg».proof.ReferenceIdeal
import proofs.«174499_j29283087024215_2_alg».proof.Proof.Gen.ReferenceIdeal
import proofs.«174499_j29283087024215_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F]
variable [Facts]
open Facts₀ Facts

/-- The program's fifty-four operations in order, the called functions' operations at their calls over the calls'
    own buffers: the leaky rectifier's seven (its select last), the mask's three, the exponential linear unit's
    fifteen (its two selects the tenth and the last). -/
abbrev ops : List (HloOp τ sig (Elt F)) :=
  [
    StableHlo.binary main_arg0 main_arg2 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    StableHlo.unary main_arg3 main_v1 ((extractStridedSlice S256x1 ![0, 0] · slices_S512x1_S256x1_0_0) : (⟨S512x1, .f32⟩ : BufTy).Contents (Elt F) → (⟨S256x1, .f32⟩ : BufTy).Contents (Elt F)),
    StableHlo.binary main_v0 main_v1 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    StableHlo.unary main_arg3 main_v3 ((extractStridedSlice S256x1 ![256, 0] · slices_S512x1_S256x1_256_0) : (⟨S512x1, .f32⟩ : BufTy).Contents (Elt F) → (⟨S256x1, .f32⟩ : BufTy).Contents (Elt F)),
    StableHlo.binary main_v0 main_v3 main_v4 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    StableHlo.unary main_v4 main_v5 ((transpose S1x8192 [1, 0] · transposes_S8192x1_S1x8192_1_0) : (⟨S8192x1, .f32⟩ : BufTy).Contents (Elt F) → (⟨S1x8192, .f32⟩ : BufTy).Contents (Elt F)),
    StableHlo.unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    StableHlo.nullary main_cst (constant S_ .f32 0x3E4CCCCD#32),
    StableHlo.nullary main_call0_cst (constant S_ .f32 0x00000000#32),
    StableHlo.unary main_call0_cst main_call0_v0 (broadcastInDim S8192x8192 ![] bcast_S_S8192x8192 : (⟨S_, .f32⟩ : BufTy).Contents (Elt F) → (⟨S8192x8192, .f32⟩ : BufTy).Contents (Elt F)),
    StableHlo.binary main_v8 main_call0_v0 main_call0_v1 (cmpf .oge : (⟨S8192x8192, .f32⟩ : BufTy).Contents (Elt F) → (⟨S8192x8192, .f32⟩ : BufTy).Contents (Elt F) → (⟨S8192x8192, .i1⟩ : BufTy).Contents (Elt F)),
    StableHlo.unary main_cst main_call0_v2 (id : (⟨S_, .f32⟩ : BufTy).Contents (Elt F) → (⟨S_, .f32⟩ : BufTy).Contents (Elt F)),
    StableHlo.unary main_call0_v2 main_call0_v3 (broadcastInDim S8192x8192 ![] bcast_S_S8192x8192 : (⟨S_, .f32⟩ : BufTy).Contents (Elt F) → (⟨S8192x8192, .f32⟩ : BufTy).Contents (Elt F)),
    StableHlo.binary main_call0_v3 main_v8 main_call0_v4 (mulf : (⟨S8192x8192, .f32⟩ : BufTy).Contents (Elt F) → (⟨S8192x8192, .f32⟩ : BufTy).Contents (Elt F) → (⟨S8192x8192, .f32⟩ : BufTy).Contents (Elt F)),
    StableHlo.ternary main_call0_v1 main_v8 main_call0_v4 main_v9 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_c (constantI S_ 32 0#32),
    StableHlo.unary main_c main_v10 (broadcastInDim S8192x8192 ![] bcast_S_S8192x8192 : (⟨S_, .i32⟩ : BufTy).Contents (Elt F) → (⟨S8192x8192, .i32⟩ : BufTy).Contents (Elt F)),
    StableHlo.binary main_arg1 main_v10 main_v11 (cmpi .sgt : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xD9FFCB9E#32),
    StableHlo.unary main_cst_0 main_call1_v0 (id : (⟨S_, .f32⟩ : BufTy).Contents (Elt F) → (⟨S_, .f32⟩ : BufTy).Contents (Elt F)),
    StableHlo.unary main_call1_v0 main_call1_v1 (broadcastInDim S8192x8192 ![] bcast_S_S8192x8192 : (⟨S_, .f32⟩ : BufTy).Contents (Elt F) → (⟨S8192x8192, .f32⟩ : BufTy).Contents (Elt F)),
    StableHlo.ternary main_v11 main_v9 main_call1_v1 main_v12 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0xFF800000#32),
    StableHlo.binary main_v12 main_cst_1 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_2 (constant S_ .f32 0xFF800000#32),
    StableHlo.unary main_cst_2 main_v14 (broadcastInDim S8192 ![] bcast_S_S8192 : (⟨S_, .f32⟩ : BufTy).Contents (Elt F) → (⟨S8192, .f32⟩ : BufTy).Contents (Elt F)),
    StableHlo.binary main_v14 main_v13 main_v15 (maximumf : (⟨S8192, .f32⟩ : BufTy).Contents (Elt F) → (⟨S8192, .f32⟩ : BufTy).Contents (Elt F) → (⟨S8192, .f32⟩ : BufTy).Contents (Elt F)),
    StableHlo.unary main_v15 main_v16 (broadcastInDim S8192x1 ![0] bcast_S8192_S8192x1_0 : (⟨S8192, .f32⟩ : BufTy).Contents (Elt F) → (⟨S8192x1, .f32⟩ : BufTy).Contents (Elt F)),
    StableHlo.unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    StableHlo.unary main_v18 main_v19 (Host.exp : (⟨S8192x8192, .f32⟩ : BufTy).Contents (Elt F) → (⟨S8192x8192, .f32⟩ : BufTy).Contents (Elt F)),
    StableHlo.nullary main_cst_3 (constant S_ .f32 0x00000000#32),
    StableHlo.binary main_v19 main_cst_3 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.unary main_v20 main_v21 (broadcastInDim S8192x1 ![0] bcast_S8192_S8192x1_0 : (⟨S8192, .f32⟩ : BufTy).Contents (Elt F) → (⟨S8192x1, .f32⟩ : BufTy).Contents (Elt F)),
    StableHlo.unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)),
    StableHlo.binary main_v23 main_v0 main_v24 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.nullary main_call2_cst (constant S_ .f32 0x00000000#32),
    StableHlo.unary main_call2_cst main_call2_v0 (broadcastInDim S8192x256 ![] bcast_S_S8192x256 : (⟨S_, .f32⟩ : BufTy).Contents (Elt F) → (⟨S8192x256, .f32⟩ : BufTy).Contents (Elt F)),
    StableHlo.binary main_v24 main_call2_v0 main_call2_v1 (cmpf .ogt : (⟨S8192x256, .f32⟩ : BufTy).Contents (Elt F) → (⟨S8192x256, .f32⟩ : BufTy).Contents (Elt F) → (⟨S8192x256, .i1⟩ : BufTy).Contents (Elt F)),
    StableHlo.nullary main_call2_cst_0 (constant S_ .f32 0x00000000#32),
    StableHlo.unary main_call2_cst_0 main_call2_v2 (broadcastInDim S8192x256 ![] bcast_S_S8192x256 : (⟨S_, .f32⟩ : BufTy).Contents (Elt F) → (⟨S8192x256, .f32⟩ : BufTy).Contents (Elt F)),
    StableHlo.binary main_v24 main_call2_v2 main_call2_v3 (cmpf .ogt : (⟨S8192x256, .f32⟩ : BufTy).Contents (Elt F) → (⟨S8192x256, .f32⟩ : BufTy).Contents (Elt F) → (⟨S8192x256, .i1⟩ : BufTy).Contents (Elt F)),
    StableHlo.nullary main_call2_cst_1 (constant S_ .f32 0x00000000#32),
    StableHlo.unary main_call2_cst_1 main_call2_call0_v0 (id : (⟨S_, .f32⟩ : BufTy).Contents (Elt F) → (⟨S_, .f32⟩ : BufTy).Contents (Elt F)),
    StableHlo.unary main_call2_call0_v0 main_call2_call0_v1 (broadcastInDim S8192x256 ![] bcast_S_S8192x256 : (⟨S_, .f32⟩ : BufTy).Contents (Elt F) → (⟨S8192x256, .f32⟩ : BufTy).Contents (Elt F)),
    StableHlo.ternary main_call2_v3 main_call2_call0_v1 main_v24 main_call2_v4 (select : (⟨S8192x256, .i1⟩ : BufTy).Contents (Elt F) → (⟨S8192x256, .f32⟩ : BufTy).Contents (Elt F) → (⟨S8192x256, .f32⟩ : BufTy).Contents (Elt F) → (⟨S8192x256, .f32⟩ : BufTy).Contents (Elt F)),
    StableHlo.unary main_call2_v4 main_call2_v5 (Host.expm1 : (⟨S8192x256, .f32⟩ : BufTy).Contents (Elt F) → (⟨S8192x256, .f32⟩ : BufTy).Contents (Elt F)),
    StableHlo.nullary main_call2_cst_2 (constant S_ .f32 0x3F800000#32),
    StableHlo.unary main_call2_cst_2 main_call2_v6 (broadcastInDim S8192x256 ![] bcast_S_S8192x256 : (⟨S_, .f32⟩ : BufTy).Contents (Elt F) → (⟨S8192x256, .f32⟩ : BufTy).Contents (Elt F)),
    StableHlo.binary main_call2_v6 main_call2_v5 main_call2_v7 (mulf : (⟨S8192x256, .f32⟩ : BufTy).Contents (Elt F) → (⟨S8192x256, .f32⟩ : BufTy).Contents (Elt F) → (⟨S8192x256, .f32⟩ : BufTy).Contents (Elt F)),
    StableHlo.ternary main_call2_v1 main_v24 main_call2_v7 main_v25 (select : (⟨S8192x256, .i1⟩ : BufTy).Contents (Elt F) → (⟨S8192x256, .f32⟩ : BufTy).Contents (Elt F) → (⟨S8192x256, .f32⟩ : BufTy).Contents (Elt F) → (⟨S8192x256, .f32⟩ : BufTy).Contents (Elt F)) ]

-- fifty-four binds re-associated: the rewrite under the chain recurses once per statement
set_option maxRecDepth 4096 in
/-- The program is that straight line: the called functions' definitions unfolded at their calls and the calls'
    records at their fields, both sides are one chain of steps once sequencing is re-associated; an operation of a
    called function, written over typed references, is the plain operation at the buffers it names, the transport
    of its function along each buffer's type being the identity at a literal buffer. -/
theorem main_eq (c : Dev nD) : main (F := F) c = seq ops := by
  simp only [main, fn_leaky_relu.body, fn_where.body, fn_where_0.body, fn_elu.body, fn_where_1.body, fn_where_2.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    binary_bufs_sub .., unary_bufs_sub .., binary_bufs_sub .., unary_bufs_sub .., binary_bufs_sub .., unary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub .. ⟩

/-- The fold read at the result buffer is the operations composed in program order: `refTerm` of the argument
    buffers' contents (each operation's result at its own buffer is its function of its operands' contents, at
    any other buffer what was there; the composed term and `refTerm` are then the same operations in the same
    order). -/
theorem out_eq (V : Valuation τ sig (Elt Ideal)) :
    after (ops (F := Ideal)) V (main_v25 : DevRef τ sig)
      = refTerm (V (main_arg0 : DevRef τ sig)) (V (main_arg1 : DevRef τ sig)) (V (main_arg2 : DevRef τ sig))
          (V (main_arg3 : DevRef τ sig)) := by
  after_results_simp
  simp only [refTerm, eluTerm, smTerm, attTerm, hTerm]

/-- No operation writes argument 0's buffer: the fold leaves it as it was. -/
theorem arg0_eq (V : Valuation τ sig (Elt Ideal)) :
    after (ops (F := Ideal)) V (main_arg0 : DevRef τ sig) = V (main_arg0 : DevRef τ sig) := by
  after_results_simp

/-- No operation writes argument 1's buffer: the fold leaves it as it was. -/
theorem arg1_eq (V : Valuation τ sig (Elt Ideal)) :
    after (ops (F := Ideal)) V (main_arg1 : DevRef τ sig) = V (main_arg1 : DevRef τ sig) := by
  after_results_simp

/-- No operation writes argument 2's buffer: the fold leaves it as it was. -/
theorem arg2_eq (V : Valuation τ sig (Elt Ideal)) :
    after (ops (F := Ideal)) V (main_arg2 : DevRef τ sig) = V (main_arg2 : DevRef τ sig) := by
  after_results_simp

/-- No operation writes argument 3's buffer: the fold leaves it as it was. -/
theorem arg3_eq (V : Valuation τ sig (Elt Ideal)) :
    after (ops (F := Ideal)) V (main_arg3 : DevRef τ sig) = V (main_arg3 : DevRef τ sig) := by
  after_results_simp

/-- On every device, from any memory with zero counters: every weakly fair execution of the reference program
    terminates with its result at `refTerm` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v25).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefValue

end
-- ==== Proof.Claims.lean ====
/-
  The claims assembled.  The reference's run ends with its result at the reference's term of its arguments; the
  idealized kernel's run is taken here as a hypothesis in the same form (its result is the reference's term of
  its own arguments); from memories that agree on the arguments the two results are then one array, and the
  frames are the two runs with the result dropped.
-/
import proofs.«174499_j29283087024215_2_alg».proof.Defs
import proofs.«174499_j29283087024215_2_alg».proof.Proof.Gen.Kernel
import proofs.«174499_j29283087024215_2_alg».proof.Proof.Gen.KernelIdeal
import proofs.«174499_j29283087024215_2_alg».proof.Proof.Gen.ReferenceIdeal
import proofs.«174499_j29283087024215_2_alg».proof.Proof.Gen.Pre_finite_inputs
import proofs.«174499_j29283087024215_2_alg».proof.Proof.RefRun

noncomputable section

namespace Cert.Proof.Claims

open Idealize.ShloMosaic Idealize.SL.Sem

attribute [local instance] Cert.Kernel.Gen.facts Cert.KernelIdeal.Gen.facts Cert.ReferenceIdeal.Gen.facts
  Cert.Pre_finite_inputs.Gen.facts

/-- The idealized kernel's run: under the precondition every weakly fair execution terminates, nothing faulting,
    with the result array at the reference's term of the launch arguments and the arguments unchanged. -/
def KernelRun : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4)
          = Cert.ReferenceIdeal.RefValue.refTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

/-- The reference's frame: its run with the result dropped. -/
theorem frame_ri : Cert.frame_ReferenceIdeal := fun m g _ =>
  (θ_run Cert.ReferenceIdeal.defs _ _).mono (fun _ h c => (h c).2) (Cert.ReferenceIdeal.RefValue.run m g)

/-- The idealized kernel's frame: its run with the result dropped. -/
theorem frame_pi (hk : KernelRun) : Cert.frame_KernelIdeal := fun m g hpre =>
  (θ_run Cert.KernelIdeal.defs _ _).mono (fun _ h c => (h c).2) (hk m g hpre)

/-- The ideal pass rewrote no operation: there is nothing to preserve. -/
theorem preserves : Cert.preserves_Kernel_KernelIdeal := trivial

/-- From memories agreeing on the arguments both runs end at the reference's term of the same four arrays. -/
theorem algebraic (hk : KernelRun) : Cert.algebraic_KernelIdeal_ReferenceIdeal := by
  intro m g m' g' hpre hagree
  refine ⟨_, hk m g hpre, ?_⟩
  refine (θ_run Cert.ReferenceIdeal.defs _ _).mono (fun _ h c => ⟨(h c).1.trans ?_, (h c).2⟩)
    (Cert.ReferenceIdeal.RefValue.run m' g')
  rw [(hagree c).1, (hagree c).2.1, (hagree c).2.2.1, (hagree c).2.2.2]

/-- The five claims under the four witnesses of the programs' stated facts. -/
theorem claim_of (hfk : Cert.frame_Kernel) (hk : KernelRun) : Cert.Claim :=
  ⟨Cert.Kernel.Gen.facts, Cert.KernelIdeal.Gen.facts, Cert.ReferenceIdeal.Gen.facts, Cert.Pre_finite_inputs.Gen.facts,
    hfk, frame_pi hk, frame_ri, preserves, algebraic hk⟩

end Cert.Proof.Claims

end
-- ==== Proof.Region0.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection kernel's body on whole staging buffers

The body reads the row block of x (1024×512), the whole of W (512×256) and the two halves of a (256×1 each), and
stores h = x·W (rounded to the narrow format, which is the identity over the extended reals), f1 = h·a₁ and
f2 = h·a₂, each through one rectangle that is the whole buffer. -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S256x1 := Rect.unit (s := S256x1) ![0, 0] S256x1.size inb_S256x1_S256x1_0_0
abbrev rH : Rect S1024x256 := Rect.unit (s := S1024x256) ![0, 0] S1024x256.size inb_S1024x256_S1024x256_0_0
abbrev rF : Rect S1024x1 := Rect.unit (s := S1024x1) ![0, 0] S1024x1.size inb_S1024x1_S1024x1_0_0

/-- The h block the body leaves: its one store, of the product of the loaded blocks. -/
def outH (x0 : Vec F S1024x512 .f32) (x1 : Vec F S512x256 .f32) : Vec F S1024x256 .bf16 :=
  View.canon [⟨rH, k0_pay2 (View.ld x0 rX) (View.ld x1 rW)⟩]
/-- The f1 block the body leaves. -/
def outF1 (x0 : Vec F S1024x512 .f32) (x1 : Vec F S512x256 .f32) (x2 : Vec F S256x1 .f32) : Vec F S1024x1 .f32 :=
  View.canon [⟨rF, k0_pay3 (View.ld x0 rX) (View.ld x1 rW) (View.ld x2 rA)⟩]
/-- The f2 block the body leaves. -/
def outF2 (x0 : Vec F S1024x512 .f32) (x1 : Vec F S512x256 .f32) (x3 : Vec F S256x1 .f32) : Vec F S1024x1 .f32 :=
  View.canon [⟨rF, k0_pay4 (View.ld x0 rX) (View.ld x1 rW) (View.ld x3 rA)⟩]

theorem coverH (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem coverF (p0 : Vec F S1024x1 .f32) (y : S1024x1.Idx) :
    ∃ pc ∈ ([⟨rF, p0⟩] : List (View.Piece (Elt F) S1024x1 .f32)), y ∈ pc.1.set :=
  View.cover_of_tiled [⟨rF, p0⟩] S1024x1.size (by rfl) y

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outH x0 x1)
            ∗ owns (c : Thread nD τ) arg6 fullShare (outF1 x0 x1 x2) ∗ owns (c : Thread nD τ) arg7 fullShare (outF2 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverF _)
  iexists _; isplitr
  swap; · iexact H6
  ipureintro
  exact View.read_writes_eq_canon _ _ _ (coverF _)

/-! # The projection region's proof data, at the contents `V` the region is entered with -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body each input's buffer still at its block, the three outputs'
    at the body's stores of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KernelFrame.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the whole program: two kernel regions among three host operations

The buffer contents at each boundary are a fold from the launch memory: the two slices of `a`, then the projection
region's three output arrays at what its write-backs leave, then the transpose of f2, then the attention region's
output array at what its write-backs leave.  Every argument array is read back through the fold to its launch
contents, and the result array to the attention region's final array. -/

/-- What the assembly needs of the attention region: its proof data at any entry contents, the arrays those
    contents, full shares, nothing owed, the body obligation, and the invariant being the plain one (scoped rest and
    generator register at anything) before the first point and giving it back after the last. -/
structure AttnRegion (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  body : ∀ V c, BodyObligation (dat V c) (defs₀ (F := F)) Variants.none () Set.univ
  Phi_zero : ∀ V c, (dat V c).Φ 0 = Pipeline.ΦA spec1 c
  recorded_eq : ∀ V c t, (dat V c).recorded t = Set.univ
  Phi_last : ∀ V c, (dat V c).Φ (Fin.last cfg1.N) ⊢ (Pipeline.ΦA spec1 c : sProp (MT nD τ sig Unit (Elt F) ℕ (UR sig nD τ) ℕ))

variable (R1 : AttnRegion F)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two slices of `a`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the transpose of f2. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 R1 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 R1 m ρ c b
theorem hF1 (c : Dev nD) (w : Fin cfg1.W) : (R1.dat (V3 m ρ) c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-! ## No host operation writes a buffer it does not name -/

theorem W1_of (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))
theorem W3_of (c : Dev nD) (b : Ref sig .tc) (h : b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-! ## The arguments end as launched -/

theorem W4_main_arg0 (c : Dev nD) : W4 R1 m ρ c (Proc.devRef .tc main_arg0) = m ((c : Thread nD τ).loc main_arg0) :=
  calc W4 R1 m ρ c (Proc.devRef .tc main_arg0)
    _ = W3 m ρ c (Proc.devRef .tc main_arg0) := W4_of_ne R1 m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide)
    _ = m ((c : Thread nD τ).loc main_arg0) := rfl
theorem W4_main_arg1 (c : Dev nD) : W4 R1 m ρ c (Proc.devRef .tc main_arg1) = m ((c : Thread nD τ).loc main_arg1) :=
  calc W4 R1 m ρ c (Proc.devRef .tc main_arg1)
    _ = W3 m ρ c (Proc.devRef .tc main_arg1) := (W4_arr R1 m ρ c 2).trans (((R1.dat (V3 m ρ) c).arrAt_in 2 rfl _).trans (R1.A_eq (V3 m ρ) c 2))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide) (by decide)
    _ = m ((c : Thread nD τ).loc main_arg1) := rfl
theorem W4_main_arg2 (c : Dev nD) : W4 R1 m ρ c (Proc.devRef .tc main_arg2) = m ((c : Thread nD τ).loc main_arg2) :=
  calc W4 R1 m ρ c (Proc.devRef .tc main_arg2)
    _ = W3 m ρ c (Proc.devRef .tc main_arg2) := W4_of_ne R1 m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide) (by decide)
    _ = m ((c : Thread nD τ).loc main_arg2) := rfl
theorem W4_main_arg3 (c : Dev nD) : W4 R1 m ρ c (Proc.devRef .tc main_arg3) = m ((c : Thread nD τ).loc main_arg3) :=
  calc W4 R1 m ρ c (Proc.devRef .tc main_arg3)
    _ = W3 m ρ c (Proc.devRef .tc main_arg3) := W4_of_ne R1 m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide) (by decide)
    _ = m ((c : Thread nD τ).loc main_arg3) := rfl

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => R1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 R1 m ρ c) ∗ ∃ r, prngReg c r)

/-! ## The regions as segments -/

set_option backward.isDefEq.respectTransparency.types false in
/-- The projection region over the thread state. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V3 m ρ) c).loose
  hwaits := Pipeline.hwaits_of_owed_zero _ _ _ _ L lv 1 fun c t => R1.owed_eq (V3 m ρ) c t
  pre c := iprop(StableHlo.held (c : Thread nD τ) (Pipeline.ucRefs τ sig) (W3 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full fun w => R1.q_eq (V3 m ρ) c w) (V3 m ρ c) fun w => R1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from R1.owed_eq (V3 m ρ) c 0]
      icases HO with ⟨%W, HO⟩; iexists W; isplitr
      · ipureintro
        exact fun x _ => Or.inl (by
          rw [show (pdats R1 m ρ 1 c).recorded 0 = Set.univ from R1.recorded_eq (V3 m ρ) c 0]; exact Set.mem_univ x)
      iexact HO
    isplitl [Hp]; · iexact Hp
    iexact Hrest
  hin c := by
    rw [show (pdats R1 m ρ 1 c).Φ 0 = Pipeline.ΦA spec1 c from R1.Phi_zero (V3 m ρ) c]; unfold Pipeline.ΦA
    iintro ⟨Hp, -, Hr⟩
    isplitl [Hr]; · iexact Hr
    iexact Hp
  hout c := by
    rw [Pipeline.ownSems0_none]
    refine (show (pdats R1 m ρ 1 c).Φ (Fin.last _) ⊢ (Pipeline.ΦA spec1 c : sProp 𝕄) from R1.Phi_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full fun w => R1.q_eq (V3 m ρ) c w)
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R1 m ρ 1 c).owed (Fin.last (Pipeline.pin (pcfgs (F := F)) adm 1).N) = 0 from R1.owed_eq (V3 m ρ) c _]
    icases HO with ⟨%W, -, HO⟩; iexists W; iexact HO

/-! ## The program as segments, and the launch -/

abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 m ρ) ]
theorem main_run (c : Dev nD) : main (F := F) c = Pipeline.Seg.run (segs R1 m ρ) := (main_chain c).trans (by chain_rfl)

set_option backward.isDefEq.respectTransparency.types false in
/-- THE RUN: from any memory with zero counters every weakly fair execution of the program terminates, nothing
    faulting, and every final state holds each unscoped buffer at the last boundary's contents: the result array at
    the attention region's final array, every argument array as launched. -/
theorem run_main : θ_run defs (onTc (τ := τ) (main (F := F))) ⟨m, fun _ => 0, ρ⟩ (fun r => ∀ c : Dev nD,
      r.2.mem ((c.tc : Thread nD τ).loc main_v4) = (R1.dat (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats R1 m ρ) () cellOf_inj emb₁ defs₀ 𝒱₀ L lv m ρ main (segs R1 m ρ)
    (fun c Q => by rw [main_run R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R1 m ρ c) s')
      isplitl [Hh] <;> iassumption)
    (hQ := fun s h c =>
      ⟨(h c _ (mem_uc main_v4 (by decide))).trans (W4_arr R1 m ρ c 4),
       (h c _ (mem_uc main_arg0 (by decide))).trans (W4_main_arg0 R1 m ρ c),
       (h c _ (mem_uc main_arg1 (by decide))).trans (W4_main_arg1 R1 m ρ c),
       (h c _ (mem_uc main_arg2 (by decide))).trans (W4_main_arg2 R1 m ρ c),
       (h c _ (mem_uc main_arg3 (by decide))).trans (W4_main_arg3 R1 m ρ c)⟩)

end Cert.KernelIdeal.Hand

end
-- ==== Proof.Step1.lean ====
/-
  One grid point of the attention kernel as a pure function, over the generated payloads.

  The kernel keeps three arrays between the column blocks of one row block: the running row maximum `m`
  (1024×1), the running denominator `l` (1024×1) and the running numerator `acc` (1024×256).  At a point it
  reads the f1 block `x0`, the f2ᵀ block `x1`, the adjacency block `x2` and the rows of h that the column block
  selects (`vslice`), and replaces (m, l, acc) by `step`; at the first column block it starts from `init`
  (−∞, 0, 0); after the last one the output block is `finish acc l`, the quotient under the exponential linear unit.
-/
import proofs.«174499_j29283087024215_2_alg».proof.Proof.Gen.KernelIdeal.Skeleton
import Idealize.ShloMosaic.Lib.Pipeline.FrameBody

noncomputable section

namespace Cert.KernelIdeal.Hand

open Idealize.ShloMosaic Cert.KernelIdeal Cert.KernelIdeal.Gen

variable {F : FTy → Type} [FloatOps F]

/-- The three carried arrays: (m, l, acc). -/
abbrev Scr (F : FTy → Type) [FloatOps F] : Type := Vec F S1024x1 .f32 × Vec F S1024x1 .f32 × Vec F S1024x256 .f32

/-- The rectangle of h's rows that the column block of grid point `i` selects. -/
abbrev rV (i : grid1.Coords) : Rect S8192x256 := Rect.unit (s := S8192x256) (k1_off1 i) S1024x256.size (k1_off1_inb i)
/-- Those rows of the whole h array. -/
def vslice (i : grid1.Coords) (x3 : Vec F S8192x256 .bf16) : Vec F S1024x256 .bf16 := View.ld x3 (rV i)

/-- What the first column block starts from: m = −∞, l = 0, acc = 0. -/
def init : Scr F := (k1_pay5, k1_pay6, k1_pay7)

/-- The new running maximum. -/
def stepM (x0 : Vec F S1024x1 .f32) (x1 : Vec F S1x1024 .f32) (x2 : Vec F S1024x1024 .i32) (m : Vec F S1024x1 .f32) : Vec F S1024x1 .f32 :=
  k1_pay3 (k1_pay10 x0 x1 x2 m)
/-- The new running denominator. -/
def stepL (x0 : Vec F S1024x1 .f32) (x1 : Vec F S1x1024 .f32) (x2 : Vec F S1024x1024 .i32) (m l : Vec F S1024x1 .f32) : Vec F S1024x1 .f32 :=
  k1_pay1 (k1_pay13 x0 x1 x2 m m l) (k1_pay14 x0 x1 x2 m)
/-- The new running numerator. -/
def stepAcc (i : grid1.Coords) (x0 : Vec F S1024x1 .f32) (x1 : Vec F S1x1024 .f32) (x2 : Vec F S1024x1024 .i32) (x3 : Vec F S8192x256 .bf16)
    (m : Vec F S1024x1 .f32) (acc : Vec F S1024x256 .f32) : Vec F S1024x256 .f32 :=
  k1_pay2 (k1_pay9 (vslice i x3)) (k1_pay11 x0 x1 x2 m m) (k1_pay12 x0 x1 x2 m) acc
/-- One point's update of the carried arrays. -/
def step (i : grid1.Coords) (x0 : Vec F S1024x1 .f32) (x1 : Vec F S1x1024 .f32) (x2 : Vec F S1024x1024 .i32) (x3 : Vec F S8192x256 .bf16)
    (s : Scr F) : Scr F :=
  (stepM x0 x1 x2 s.1, stepL x0 x1 x2 s.1 s.2.1, stepAcc i x0 x1 x2 x3 s.1 s.2.2)
/-- The output block after the last column block. -/
def finish (s : Scr F) : Vec F S1024x256 .f32 := k1_pay4 s.2.2 s.2.1

end Cert.KernelIdeal.Hand

end
-- ==== Proof.Region1Runs.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.Step1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's region: what its three control cases share

The grid is 8×8: point `t` is row block `t / 8`, column block `t % 8`.  The body initialises the three carried
arrays at the first column block, updates them at every point, and stores the output block at the last column
block only.  Here: the two branch conditions in closed form, where the output window is idle, and the region
invariant with the three carried arrays named. -/

/-! ## The body's branch conditions -/

/-- The condition of the initialising branch, from the grid coordinates. -/
abbrev cond1_0 (i : grid1.Coords) : Prop := (Scalar.cmpi .ne (Scalar.extui (Scalar.cmpi .eq (BitVec.ofNat 32 (i 1).val) 0#32)) 0#32) = 1#1
/-- It holds at the first column block only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the finishing branch, from the grid coordinates. -/
abbrev cond1_1 (i : grid1.Coords) : Prop := k1_cond2 i = 1#1
/-- It holds at the last column block only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last column block the output window is idle, and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last column block it is live. -/
theorem liveAt1_4 : ∀ t : Fin cfg1.N, cond1_1 (grid1.coords t) → cfg1.idle 4 (grid1.coords t) = false := by decide +kernel

/-! ## The staging and scratch memrefs -/

/-- One staging buffer of the output window, through which its contents are stated. -/
abbrev VO1_4 : View sig .tc .vmem S1024x256 .f32 := (Memref.whole cc1_stg4_0 : Memref sig .tc .vmem S1024x256 .f32).view
/-- Each window's current staging memref at point `t`, as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried arrays: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant -/

/-- What the region invariant holds beside the three carried arrays: the other kernel's staging buffers, each at
    some contents, and the generator register at some state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ r, prngReg c r))

/-- The region invariant as the launch hands it over: the three carried arrays at some contents each, and the rest. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)
          ∗ (∃ d, owns (c : Thread nD τ) scM1_2 fullShare d)) ∗ rest1 c) := by
  unfold Pipeline.ΦA rest1; rw [scopedRest1_eq]; simp only [scM1_0, scM1_1, scM1_2, owns_whole]
  refine BI.equiv_iff.mp ⟨?_, ?_⟩
  · show (_ : sProp 𝕄) ⊢ _
    iintro ⟨⟨A0, A1, A2, A3, A4, A5, A6, A7, A8, A9, A10, S0, S1, S2⟩, Hg⟩
    isplitl [S0 S1 S2]
    · isplitl [S0]; · iexact S0
      isplitl [S1]; · iexact S1
      iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact Hg
  · show (_ : sProp 𝕄) ⊢ _
    iintro ⟨⟨S0, S1, S2⟩, A0, A1, A2, A3, A4, A5, A6, A7, A8, A9, A10, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [S0]; · iexact S0
    isplitl [S1]; · iexact S1
    iexact S2

end Cert.KernelIdeal.Hand

end
-- ==== Proof.Region1RunA.lean ====
import proofs.«174499_j29283087024215_2_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first column block that is not a last one: the pieces its stores leave in the three carried
    arrays, with the proof that on whole memrefs — the inputs at their contents, the output's buffer at contents
    handed back untouched, the carried arrays at anything — it runs to the continuation holding the inputs as they
    were and each carried array with its pieces written. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.Region1RunB.lean ====
import proofs.«174499_j29283087024215_2_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a column block that is neither first nor last: the pieces its stores leave in the three carried
    arrays, with the proof that on whole memrefs — the inputs at their contents, the output's buffer at contents
    handed back untouched, the carried arrays at what the point before left — it runs to the continuation holding
    the inputs as they were and each carried array with its pieces written. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.Region1RunC.lean ====
import proofs.«174499_j29283087024215_2_alg».proof.Proof.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a last column block: the pieces its stores leave in the output's buffer and in the three carried
    arrays, with the proof that on whole memrefs — the inputs at their contents, the output's buffer at anything,
    the carried arrays at what the point before left — it runs to the continuation holding the inputs as they were
    and each other buffer with its pieces written. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.Iblk1.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The attention region's window `w`'s block at point `t`, read off its array as the region finds it. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

end Cert.KernelIdeal.Hand

end
-- ==== Proof.Region1.lean ====
import proofs.«174499_j29283087024215_2_alg».proof.Proof.Region1RunA
import proofs.«174499_j29283087024215_2_alg».proof.Proof.Region1RunB
import proofs.«174499_j29283087024215_2_alg».proof.Proof.Region1RunC
import proofs.«174499_j29283087024215_2_alg».proof.Proof.Iblk1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention kernel's region: its proof data and its body obligation

One point's update of the three carried arrays is `step`; the runs of the three control cases leave pieces in the
carried arrays (and, at a last column block, in the output's buffer) that read back as `step`'s components (and as
`finish` of them).  The carried arrays point by point are `scrAt1`, the region invariant names them, and the body
obligation follows case by case. -/

theorem hz2 : (![0, 0] : Fin 2 → Nat) = fun _ => 0 := funext fun a => by fin_cases a <;> rfl

/-! # What each case's pieces read back as -/

/-- The pieces the first-column-block run leaves in the running maximum's array cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x1.Idx) : ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- Read back through any view over any prior contents they are that component of the point's update. -/
theorem sread1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.1) = (step i x0 x1 x2 x3 (init (F := F))).1 := by
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the first-column-block run leaves in the running denominator's array cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x1.Idx) : ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- Read back through any view over any prior contents they are that component of the point's update. -/
theorem sread1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.2.1) = (step i x0 x1 x2 x3 (init (F := F))).2.1 := by
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the first-column-block run leaves in the running numerator's array cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x256.Idx) : ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- Read back through any view over any prior contents they are that component of the point's update. -/
theorem sread1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x256 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.2.2.1) = (step i x0 x1 x2 x3 (init (F := F))).2.2 := by
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running maximum's array cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.1 S1024x1.size (by sl_kernel_rfl) y

/-- Read back through any view over any prior contents they are that component of the point's update. -/
theorem sread1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.1) = (step i x0 x1 x2 x3 s).1 := by
  rw [View.read_writes_eq_canon _ _ _ (scover1_B_0 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running denominator's array cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.2.1 S1024x1.size (by sl_kernel_rfl) y

/-- Read back through any view over any prior contents they are that component of the point's update. -/
theorem sread1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.2.1) = (step i x0 x1 x2 x3 s).2.1 := by
  rw [View.read_writes_eq_canon _ _ _ (scover1_B_1 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running numerator's array cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.2.2.1 S1024x256.size (by sl_kernel_rfl) y

/-- Read back through any view over any prior contents they are that component of the point's update. -/
theorem sread1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.2.2.1) = (step i x0 x1 x2 x3 s).2.2 := by
  rw [View.read_writes_eq_canon _ _ _ (scover1_B_2 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running maximum's array cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.1 S1024x1.size (by sl_kernel_rfl) y

/-- Read back through any view over any prior contents they are that component of the point's update. -/
theorem sread1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.1) = (step i x0 x1 x2 x3 s).1 := by
  rw [View.read_writes_eq_canon _ _ _ (scover1_C_0 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running denominator's array cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.2.1 S1024x1.size (by sl_kernel_rfl) y

/-- Read back through any view over any prior contents they are that component of the point's update. -/
theorem sread1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.2.1) = (step i x0 x1 x2 x3 s).2.1 := by
  rw [View.read_writes_eq_canon _ _ _ (scover1_C_1 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running numerator's array cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.2.2.1 S1024x256.size (by sl_kernel_rfl) y

/-- Read back through any view over any prior contents they are that component of the point's update. -/
theorem sread1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.2.2.1) = (step i x0 x1 x2 x3 s).2.2 := by
  rw [View.read_writes_eq_canon _ _ _ (scover1_C_2 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the output's buffer cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).1 S1024x256.size (by sl_kernel_rfl) y

/-- Read back through any view over any prior contents they are the finished block of the updated arrays. -/
theorem read1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).1) = finish (step i x0 x1 x2 x3 s) := by
  rw [View.read_writes_eq_canon _ _ _ (cover1_C_4 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-! # The carried arrays point by point, the proof data and the body obligation -/

section
variable (V : (c : Dev nD) → (b : Ref sig .tc) → Buf (Elt F) ((c : Thread nD τ).loc b))

/-- The carried arrays after the body at position `n`: at a first column block the update of the initial arrays by the
    point's blocks, elsewhere the update of what the point before left. -/
def scrAt1 (c : Dev nD) : (n : ℕ) → n < cfg1.N → Scr F
  | 0, hn => step (grid1.coords ⟨0, hn⟩) (iblk1 V c 0 ⟨0, hn⟩) (iblk1 V c 1 ⟨0, hn⟩) (iblk1 V c 2 ⟨0, hn⟩) (iblk1 V c 3 ⟨0, hn⟩) init
  | n + 1, hn =>
    if (n + 1) % 8 = 0 then step (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) init
    else step (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))

theorem scrAt1_first (c : Dev nD) (t : Fin cfg1.N) (h : t.val % 8 = 0) :
    scrAt1 V c t.val t.isLt = step (grid1.coords t) (iblk1 V c 0 t) (iblk1 V c 1 t) (iblk1 V c 2 t) (iblk1 V c 3 t) init := by
  obtain ⟨n, hn⟩ := t
  cases n with
  | zero => rfl
  | succ n => exact if_pos h

theorem scrAt1_next (c : Dev nD) (t : Fin cfg1.N) (h : t.val % 8 ≠ 0) :
    scrAt1 V c t.val t.isLt = step (grid1.coords t) (iblk1 V c 0 t) (iblk1 V c 1 t) (iblk1 V c 2 t) (iblk1 V c 3 t) (scrAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point what the launch hands over; afterwards the three
    carried arrays at what the point before left, and the rest. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 c) := rfl

theorem PhiS1_pos (c : Dev nD) (n : ℕ) (h : n ≤ cfg1.N) (hz : n ≠ 0) :
    PhiS1 V c n h = iprop(iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 c) := by
  cases n with
  | zero => exact absurd rfl hz
  | succ n => rfl

/-- The proof data: the arrays as found; after the body each input's buffer still at its block and the output's at the
    finished block of the carried arrays; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => finish (scrAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output's buffer after the body: the finished block (consulted where the output is stored). -/
theorem after1_4' (c : Dev nD) (t : Fin cfg1.N) : (dat1 V c).after 4 t = finish (scrAt1 V c t.val t.isLt) := by dsimp only [dat1]
theorem after1_4 (c : Dev nD) (t : Fin cfg1.N) (h : t.val % 8 = 7) : (dat1 V c).after 4 t = finish (scrAt1 V c t.val t.isLt) :=
  after1_4' V c t

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the column block says which case the point is in; the
    invariant hands the body the carried arrays (at anything before the first point, at what the point before left
    afterwards) and takes them back at this point's update; at a last column block the output's buffer is left at the
    finished block, elsewhere it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  have hN : t.val < 64 := lt_of_lt_of_eq t.isLt (show cfg1.N = 64 from N_1)
  by_cases h0 : t.val % 8 = 0
  · have h7 : ¬t.val % 8 = 7 := by omega
    rw [Dat.leavesExact_idle (dat1 V c) 4 t (idleAt1_4 t (fun h => h7 ((hcond1_1 t).mp h))) (noFlush1_4 t (fun h => h7 ((hcond1_1 t).mp h)))]
    rw [scrAt1_first V c t h0]
    by_cases hz : t.val = 0
    · rw [PhiS1_castSucc V c t, PhiS1_zero V c _ _ hz, PhiA1_eq]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_0.view es0
        isplitl [HS1]
        · unfold owns; iexists _; isplitr
          swap; · iexact HS1
          ipureintro; exact sread1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_1.view es1
        unfold owns; iexists _; isplitr
        swap; · iexact HS2
        ipureintro; exact sread1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_2.view es2
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_0.view es0
        isplitl [HS1]
        · unfold owns; iexists _; isplitr
          swap; · iexact HS1
          ipureintro; exact sread1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_1.view es1
        unfold owns; iexists _; isplitr
        swap; · iexact HS2
        ipureintro; exact sread1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_2.view es2
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dat1 V c).leavesExact 4 t = owns (c : Thread nD τ) (ms1_4 t) fullShare ((dat1 V c).after 4 t) from by
      unfold Dat.leavesExact; rw [liveAt1_4 t ((hcond1_1 t).mpr h7)], after1_4 V c t h7]
      rw [scrAt1_next V c t h0]
      rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_0.view es0
        isplitl [HS1]
        · unfold owns; iexists _; isplitr
          swap; · iexact HS1
          ipureintro; exact sread1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_1.view es1
        unfold owns; iexists _; isplitr
        swap; · iexact HS2
        ipureintro; exact sread1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_2.view es2
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) (ms1_4 t).view e4
    · rw [Dat.leavesExact_idle (dat1 V c) 4 t (idleAt1_4 t (fun h => h7 ((hcond1_1 t).mp h))) (noFlush1_4 t (fun h => h7 ((hcond1_1 t).mp h)))]
      rw [scrAt1_next V c t h0]
      rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_0.view es0
        isplitl [HS1]
        · unfold owns; iexists _; isplitr
          swap; · iexact HS1
          ipureintro; exact sread1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_1.view es1
        unfold owns; iexists _; isplitr
        swap; · iexact HS2
        ipureintro; exact sread1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_2.view es2
      isplitl [Ho]; · iexact Ho
      isplitl [H0]; · iexact H0
      isplitl [H1]; · iexact H1
      isplitl [H2]; · iexact H2
      isplitl [H3]; · iexact H3
      iexists _; iexact H4

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- The invariant before the first point is what the launch hands over. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the carried arrays' named contents are forgotten. -/
theorem Phi1_last (c : Dev nD) : (dat1 V c).Φ (Fin.last cfg1.N) ⊢ (Pipeline.ΦA spec1 c : sProp 𝕄) := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, HS1, HS2⟩, Hr⟩
  isplitl [HS0 HS1 HS2]
  · isplitl [HS0]; · iexists _; iexact HS0
    isplitl [HS1]; · iexists _; iexact HS1
    iexists _; iexact HS2
  iexact Hr

end

end Cert.KernelIdeal.Hand

end
-- ==== Proof.Attn.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.KernelFrame
import proofs.«174499_j29283087024215_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The attention region's proof data, body obligation and invariant facts, as the record the assembly takes. -/
def attn : AttnRegion F where
  dat := dat1
  A_eq := A_eq1
  q_eq := fun _ _ _ => rfl
  owed_eq := fun _ _ _ => rfl
  body := body_obligation1
  Phi_zero := Phi1_zero
  recorded_eq := fun _ _ _ => rfl
  Phi_last := Phi1_last

/-- The frame: every weakly fair execution terminates without a fault and the argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main attn m ρ)

end Cert.KernelIdeal.Hand

end
-- ==== Proof.Boundary.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.KernelFrame
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each region finds in the buffers it reads

The projection region finds x and W as launched and the two halves of `a` as the slices leave them; the attention
region finds f1 and h as the projection region's final arrays, f2ᵀ as the transpose of its third final array, and
the adjacency as launched. -/

variable (R1 : AttnRegion F)
variable (m : (ℓ : Loc nD τ sig) → Buf (Elt F) ℓ) (ρ : Dev nD → PrngReg)

theorem V1_arg0 (c : Dev nD) : V1 m ρ c main_arg0 = m ((c : Thread nD τ).loc main_arg0) :=
  (W1_of m ρ c main_arg0 (by decide) (by decide)).trans rfl
theorem V1_arg2 (c : Dev nD) : V1 m ρ c main_arg2 = m ((c : Thread nD τ).loc main_arg2) :=
  (W1_of m ρ c main_arg2 (by decide) (by decide)).trans rfl
theorem V1_v0 (c : Dev nD) : (V1 m ρ c main_v0 : S256x1.Idx → Elt F .f32)
    = extractStridedSlice S256x1 ![0, 0] (m ((c : Thread nD τ).loc main_arg3) : S512x1.Idx → Elt F .f32) slices_S512x1_S256x1_0_0 := by
  dsimp only [V1, W1, hostOps0]; after_results
theorem V1_v1 (c : Dev nD) : (V1 m ρ c main_v1 : S256x1.Idx → Elt F .f32)
    = extractStridedSlice S256x1 ![256, 0] (m ((c : Thread nD τ).loc main_arg3) : S512x1.Idx → Elt F .f32) slices_S512x1_S256x1_256_0 := by
  dsimp only [V1, W1, hostOps0]; after_results

theorem V3_v2_1 (c : Dev nD) : V3 m ρ c main_v2_1 = (dat0 (V1 m ρ) c).arrAt 5 cfg0.N :=
  (W3_of m ρ c main_v2_1 (by decide)).trans (W2_arr m ρ c 5)
theorem V3_v2_0 (c : Dev nD) : V3 m ρ c main_v2_0 = (dat0 (V1 m ρ) c).arrAt 4 cfg0.N :=
  (W3_of m ρ c main_v2_0 (by decide)).trans (W2_arr m ρ c 4)
theorem V3_arg1 (c : Dev nD) : V3 m ρ c main_arg1 = m ((c : Thread nD τ).loc main_arg1) :=
  (W3_of m ρ c main_arg1 (by decide)).trans ((W2_of_ne m ρ c main_arg1 (by decide)).trans ((W1_of m ρ c main_arg1 (by decide) (by decide)).trans rfl))
theorem V3_v3 (c : Dev nD) : (V3 m ρ c main_v3 : S1x8192.Idx → Elt F .f32)
    = transpose S1x8192 [1, 0] ((dat0 (V1 m ρ) c).arrAt 6 cfg0.N : S8192x1.Idx → Elt F .f32) transposes_S8192x1_S1x8192_1_0 := by
  dsimp only [V3, W3, hostOps1]; after_results
  exact congrArg (fun z => transpose S1x8192 [1, 0] z transposes_S8192x1_S1x8192_1_0) (W2_arr m ρ c 6)

end Cert.KernelIdeal.Hand

end
-- ==== Proof.ValBlocks0.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.Region0
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The projection region's blocks, index by index

Point `t` of the eight-point grid works on rows 1024·t … 1024·t + 1023: the x window's block is those rows of x,
the W and a windows' blocks are the whole arrays, and the three outputs' blocks are those rows of h, f1 and f2.
The eight row blocks cover each output array. -/

open Idealize.ShloMosaic.ValueIdx

variable (V : (c : Dev nD) → (b : Ref sig .tc) → Buf (Elt F) ((c : Thread nD τ).loc b))

theorem hz2 : (![0, 0] : Fin 2 → Nat) = fun _ => 0 := funext fun a => by fin_cases a <;> rfl

/-- The printed index maps, decided over the grid. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The x window's block at point `t` is rows 1024·t … of x. -/
theorem iblk0_0_apply (c : Dev nD) (t : Fin cfg0.N) (p : Fin 1024) (k : Fin 512) (r : Fin 8192) (hr : r.val = 1024 * t.val + p.val) :
    (iblk0 V c 0 t : Vec F S1024x512 .f32) (ix2 p k) = (V c main_arg0 : S8192x512.Idx → Elt F .f32) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 1024 + 1 * p.val = r.val; rw [e0, hr]; omega
  | ⟨1, _⟩ => show win0_0.index t 1 * 512 + 1 * k.val = k.val; rw [e1]; omega

/-- The W window's block is W. -/
theorem iblk0_1_apply (c : Dev nD) (t : Fin cfg0.N) (k : Fin 512) (d : Fin 256) :
    (iblk0 V c 1 t : Vec F S512x256 .f32) (ix2 k d) = (V c main_arg2 : S512x256.Idx → Elt F .f32) (ix2 k d) := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 512 + 1 * k.val = k.val; rw [e0]; omega
  | ⟨1, _⟩ => show win0_1.index t 1 * 256 + 1 * d.val = d.val; rw [e1]; omega

/-- The first half of a. -/
theorem iblk0_2_apply (c : Dev nD) (t : Fin cfg0.N) (e : Fin 256) :
    (iblk0 V c 2 t : Vec F S256x1 .f32) (ix2 e (0 : Fin 1)) = (V c main_v0 : S256x1.Idx → Elt F .f32) (ix2 e (0 : Fin 1)) := by
  obtain ⟨-, -, -, -, e0, e1, -⟩ := idx0 t
  unfold iblk0
  rw [View.read_apply]
  show V c main_v0 _ = V c main_v0 _
  congr 1
  funext a
  apply Fin.ext
  match a with
  | ⟨0, _⟩ => show win0_2.index t 0 * 256 + 1 * e.val = e.val; rw [e0]; omega
  | ⟨1, _⟩ => show win0_2.index t 1 * 1 + 1 * 0 = 0; rw [e1]

/-- The second half of a. -/
theorem iblk0_3_apply (c : Dev nD) (t : Fin cfg0.N) (e : Fin 256) :
    (iblk0 V c 3 t : Vec F S256x1 .f32) (ix2 e (0 : Fin 1)) = (V c main_v1 : S256x1.Idx → Elt F .f32) (ix2 e (0 : Fin 1)) := by
  obtain ⟨-, -, -, -, -, -, e0, e1, -⟩ := idx0 t
  unfold iblk0
  rw [View.read_apply]
  show V c main_v1 _ = V c main_v1 _
  congr 1
  funext a
  apply Fin.ext
  match a with
  | ⟨0, _⟩ => show win0_3.index t 0 * 256 + 1 * e.val = e.val; rw [e0]; omega
  | ⟨1, _⟩ => show win0_3.index t 1 * 1 + 1 * 0 = 0; rw [e1]

/-! ## The outputs' blocks -/

theorem mem_blk0_4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v2_0).slice (win0_4.rect t)).set ↔ _
  rw [View.set_slice_whole, Rect.mem_set_unit]
  exact Iff.rfl
theorem mem_blk0_5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl
theorem mem_blk0_6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

/-- Row r is in the block of point r / 1024. -/
theorem cover0_4 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  refine ⟨⟨(i 0).val / 1024, by rw [hN]; omega⟩, flush0_4 _, ?_⟩
  rw [mem_blk0_4]
  obtain ⟨-, -, -, -, -, -, -, -, e0, e1, -⟩ := idx0 ⟨(i 0).val / 1024, by rw [hN]; omega⟩
  intro a
  match a with
  | ⟨0, _⟩ => show win0_4.index _ (0 : Fin 2) * 1024 ≤ (i 0).val ∧ (i 0).val < win0_4.index _ (0 : Fin 2) * 1024 + 1024; rw [e0]; dsimp only; omega
  | ⟨1, _⟩ => show win0_4.index _ (1 : Fin 2) * 256 ≤ (i 1).val ∧ (i 1).val < win0_4.index _ (1 : Fin 2) * 256 + 256; rw [e1]; omega
theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 8 := N_0
  refine ⟨⟨(i 0).val / 1024, by rw [hN]; omega⟩, flush0_5 _, ?_⟩
  rw [mem_blk0_5]
  obtain ⟨-, -, -, -, -, -, -, -, -, -, e0, e1, -⟩ := idx0 ⟨(i 0).val / 1024, by rw [hN]; omega⟩
  intro a
  match a with
  | ⟨0, _⟩ => show win0_5.index _ (0 : Fin 2) * 1024 ≤ (i 0).val ∧ (i 0).val < win0_5.index _ (0 : Fin 2) * 1024 + 1024; rw [e0]; dsimp only; omega
  | ⟨1, _⟩ => show win0_5.index _ (1 : Fin 2) * 1 ≤ (i 1).val ∧ (i 1).val < win0_5.index _ (1 : Fin 2) * 1 + 1; rw [e1]; omega
theorem cover0_6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 8 := N_0
  refine ⟨⟨(i 0).val / 1024, by rw [hN]; omega⟩, flush0_6 _, ?_⟩
  rw [mem_blk0_6]
  obtain ⟨-, -, -, -, -, -, -, -, -, -, -, -, e0, e1⟩ := idx0 ⟨(i 0).val / 1024, by rw [hN]; omega⟩
  intro a
  match a with
  | ⟨0, _⟩ => show win0_6.index _ (0 : Fin 2) * 1024 ≤ (i 0).val ∧ (i 0).val < win0_6.index _ (0 : Fin 2) * 1024 + 1024; rw [e0]; dsimp only; omega
  | ⟨1, _⟩ => show win0_6.index _ (1 : Fin 2) * 1 ≤ (i 1).val ∧ (i 1).val < win0_6.index _ (1 : Fin 2) * 1 + 1; rw [e1]; omega

/-- An output block's element sits at row 1024·t + its row inside the block. -/
theorem emb0_4 (t : Fin cfg0.N) (p : Fin 1024) (d : Fin 256) (r : Fin 8192) (hr : r.val = 1024 * t.val + p.val) :
    ((cfg0.win 4).blk t).view.emb (ix2 p d : S1024x256.Idx) = (ix2 r d : S8192x256.Idx) := by
  obtain ⟨-, -, -, -, -, -, -, -, e0, e1, -⟩ := idx0 t
  funext a
  apply Fin.ext
  match a with
  | ⟨0, _⟩ => show win0_4.index t 0 * 1024 + 1 * p.val = r.val; rw [e0, hr]; omega
  | ⟨1, _⟩ => show win0_4.index t 1 * 256 + 1 * d.val = d.val; rw [e1]; omega
theorem emb0_5 (t : Fin cfg0.N) (p : Fin 1024) (r : Fin 8192) (hr : r.val = 1024 * t.val + p.val) :
    ((cfg0.win 5).blk t).view.emb (ix2 p (0 : Fin 1) : S1024x1.Idx) = (ix2 r (0 : Fin 1) : S8192x1.Idx) := by
  obtain ⟨-, -, -, -, -, -, -, -, -, -, e0, e1, -⟩ := idx0 t
  funext a
  apply Fin.ext
  match a with
  | ⟨0, _⟩ => show win0_5.index t 0 * 1024 + 1 * p.val = r.val; rw [e0, hr]; omega
  | ⟨1, _⟩ => show win0_5.index t 1 * 1 + 1 * 0 = 0; rw [e1]
theorem emb0_6 (t : Fin cfg0.N) (p : Fin 1024) (r : Fin 8192) (hr : r.val = 1024 * t.val + p.val) :
    ((cfg0.win 6).blk t).view.emb (ix2 p (0 : Fin 1) : S1024x1.Idx) = (ix2 r (0 : Fin 1) : S8192x1.Idx) := by
  obtain ⟨-, -, -, -, -, -, -, -, -, -, -, -, e0, e1⟩ := idx0 t
  funext a
  apply Fin.ext
  match a with
  | ⟨0, _⟩ => show win0_6.index t 0 * 1024 + 1 * p.val = r.val; rw [e0, hr]; omega
  | ⟨1, _⟩ => show win0_6.index t 1 * 1 + 1 * 0 = 0; rw [e1]

end Cert.KernelIdeal.Hand

end
-- ==== Proof.LibRowReads.lean ====
/-
  Reading the layout operations, the row reductions and the matrix products of the kernel at an index, over
  the extended reals, with every index written by its coordinates.
-/
import Idealize.ShloMosaic.Lib.ValueIdx
import Idealize.ShloMosaic.Lib.ValueLayout
import Idealize.ShloMosaic.Lib.Pipeline.Value
import Idealize.ShloMosaic.PureOps.Ideal.Laws

namespace Cert.ValLib

open Idealize.ShloMosaic Idealize.ShloMosaic.ValueIdx

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Row reductions -/

/-- The index of the source over row p with the column q put back. -/
theorem lift_row {a b : ℕ} (h : Shape.Reduces ⟨2, ![a, b]⟩ [1] ⟨1, ![a]⟩) (p : Fin a) (q : Fin b) :
    h.lift (ix1 p) q = ix2 p q := by
  funext c; apply Fin.ext
  match c with
  | ⟨0, _⟩ => rfl
  | ⟨1, _⟩ => rfl

/-- The sum along the rows, read at a row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ q : Fin b, src (ix2 p q) := by
  refine (Ideal.multiReduction_add_single src 0x00000000#32 h hφ hacc (ix1 p)).trans ?_
  exact Finset.sum_congr rfl fun q _ => congrArg src (lift_row h p q)

/-- The maximum along the rows, read at a row: the fold of max from the accumulator's value. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun q => src (ix2 p q)) := by
  refine (Ideal.multiReduction_maximumf_single src 0xFF800000#32 h hφ hacc (ix1 p)).trans ?_
  refine Finset.fold_congr fun q _ => ?_
  exact congrArg src (lift_row h p q)

/-! ## A matrix product -/

/-- The product of an m×k by a k×n matrix into the zero accumulator, read at an index, is the sum over the
contracted coordinate of the products of the entries. -/
theorem matmul2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (F := Ideal) (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Extended reals -/

/-- A finite sum of reals, taken in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The fold of max from ⊥ over a nonempty family of reals is the real supremum. -/
theorem fold_max_bot_coe {n : ℕ} [NeZero n] (f : Fin n → ℝ) :
    (Finset.univ : Finset (Fin n)).fold max (⊥ : EReal) (fun q => ((f q : ℝ) : EReal))
      = ((Finset.univ.sup' Finset.univ_nonempty f : ℝ) : EReal) := by
  apply le_antisymm
  · rw [Finset.fold_max_le]
    exact ⟨bot_le, fun q _ => EReal.coe_le_coe_iff.2 (Finset.le_sup' f (Finset.mem_univ q))⟩
  · obtain ⟨q, _, hq⟩ := Finset.exists_mem_eq_sup' Finset.univ_nonempty f
    rw [Finset.le_fold_max]
    exact Or.inr ⟨q, Finset.mem_univ q, by rw [hq]⟩

end Cert.ValLib
-- ==== Proof.KernelValProj.lean ====
/-
  The projection kernel's payloads read at an index, over the extended reals: the product h = x · W, and the
  two products of h with the halves of the attention vector.  With real inputs every entry is the real sum.
-/
import proofs.«174499_j29283087024215_2_alg».proof.Proof.Gen.KernelIdeal.Skeleton
import proofs.«174499_j29283087024215_2_alg».proof.Proof.LibRowReads

namespace Cert.KernelIdeal.Val

open Idealize.ShloMosaic Idealize.ShloMosaic.ValueIdx Cert.KernelIdeal Cert.KernelIdeal.Gen Cert.ValLib

variable [Cert.KernelIdeal.Facts]

/-- h = x · W at an entry. -/
theorem pay_h (x0 : Vec Ideal S1024x512 .f32) (x1 : Vec Ideal S512x256 .f32) (xr : Fin 1024 → Fin 512 → ℝ) (wr : Fin 512 → Fin 256 → ℝ)
    (hx0 : ∀ p k, x0 (ix2 p k) = ((xr p k : ℝ) : EReal)) (hx1 : ∀ k d, x1 (ix2 k d) = ((wr k d : ℝ) : EReal)) (p : Fin 1024) (d : Fin 256) :
    k0_pay1 (F := Ideal) x0 x1 (ix2 p d) = ((∑ k : Fin 512, xr p k * wr k d : ℝ) : EReal) := by
  unfold k0_pay1
  refine (matmul2_apply Facts₀.dot_S1024x512_S512x256_S1024x256_1_0_0_1_n_n_wf none _ _ p d).trans ?_
  rw [← coe_sum]
  refine Finset.sum_congr rfl fun c _ => ?_
  rw [truncf_apply, truncf_apply, hx0, hx1, EReal.coe_mul]

/-- The same entry after the (exact) conversion to the narrower format. -/
theorem pay_h' (x0 : Vec Ideal S1024x512 .f32) (x1 : Vec Ideal S512x256 .f32) (xr : Fin 1024 → Fin 512 → ℝ) (wr : Fin 512 → Fin 256 → ℝ)
    (hx0 : ∀ p k, x0 (ix2 p k) = ((xr p k : ℝ) : EReal)) (hx1 : ∀ k d, x1 (ix2 k d) = ((wr k d : ℝ) : EReal)) (p : Fin 1024) (d : Fin 256) :
    k0_pay2 (F := Ideal) x0 x1 (ix2 p d) = ((∑ k : Fin 512, xr p k * wr k d : ℝ) : EReal) := by
  unfold k0_pay2
  exact (truncf_apply (ψ := .bf16) (k0_pay1 (F := Ideal) x0 x1) Facts₀.bitsLt_bf16_f32 (ix2 p d)).trans (pay_h x0 x1 xr wr hx0 hx1 p d)

/-- A product of h with a column vector, at a row. -/
private theorem pay_col (x0 : Vec Ideal S1024x512 .f32) (x1 : Vec Ideal S512x256 .f32) (xr : Fin 1024 → Fin 512 → ℝ) (wr : Fin 512 → Fin 256 → ℝ)
    (hx0 : ∀ p k, x0 (ix2 p k) = ((xr p k : ℝ) : EReal)) (hx1 : ∀ k d, x1 (ix2 k d) = ((wr k d : ℝ) : EReal))
    (x2 : FVec Ideal S256x1 .f32) (ar : Fin 256 → ℝ) (hx2 : ∀ e : Fin 256, x2 (ix2 e (0 : Fin 1)) = ((ar e : ℝ) : EReal)) (p : Fin 1024) :
    matmul (F := Ideal) dot_S1024x256_S256x1_S1024x1_1_0_0_1_n_n (some .fp32) (k0_pay1 (F := Ideal) x0 x1)
        (shapeCast S256x1 x2 Facts₀.shapeCasts_S256x1_S256x1) (constant (F := Ideal) S1024x1 .f32 0x00000000#32) (ix2 p (0 : Fin 1))
      = ((∑ e : Fin 256, (∑ k : Fin 512, xr p k * wr k e) * ar e : ℝ) : EReal) := by
  refine (matmul2_apply Facts₀.dot_S1024x256_S256x1_S1024x1_1_0_0_1_n_n_wf (some .fp32) _ _ p (0 : Fin 1)).trans ?_
  rw [← coe_sum]
  refine Finset.sum_congr rfl fun e _ => ?_
  rw [pay_h x0 x1 xr wr hx0 hx1, shapeCast_self, hx2, EReal.coe_mul]

/-- f1 = h · a[0:256] at a row. -/
theorem pay_f (x0 : Vec Ideal S1024x512 .f32) (x1 : Vec Ideal S512x256 .f32) (xr : Fin 1024 → Fin 512 → ℝ) (wr : Fin 512 → Fin 256 → ℝ)
    (hx0 : ∀ p k, x0 (ix2 p k) = ((xr p k : ℝ) : EReal)) (hx1 : ∀ k d, x1 (ix2 k d) = ((wr k d : ℝ) : EReal))
    (x2 : Vec Ideal S256x1 .f32) (ar : Fin 256 → ℝ) (hx2 : ∀ e : Fin 256, x2 (ix2 e (0 : Fin 1)) = ((ar e : ℝ) : EReal)) (p : Fin 1024) :
    k0_pay3 (F := Ideal) x0 x1 x2 (ix2 p (0 : Fin 1)) = ((∑ e : Fin 256, (∑ k : Fin 512, xr p k * wr k e) * ar e : ℝ) : EReal) := by
  unfold k0_pay3
  exact pay_col x0 x1 xr wr hx0 hx1 x2 ar hx2 p

/-- f2 = h · a[256:512] at a row: the same product with the other half of the vector. -/
theorem pay_f' (x0 : Vec Ideal S1024x512 .f32) (x1 : Vec Ideal S512x256 .f32) (xr : Fin 1024 → Fin 512 → ℝ) (wr : Fin 512 → Fin 256 → ℝ)
    (hx0 : ∀ p k, x0 (ix2 p k) = ((xr p k : ℝ) : EReal)) (hx1 : ∀ k d, x1 (ix2 k d) = ((wr k d : ℝ) : EReal))
    (x2 : Vec Ideal S256x1 .f32) (ar : Fin 256 → ℝ) (hx2 : ∀ e : Fin 256, x2 (ix2 e (0 : Fin 1)) = ((ar e : ℝ) : EReal)) (p : Fin 1024) :
    k0_pay4 (F := Ideal) x0 x1 x2 (ix2 p (0 : Fin 1)) = ((∑ e : Fin 256, (∑ k : Fin 512, xr p k * wr k e) * ar e : ℝ) : EReal) := by
  unfold k0_pay4
  exact pay_col x0 x1 xr wr hx0 hx1 x2 ar hx2 p

end Cert.KernelIdeal.Val
-- ==== Proof.Spec.lean ====
/-
  The mathematics of the graph-attention layer, over the reals, as ONE function of the argument arrays.

  With h = x·W (rows r, features d), f1 = h·a[0:256], f2 = h·a[256:512], the score of the pair (r, c) is the
  leaky rectifier of f1 r + f2 c, replaced by a large negative constant where the adjacency entry is not
  positive; each row is normalised by a softmax (shifted by the row maximum), the normalised row is multiplied
  into h, and the exponential linear unit is applied.  `out` is that function.  `onOut` is the same quantity
  computed block by block over the columns (eight blocks of 1024) with a running maximum, a running
  denominator and a running numerator that are rescaled whenever the maximum grows.
-/
import Mathlib.Analysis.SpecialFunctions.Exp
import Mathlib.Algebra.BigOperators.Fin
import Mathlib.Order.Fin.Basic

noncomputable section

namespace Cert.Spec

/-- The leaky rectifier's slope, the real number the single-precision pattern of `0.2` denotes. -/
def slope : ℝ := 13421773 / 67108864
/-- The mask value, the real number the single-precision pattern of `-9e15` denotes. -/
def mask : ℝ := -8999999815811072

variable (xr : Fin 8192 → Fin 512 → ℝ) (adj : Fin 8192 → Fin 8192 → BitVec 32)
  (wr : Fin 512 → Fin 256 → ℝ) (ar : Fin 512 → ℝ)

/-- h = x · W. -/
def h (r : Fin 8192) (d : Fin 256) : ℝ := ∑ k : Fin 512, xr r k * wr k d
/-- f1 = h · a[0:256]. -/
def f1 (r : Fin 8192) : ℝ := ∑ d : Fin 256, h xr wr r d * ar ⟨d.val, by omega⟩
/-- f2 = h · a[256:512]. -/
def f2 (r : Fin 8192) : ℝ := ∑ d : Fin 256, h xr wr r d * ar ⟨256 + d.val, by omega⟩
/-- The leaky rectifier of the additive score. -/
def score (r c : Fin 8192) : ℝ :=
  if 0 ≤ f1 xr wr ar r + f2 xr wr ar c then f1 xr wr ar r + f2 xr wr ar c
  else slope * (f1 xr wr ar r + f2 xr wr ar c)
/-- The masked score: the score where the adjacency entry is positive (as a signed integer), the mask elsewhere. -/
def att (r c : Fin 8192) : ℝ := if 0 < (adj r c).toInt then score xr wr ar r c else mask
/-- The row maximum. -/
def rowMax (r : Fin 8192) : ℝ := Finset.univ.sup' Finset.univ_nonempty (att xr adj wr ar r)
/-- The shifted exponential. -/
def num (r c : Fin 8192) : ℝ := Real.exp (att xr adj wr ar r c - rowMax xr adj wr ar r)
/-- The softmax denominator. -/
def den (r : Fin 8192) : ℝ := ∑ c : Fin 8192, num xr adj wr ar r c
/-- The attention-weighted sum of h. -/
def agg (r : Fin 8192) (d : Fin 256) : ℝ :=
  ∑ c : Fin 8192, num xr adj wr ar r c / den xr adj wr ar r * h xr wr c d
/-- The exponential linear unit of the aggregate: the layer's result. -/
def out (r : Fin 8192) (d : Fin 256) : ℝ :=
  if 0 < agg xr adj wr ar r d then agg xr adj wr ar r d else Real.exp (agg xr adj wr ar r d) - 1

/-! ## The same, block by block -/

/-- Column `q` of column block `n` (blocks are taken modulo 8 so that the function is total). -/
def col (n : ℕ) (q : Fin 1024) : Fin 8192 := ⟨(n % 8) * 1024 + q.val, by omega⟩
/-- The maximum of a row over one column block. -/
def blkMax (r : Fin 8192) (n : ℕ) : ℝ :=
  Finset.univ.sup' Finset.univ_nonempty fun q : Fin 1024 => att xr adj wr ar r (col n q)
/-- The running maximum after blocks 0..n. -/
def onM (r : Fin 8192) : ℕ → ℝ
  | 0 => blkMax xr adj wr ar r 0
  | n + 1 => max (onM r n) (blkMax xr adj wr ar r (n + 1))
/-- The running denominator after blocks 0..n, relative to the running maximum. -/
def onL (r : Fin 8192) : ℕ → ℝ
  | 0 => ∑ q : Fin 1024, Real.exp (att xr adj wr ar r (col 0 q) - onM xr adj wr ar r 0)
  | n + 1 => Real.exp (onM xr adj wr ar r n - onM xr adj wr ar r (n + 1)) * onL r n
      + ∑ q : Fin 1024, Real.exp (att xr adj wr ar r (col (n + 1) q) - onM xr adj wr ar r (n + 1))
/-- The running numerator after blocks 0..n, relative to the running maximum. -/
def onAcc (r : Fin 8192) (d : Fin 256) : ℕ → ℝ
  | 0 => ∑ q : Fin 1024, Real.exp (att xr adj wr ar r (col 0 q) - onM xr adj wr ar r 0) * h xr wr (col 0 q) d
  | n + 1 => Real.exp (onM xr adj wr ar r n - onM xr adj wr ar r (n + 1)) * onAcc r d n
      + ∑ q : Fin 1024, Real.exp (att xr adj wr ar r (col (n + 1) q) - onM xr adj wr ar r (n + 1)) * h xr wr (col (n + 1) q) d
/-- The result computed block by block: the quotient after the last block, then the exponential linear unit. -/
def onOut (r : Fin 8192) (d : Fin 256) : ℝ :=
  if 0 < onAcc xr adj wr ar r d 7 / onL xr adj wr ar r 7 then onAcc xr adj wr ar r d 7 / onL xr adj wr ar r 7
  else Real.exp (onAcc xr adj wr ar r d 7 / onL xr adj wr ar r 7) - 1

end Cert.Spec

end
-- ==== Proof.ValDefs.lean ====
/-
  The arrays the kernel program's buffers hold, as functions of real x, W, a and of the adjacency: h, f1, f2 as the
  projection region leaves them, and the final result.
-/
import proofs.«174499_j29283087024215_2_alg».proof.KernelIdeal
import proofs.«174499_j29283087024215_2_alg».proof.Proof.Spec
import Idealize.ShloMosaic.Lib.ValueIdx
import Idealize.ShloMosaic.PureOps.Ideal

noncomputable section

namespace Cert.KernelIdeal.Val

open Idealize.ShloMosaic Idealize.ShloMosaic.ValueIdx Cert.KernelIdeal

variable (x' : S8192x512.Idx → ℝ) (w' : S512x256.Idx → ℝ) (a' : S512x1.Idx → ℝ) (adj' : S8192x8192.Idx → BitVec 32)

/-- x, W, a and the adjacency by coordinates. -/
abbrev xR (r : Fin 8192) (k : Fin 512) : ℝ := x' (ix2 r k)
abbrev wR (k : Fin 512) (d : Fin 256) : ℝ := w' (ix2 k d)
abbrev aR (k : Fin 512) : ℝ := a' (ix2 k (0 : Fin 1))
abbrev adjR (r c : Fin 8192) : BitVec 32 := adj' (ix2 r c)

/-- h = x·W, f1 and f2 as arrays over the extended reals. -/
def GH : S8192x256.Idx → EReal := fun i => ((Cert.Spec.h (xR x') (wR w') (i 0) (i 1) : ℝ) : EReal)
def GF1 : S8192x1.Idx → EReal := fun i => ((Cert.Spec.f1 (xR x') (wR w') (aR a') (i 0) : ℝ) : EReal)
def GF2 : S8192x1.Idx → EReal := fun i => ((Cert.Spec.f2 (xR x') (wR w') (aR a') (i 0) : ℝ) : EReal)
/-- The layer's result as an array over the extended reals. -/
def GOut : S8192x256.Idx → EReal :=
  fun i => ((Cert.Spec.out (xR x') (adjR adj') (wR w') (aR a') (i 0) (i 1) : ℝ) : EReal)

end Cert.KernelIdeal.Val

end
-- ==== Proof.Value0.lean ====
/-
  What the projection region leaves: with real x, W and a, its three output arrays end holding h = x·W,
  f1 = h·a[0:256] and f2 = h·a[256:512] of the specification, entry by entry.  Each row block is written back by
  one grid point as the body's payload of that point's blocks; the eight row blocks cover the arrays.
-/
import proofs.«174499_j29283087024215_2_alg».proof.Proof.Boundary
import proofs.«174499_j29283087024215_2_alg».proof.Proof.ValBlocks0
import proofs.«174499_j29283087024215_2_alg».proof.Proof.KernelValProj
import proofs.«174499_j29283087024215_2_alg».proof.Proof.ValDefs

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable [Cert.KernelIdeal.Facts]
variable (m : (ℓ : Loc nD τ sig) → Buf (Elt Ideal) ℓ) (ρ : Dev nD → PrngReg)
variable (x' : S8192x512.Idx → ℝ) (w' : S512x256.Idx → ℝ) (a' : S512x1.Idx → ℝ)

section
variable (hx : ∀ c : Dev nD, (m ((c : Thread nD τ).loc main_arg0) : S8192x512.Idx → EReal) = fun i => ((x' i : ℝ) : EReal))
variable (hw : ∀ c : Dev nD, (m ((c : Thread nD τ).loc main_arg2) : S512x256.Idx → EReal) = fun i => ((w' i : ℝ) : EReal))
variable (ha : ∀ c : Dev nD, (m ((c : Thread nD τ).loc main_arg3) : S512x1.Idx → EReal) = fun i => ((a' i : ℝ) : EReal))
include hx hw

theorem blk_x (c : Dev nD) (t : Fin cfg0.N) (p : Fin 1024) (k : Fin 512) (r : Fin 8192) (hr : r.val = 1024 * t.val + p.val) :
    (iblk0 (V1 m ρ) c 0 t : Vec Ideal S1024x512 .f32) (ix2 p k) = ((xR x' r k : ℝ) : EReal) := by
  rw [iblk0_0_apply (V1 m ρ) c t p k r hr, V1_arg0]
  exact congrFun (hx c) _

theorem blk_w (c : Dev nD) (t : Fin cfg0.N) (k : Fin 512) (d : Fin 256) :
    (iblk0 (V1 m ρ) c 1 t : Vec Ideal S512x256 .f32) (ix2 k d) = ((wR w' k d : ℝ) : EReal) := by
  rw [iblk0_1_apply (V1 m ρ) c t k d, V1_arg2]
  exact congrFun (hw c) _

theorem flushedH (c : Dev nD) (t : Fin cfg0.N) :
    (dat0 (V1 m ρ) c).flushed 4 t = ((cfg0.win 4).blk t).view.read (Elt Ideal) (GH x' w') := by
  show (cfg0.win 4).cut (grid0.coords t) ((dat0 (V1 m ρ) c).after 4 t) = _
  rw [after0_4]
  unfold outH
  rw [View.canon_unit_zero hz2]
  simp only [View.ld_unit_zero (S := S1024x512) hz2, View.ld_unit_zero (S := S512x256) hz2]
  refine funext fun (j : S1024x256.Idx) => ?_
  obtain ⟨p, d, rfl⟩ : ∃ (p : Fin 1024) (d : Fin 256), j = ix2 p d := ⟨j 0, j 1, eq_ix2 j⟩
  have ht : t.val < 8 := by have := t.isLt; have hN : cfg0.N = 8 := N_0; omega
  show k0_pay2 (F := Ideal) (iblk0 (V1 m ρ) c 0 t) (iblk0 (V1 m ρ) c 1 t) (ix2 p d)
    = GH x' w' (((cfg0.win 4).blk t).view.emb (ix2 p d : S1024x256.Idx))
  refine Eq.trans ?_ (congrArg (GH x' w') (emb0_4 t p d ⟨1024 * t.val + p.val, by omega⟩ rfl)).symm
  refine (pay_h' _ _ (fun p k => xR x' ⟨1024 * t.val + p.val, by omega⟩ k) (wR w') (fun p k => blk_x m ρ x' w' hx hw c t p k _ rfl)
    (fun k d => blk_w m ρ x' w' hx hw c t k d) p d).trans ?_
  rfl

theorem finalH (c : Dev nD) : (dat0 (V1 m ρ) c).arrAt 4 cfg0.N = GH x' w' :=
  (dat0 (V1 m ρ) c).arrAt_eq_of_cover 4 (GH x' w') (fun t _ => flushedH m ρ x' w' hx hw c t) cover0_4

include ha

theorem blk_a1 (c : Dev nD) (t : Fin cfg0.N) (e : Fin 256) :
    (iblk0 (V1 m ρ) c 2 t : Vec Ideal S256x1 .f32) (ix2 e (0 : Fin 1)) = ((aR a' ⟨e.val, by omega⟩ : ℝ) : EReal) := by
  rw [iblk0_2_apply (V1 m ρ) c t e, V1_v0]
  refine (extractStridedSlice_apply _ _ _ (ix2 e (0 : Fin 1)) (ix2 (⟨e.val, by omega⟩ : Fin 512) (0 : Fin 1)) (fun a => ?_)).trans (congrFun (ha c) _)
  match a with
  | ⟨0, _⟩ => show e.val = 0 + e.val; omega
  | ⟨1, _⟩ => rfl

theorem blk_a2 (c : Dev nD) (t : Fin cfg0.N) (e : Fin 256) :
    (iblk0 (V1 m ρ) c 3 t : Vec Ideal S256x1 .f32) (ix2 e (0 : Fin 1)) = ((aR a' ⟨256 + e.val, by omega⟩ : ℝ) : EReal) := by
  rw [iblk0_3_apply (V1 m ρ) c t e, V1_v1]
  refine (extractStridedSlice_apply _ _ _ (ix2 e (0 : Fin 1)) (ix2 (⟨256 + e.val, by omega⟩ : Fin 512) (0 : Fin 1)) (fun a => ?_)).trans (congrFun (ha c) _)
  match a with
  | ⟨0, _⟩ => rfl
  | ⟨1, _⟩ => rfl

theorem flushedF1 (c : Dev nD) (t : Fin cfg0.N) :
    (dat0 (V1 m ρ) c).flushed 5 t = ((cfg0.win 5).blk t).view.read (Elt Ideal) (GF1 x' w' a') := by
  show (cfg0.win 5).cut (grid0.coords t) ((dat0 (V1 m ρ) c).after 5 t) = _
  rw [after0_5]
  unfold outF1
  rw [View.canon_unit_zero hz2]
  simp only [View.ld_unit_zero (S := S1024x512) hz2, View.ld_unit_zero (S := S512x256) hz2, View.ld_unit_zero (S := S256x1) hz2]
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  have ht : t.val < 8 := by have := t.isLt; have hN : cfg0.N = 8 := N_0; omega
  show k0_pay3 (F := Ideal) (iblk0 (V1 m ρ) c 0 t) (iblk0 (V1 m ρ) c 1 t) (iblk0 (V1 m ρ) c 2 t) (ix2 p (0 : Fin 1))
    = GF1 x' w' a' (((cfg0.win 5).blk t).view.emb (ix2 p (0 : Fin 1) : S1024x1.Idx))
  refine Eq.trans ?_ (congrArg (GF1 x' w' a') (emb0_5 t p ⟨1024 * t.val + p.val, by omega⟩ rfl)).symm
  refine (pay_f _ _ (fun p k => xR x' ⟨1024 * t.val + p.val, by omega⟩ k) (wR w') (fun p k => blk_x m ρ x' w' hx hw c t p k _ rfl)
    (fun k d => blk_w m ρ x' w' hx hw c t k d) _ (fun e => aR a' ⟨e.val, by omega⟩) (fun e => blk_a1 m ρ x' w' a' hx hw ha c t e) p).trans ?_
  rfl

theorem finalF1 (c : Dev nD) : (dat0 (V1 m ρ) c).arrAt 5 cfg0.N = GF1 x' w' a' :=
  (dat0 (V1 m ρ) c).arrAt_eq_of_cover 5 (GF1 x' w' a') (fun t _ => flushedF1 m ρ x' w' a' hx hw ha c t) cover0_5

theorem flushedF2 (c : Dev nD) (t : Fin cfg0.N) :
    (dat0 (V1 m ρ) c).flushed 6 t = ((cfg0.win 6).blk t).view.read (Elt Ideal) (GF2 x' w' a') := by
  show (cfg0.win 6).cut (grid0.coords t) ((dat0 (V1 m ρ) c).after 6 t) = _
  rw [after0_6]
  unfold outF2
  rw [View.canon_unit_zero hz2]
  simp only [View.ld_unit_zero (S := S1024x512) hz2, View.ld_unit_zero (S := S512x256) hz2, View.ld_unit_zero (S := S256x1) hz2]
  refine funext fun (j : S1024x1.Idx) => ?_
  obtain ⟨p, z, rfl⟩ : ∃ (p : Fin 1024) (z : Fin 1), j = ix2 p z := ⟨j 0, j 1, eq_ix2 j⟩
  obtain rfl : z = 0 := Subsingleton.elim _ _
  have ht : t.val < 8 := by have := t.isLt; have hN : cfg0.N = 8 := N_0; omega
  show k0_pay4 (F := Ideal) (iblk0 (V1 m ρ) c 0 t) (iblk0 (V1 m ρ) c 1 t) (iblk0 (V1 m ρ) c 3 t) (ix2 p (0 : Fin 1))
    = GF2 x' w' a' (((cfg0.win 6).blk t).view.emb (ix2 p (0 : Fin 1) : S1024x1.Idx))
  refine Eq.trans ?_ (congrArg (GF2 x' w' a') (emb0_6 t p ⟨1024 * t.val + p.val, by omega⟩ rfl)).symm
  refine (pay_f' _ _ (fun p k => xR x' ⟨1024 * t.val + p.val, by omega⟩ k) (wR w') (fun p k => blk_x m ρ x' w' hx hw c t p k _ rfl)
    (fun k d => blk_w m ρ x' w' hx hw c t k d) _ (fun e => aR a' ⟨256 + e.val, by omega⟩) (fun e => blk_a2 m ρ x' w' a' hx hw ha c t e) p).trans ?_
  rfl

theorem finalF2 (c : Dev nD) : (dat0 (V1 m ρ) c).arrAt 6 cfg0.N = GF2 x' w' a' :=
  (dat0 (V1 m ρ) c).arrAt_eq_of_cover 6 (GF2 x' w' a') (fun t _ => flushedF2 m ρ x' w' a' hx hw ha c t) cover0_6

end

end Cert.KernelIdeal.Val

end
-- ==== Proof.ValBlocks1.lean ====
import proofs.«174499_j29283087024215_2_alg».proof.Proof.Gen.KernelIdeal.Launch
import proofs.«174499_j29283087024215_2_alg».proof.Proof.Gen.KernelIdeal.Skeleton
import proofs.«174499_j29283087024215_2_alg».proof.Proof.Gen.KernelIdeal.Points
import proofs.«174499_j29283087024215_2_alg».proof.Proof.Iblk1
import proofs.«174499_j29283087024215_2_alg».proof.Proof.Step1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The attention region's blocks, index by index

Point `t` of the 8×8 grid works on row block t / 8 and column block t % 8: the f1 window's block is rows
1024·(t/8) … of f1, the f2ᵀ window's block is columns 1024·(t%8) … of f2ᵀ, the adjacency window's block is that
row block by that column block, the h window's block is all of h, of which the body takes rows 1024·(t%8) …,
and the output's block is rows 1024·(t/8) … of the result, written back at the last column block only. -/

open Idealize.ShloMosaic.ValueIdx

variable (V : (c : Dev nD) → (b : Ref sig .tc) → Buf (Elt F) ((c : Thread nD τ).loc b))

/-- The printed index maps and the offset of the rows of h, decided over the grid. -/
theorem idx1 : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0
    ∧ k1_off1 (grid1.coords t) (0 : Fin 2) = (t.val % 8) * 1024 ∧ k1_off1 (grid1.coords t) (1 : Fin 2) = 0 :=
  (by decide +kernel : ∀ t : Fin grid1.N, _)

theorem iblk1_0_apply (c : Dev nD) (t : Fin cfg1.N) (p : Fin 1024) (r : Fin 8192) (hr : r.val = 1024 * (t.val / 8) + p.val) :
    (iblk1 V c 0 t : Vec F S1024x1 .f32) (ix2 p (0 : Fin 1)) = (V c main_v2_1 : S8192x1.Idx → Elt F .f32) (ix2 r (0 : Fin 1)) := by
  obtain ⟨e0, e1, -⟩ := idx1 t
  unfold iblk1
  rw [View.read_apply]
  show V c main_v2_1 _ = V c main_v2_1 _
  congr 1
  funext a
  apply Fin.ext
  match a with
  | ⟨0, _⟩ => show win1_0.index t 0 * 1024 + 1 * p.val = r.val; rw [e0, hr]; omega
  | ⟨1, _⟩ => show win1_0.index t 1 * 1 + 1 * 0 = 0; rw [e1]

theorem iblk1_1_apply (c : Dev nD) (t : Fin cfg1.N) (q : Fin 1024) (cc : Fin 8192) (hc : cc.val = 1024 * (t.val % 8) + q.val) :
    (iblk1 V c 1 t : Vec F S1x1024 .f32) (ix2 (0 : Fin 1) q) = (V c main_v3 : S1x8192.Idx → Elt F .f32) (ix2 (0 : Fin 1) cc) := by
  obtain ⟨-, -, e0, e1, -⟩ := idx1 t
  unfold iblk1
  rw [View.read_apply]
  show V c main_v3 _ = V c main_v3 _
  congr 1
  funext a
  apply Fin.ext
  match a with
  | ⟨0, _⟩ => show win1_1.index t 0 * 1 + 1 * 0 = 0; rw [e0]
  | ⟨1, _⟩ => show win1_1.index t 1 * 1024 + 1 * q.val = cc.val; rw [e1, hc]; omega

theorem iblk1_2_apply (c : Dev nD) (t : Fin cfg1.N) (p q : Fin 1024) (r cc : Fin 8192)
    (hr : r.val = 1024 * (t.val / 8) + p.val) (hc : cc.val = 1024 * (t.val % 8) + q.val) :
    (iblk1 V c 2 t : Vec F S1024x1024 .i32) (ix2 p q) = (V c main_arg1 : S8192x8192.Idx → Elt F .i32) (ix2 r cc) := by
  obtain ⟨-, -, -, -, e0, e1, -⟩ := idx1 t
  unfold iblk1
  rw [View.read_apply]
  show V c main_arg1 _ = V c main_arg1 _
  congr 1
  funext a
  apply Fin.ext
  match a with
  | ⟨0, _⟩ => show win1_2.index t 0 * 1024 + 1 * p.val = r.val; rw [e0, hr]; omega
  | ⟨1, _⟩ => show win1_2.index t 1 * 1024 + 1 * q.val = cc.val; rw [e1, hc]; omega

/-- The rows of h the body takes at point `t`: rows 1024·(t%8) … of the whole h array. -/
theorem vslice_apply (c : Dev nD) (t : Fin cfg1.N) (q : Fin 1024) (d : Fin 256) (cc : Fin 8192) (hc : cc.val = 1024 * (t.val % 8) + q.val) :
    vslice (grid1.coords t) (iblk1 V c 3 t : Vec F S8192x256 .bf16) (ix2 q d) = (V c main_v2_0 : S8192x256.Idx → Elt F .bf16) (ix2 cc d) := by
  obtain ⟨-, -, -, -, -, -, e0, e1, -, -, o0, o1⟩ := idx1 t
  unfold vslice iblk1
  show ((cfg1.win 3).blk t).view.read (Elt F) (V c main_v2_0) ((rV (grid1.coords t)).emb (ix2 q d)) = _
  rw [View.read_apply]
  show V c main_v2_0 _ = V c main_v2_0 _
  congr 1
  funext a
  apply Fin.ext
  match a with
  | ⟨0, _⟩ => show win1_3.index t 0 * 8192 + 1 * (k1_off1 (grid1.coords t) 0 + 1 * q.val) = cc.val; rw [e0, o0, hc]; omega
  | ⟨1, _⟩ => show win1_3.index t 1 * 256 + 1 * (k1_off1 (grid1.coords t) 1 + 1 * d.val) = d.val; rw [e1, o1]; omega

/-! ## The output's blocks -/

theorem mem_blk1_4 (t : Fin cfg1.N) (i : S8192x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v4).slice (win1_4.rect t)).set ↔ _
  rw [View.set_slice_whole, Rect.mem_set_unit]
  exact Iff.rfl

/-- Row r is in the block written back at the last column block of row block r / 1024. -/
theorem cover1_4 (i : S8192x256.Idx) : ∃ t : Fin cfg1.N, (cfg1.win 4).flush t = true ∧ i ∈ ((cfg1.win 4).blk t).view.set := by
  have hi0 : (i 0).val < 8192 := (i 0).isLt
  have hi1 : (i 1).val < 256 := (i 1).isLt
  have hN : cfg1.N = 64 := N_1
  have ht : 8 * ((i 0).val / 1024) + 7 < cfg1.N := by rw [hN]; omega
  refine ⟨⟨8 * ((i 0).val / 1024) + 7, ht⟩, (flush1_4 _).mpr (by show (8 * ((i 0).val / 1024) + 7) % 8 = 7; omega), ?_⟩
  rw [mem_blk1_4]
  obtain ⟨-, -, -, -, -, -, -, -, e0, e1, -⟩ := idx1 ⟨8 * ((i 0).val / 1024) + 7, ht⟩
  intro a
  match a with
  | ⟨0, _⟩ => show win1_4.index _ (0 : Fin 2) * 1024 ≤ (i 0).val ∧ (i 0).val < win1_4.index _ (0 : Fin 2) * 1024 + 1024; rw [e0]; dsimp only; omega
  | ⟨1, _⟩ => show win1_4.index _ (1 : Fin 2) * 256 ≤ (i 1).val ∧ (i 1).val < win1_4.index _ (1 : Fin 2) * 256 + 256; rw [e1]; omega

theorem emb1_4 (t : Fin cfg1.N) (p : Fin 1024) (d : Fin 256) (r : Fin 8192) (hr : r.val = 1024 * (t.val / 8) + p.val) :
    ((cfg1.win 4).blk t).view.emb (ix2 p d : S1024x256.Idx) = (ix2 r d : S8192x256.Idx) := by
  obtain ⟨-, -, -, -, -, -, -, -, e0, e1, -⟩ := idx1 t
  funext a
  apply Fin.ext
  match a with
  | ⟨0, _⟩ => show win1_4.index t 0 * 1024 + 1 * p.val = r.val; rw [e0, hr]; omega
  | ⟨1, _⟩ => show win1_4.index t 1 * 256 + 1 * d.val = d.val; rw [e1]; omega

end Cert.KernelIdeal.Hand

end
-- ==== Proof.BlockMath.lean ====
/-
  One column block's update of the running maximum, denominator and numerator, over the reals.

  For a block of 1024 rows and 1024 columns: `a p` is the row term and `b q` the column term of the additive
  score, `adj p q` the adjacency entry, `hv q d` the rows of h the column block selects.  The score is
  max (s, slope·s) — the leaky rectifier in the form with one maximum — masked where the adjacency entry is not
  positive.  `newM / newL / newAcc` rescale the carried values by exp (old maximum − new maximum) and add the
  block's contribution; `firstL / firstAcc` are the same from an empty start; `fin` is the quotient under the
  exponential linear unit.
-/
import proofs.«174499_j29283087024215_2_alg».proof.Proof.Spec

noncomputable section

namespace Cert.Block

variable (a : Fin 1024 → ℝ) (b : Fin 1024 → ℝ) (adj : Fin 1024 → Fin 1024 → BitVec 32) (hv : Fin 1024 → Fin 256 → ℝ)

/-- The masked score of the block. -/
def att (p q : Fin 1024) : ℝ :=
  if 0 < (adj p q).toInt then max (a p + b q) (Cert.Spec.slope * (a p + b q)) else Cert.Spec.mask
/-- The block's row maximum. -/
def bmax (p : Fin 1024) : ℝ := Finset.univ.sup' Finset.univ_nonempty (att a b adj p)
/-- The new running maximum. -/
def newM (M : Fin 1024 → ℝ) (p : Fin 1024) : ℝ := max (M p) (bmax a b adj p)
/-- The new running denominator. -/
def newL (M Lr : Fin 1024 → ℝ) (p : Fin 1024) : ℝ :=
  Real.exp (M p - newM a b adj M p) * Lr p + ∑ q : Fin 1024, Real.exp (att a b adj p q - newM a b adj M p)
/-- The new running numerator. -/
def newAcc (M : Fin 1024 → ℝ) (A : Fin 1024 → Fin 256 → ℝ) (p : Fin 1024) (d : Fin 256) : ℝ :=
  Real.exp (M p - newM a b adj M p) * A p d + ∑ q : Fin 1024, Real.exp (att a b adj p q - newM a b adj M p) * hv q d
/-- The denominator after the first block. -/
def firstL (p : Fin 1024) : ℝ := ∑ q : Fin 1024, Real.exp (att a b adj p q - bmax a b adj p)
/-- The numerator after the first block. -/
def firstAcc (p : Fin 1024) (d : Fin 256) : ℝ := ∑ q : Fin 1024, Real.exp (att a b adj p q - bmax a b adj p) * hv q d
/-- The output block: the quotient, then the exponential linear unit. -/
def fin (A : Fin 1024 → Fin 256 → ℝ) (Lr : Fin 1024 → ℝ) (p : Fin 1024) (d : Fin 256) : ℝ :=
  if 0 < A p d / Lr p then A p d / Lr p else Real.exp (A p d / Lr p) - 1

end Cert.Block

end
-- ==== Proof.SpecMath.lean ====
/-
  The real-number mathematics of the certificate: computing a softmax-weighted sum block by block, with a
  running maximum and rescaling of the running denominator and numerator whenever the maximum grows, gives
  the same value as the softmax shifted by the row maximum followed by the product.

  The law used throughout is exp (a - b) * exp (c - a) = exp (c - b): rescaling a partial sum taken relative
  to an old maximum a by exp (a - b) turns it into the partial sum relative to the new maximum b.
-/
import Mathlib
import proofs.«174499_j29283087024215_2_alg».proof.Proof.Spec

noncomputable section

namespace Cert.Spec

/-! ## The slope of the leaky rectifier -/

theorem slope_nonneg : 0 ≤ slope := by
  unfold slope; norm_num

theorem slope_le_one : slope ≤ 1 := by
  unfold slope; norm_num

/-- the kernel's form of the leaky rectifier -/
theorem max_slope (s : ℝ) : max s (slope * s) = if 0 ≤ s then s else slope * s := by
  split_ifs with hs
  · exact max_eq_left (mul_le_of_le_one_left hs slope_le_one)
  · exact max_eq_right (le_mul_of_le_one_left (le_of_lt (not_le.mp hs)) slope_le_one)

/-! ## The eight column blocks tile the columns -/

/-- The pair (block, column within the block) as a column: (k, q) ↦ 1024 k + q. -/
private def blkEquiv : Fin 8 × Fin 1024 ≃ Fin 8192 :=
  finProdFinEquiv.trans (finCongr (by norm_num))

private theorem blkEquiv_apply (k : Fin 8) (q : Fin 1024) : blkEquiv (k, q) = col k.val q := by
  apply Fin.ext
  have hk : k.val % 8 = k.val := Nat.mod_eq_of_lt k.isLt
  simp only [blkEquiv, col, Equiv.trans_apply, finProdFinEquiv_apply_val, finCongr_apply, Fin.coe_cast, hk]
  omega

/-- A sum over all columns is the sum over the eight blocks of the sums over each block. -/
theorem sum_blocks (g : Fin 8192 → ℝ) :
    ∑ c : Fin 8192, g c = ∑ k ∈ Finset.range 8, ∑ q : Fin 1024, g (col k q) := by
  rw [← Fin.sum_univ_eq_sum_range (fun k => ∑ q : Fin 1024, g (col k q)) 8]
  rw [← Fintype.sum_prod_type' (fun (k : Fin 8) (q : Fin 1024) => g (col k.val q))]
  exact (Fintype.sum_equiv blkEquiv _ _ (fun x => by rw [← blkEquiv_apply])).symm

/-- Every column lies in one of the eight blocks. -/
theorem exists_col (c : Fin 8192) : ∃ k : ℕ, k < 8 ∧ ∃ q : Fin 1024, c = col k q := by
  refine ⟨c.val / 1024, by omega, ⟨c.val % 1024, by omega⟩, ?_⟩
  apply Fin.ext
  simp only [col]
  omega

variable (xr : Fin 8192 → Fin 512 → ℝ) (adj : Fin 8192 → Fin 8192 → BitVec 32)
  (wr : Fin 512 → Fin 256 → ℝ) (ar : Fin 512 → ℝ)

/-! ## The running maximum -/

theorem att_le_blkMax (r : Fin 8192) (n : ℕ) (q : Fin 1024) :
    att xr adj wr ar r (col n q) ≤ blkMax xr adj wr ar r n :=
  Finset.le_sup' (fun q : Fin 1024 => att xr adj wr ar r (col n q)) (Finset.mem_univ q)

theorem blkMax_le_rowMax (r : Fin 8192) (n : ℕ) : blkMax xr adj wr ar r n ≤ rowMax xr adj wr ar r :=
  Finset.sup'_le _ _ fun q _ => Finset.le_sup' (att xr adj wr ar r) (Finset.mem_univ (col n q))

theorem onM_zero (r : Fin 8192) : onM xr adj wr ar r 0 = blkMax xr adj wr ar r 0 := rfl

theorem onM_succ (r : Fin 8192) (n : ℕ) :
    onM xr adj wr ar r (n + 1) = max (onM xr adj wr ar r n) (blkMax xr adj wr ar r (n + 1)) := rfl

theorem blkMax_le_onM (r : Fin 8192) {k n : ℕ} (hkn : k ≤ n) :
    blkMax xr adj wr ar r k ≤ onM xr adj wr ar r n := by
  induction n with
  | zero =>
    obtain rfl : k = 0 := Nat.le_zero.mp hkn
    exact le_of_eq (onM_zero xr adj wr ar r).symm
  | succ n ih =>
    rw [onM_succ]
    rcases Nat.lt_or_ge k (n + 1) with hlt | hge
    · exact le_trans (ih (Nat.lt_succ_iff.mp hlt)) (le_max_left _ _)
    · obtain rfl : k = n + 1 := le_antisymm hkn hge
      exact le_max_right _ _

theorem onM_le_rowMax (r : Fin 8192) (n : ℕ) : onM xr adj wr ar r n ≤ rowMax xr adj wr ar r := by
  induction n with
  | zero => exact blkMax_le_rowMax xr adj wr ar r 0
  | succ n ih =>
    rw [onM_succ]
    exact max_le ih (blkMax_le_rowMax xr adj wr ar r (n + 1))

/-- the running maximum after all eight blocks is the row maximum -/
theorem onM_seven (r : Fin 8192) : onM xr adj wr ar r 7 = rowMax xr adj wr ar r := by
  refine le_antisymm (onM_le_rowMax xr adj wr ar r 7) ?_
  refine Finset.sup'_le _ _ fun c _ => ?_
  obtain ⟨k, hk, q, rfl⟩ := exists_col c
  exact le_trans (att_le_blkMax xr adj wr ar r k q) (blkMax_le_onM xr adj wr ar r (by omega))

/-! ## The running denominator and numerator -/

theorem onL_zero (r : Fin 8192) :
    onL xr adj wr ar r 0
      = ∑ q : Fin 1024, Real.exp (att xr adj wr ar r (col 0 q) - onM xr adj wr ar r 0) := rfl

theorem onL_succ (r : Fin 8192) (n : ℕ) :
    onL xr adj wr ar r (n + 1)
      = Real.exp (onM xr adj wr ar r n - onM xr adj wr ar r (n + 1)) * onL xr adj wr ar r n
        + ∑ q : Fin 1024, Real.exp (att xr adj wr ar r (col (n + 1) q) - onM xr adj wr ar r (n + 1)) := rfl

theorem onAcc_zero (r : Fin 8192) (d : Fin 256) :
    onAcc xr adj wr ar r d 0
      = ∑ q : Fin 1024, Real.exp (att xr adj wr ar r (col 0 q) - onM xr adj wr ar r 0) * h xr wr (col 0 q) d := rfl

theorem onAcc_succ (r : Fin 8192) (d : Fin 256) (n : ℕ) :
    onAcc xr adj wr ar r d (n + 1)
      = Real.exp (onM xr adj wr ar r n - onM xr adj wr ar r (n + 1)) * onAcc xr adj wr ar r d n
        + ∑ q : Fin 1024, Real.exp (att xr adj wr ar r (col (n + 1) q) - onM xr adj wr ar r (n + 1))
            * h xr wr (col (n + 1) q) d := rfl

theorem onL_pos (r : Fin 8192) (n : ℕ) : 0 < onL xr adj wr ar r n := by
  induction n with
  | zero =>
    rw [onL_zero]
    exact Finset.sum_pos (fun q _ => Real.exp_pos _) Finset.univ_nonempty
  | succ n ih =>
    rw [onL_succ]
    exact add_pos (mul_pos (Real.exp_pos _) ih)
      (Finset.sum_pos (fun q _ => Real.exp_pos _) Finset.univ_nonempty)

theorem den_pos (r : Fin 8192) : 0 < den xr adj wr ar r :=
  Finset.sum_pos (fun c _ => Real.exp_pos _) Finset.univ_nonempty

/-- The rescaling law: exp (a - b) * exp (c - a) = exp (c - b). -/
private theorem exp_rescale (a b c : ℝ) : Real.exp (a - b) * Real.exp (c - a) = Real.exp (c - b) := by
  rw [← Real.exp_add]; congr 1; ring

/-- The running denominator after blocks 0..n is the sum, over the columns of those blocks, of the
exponentials shifted by the running maximum. -/
theorem onL_eq (r : Fin 8192) (n : ℕ) :
    onL xr adj wr ar r n
      = ∑ k ∈ Finset.range (n + 1), ∑ q : Fin 1024,
          Real.exp (att xr adj wr ar r (col k q) - onM xr adj wr ar r n) := by
  induction n with
  | zero => rw [onL_zero, Finset.sum_range_one]
  | succ n ih =>
    rw [onL_succ, ih, Finset.sum_range_succ _ (n + 1), Finset.mul_sum]
    congr 1
    refine Finset.sum_congr rfl fun k _ => ?_
    rw [Finset.mul_sum]
    exact Finset.sum_congr rfl fun q _ => exp_rescale _ _ _

/-- The running numerator after blocks 0..n is the same sum with each term multiplied by h. -/
theorem onAcc_eq (r : Fin 8192) (d : Fin 256) (n : ℕ) :
    onAcc xr adj wr ar r d n
      = ∑ k ∈ Finset.range (n + 1), ∑ q : Fin 1024,
          Real.exp (att xr adj wr ar r (col k q) - onM xr adj wr ar r n) * h xr wr (col k q) d := by
  induction n with
  | zero => rw [onAcc_zero, Finset.sum_range_one]
  | succ n ih =>
    rw [onAcc_succ, ih, Finset.sum_range_succ _ (n + 1), Finset.mul_sum]
    congr 1
    refine Finset.sum_congr rfl fun k _ => ?_
    rw [Finset.mul_sum]
    refine Finset.sum_congr rfl fun q _ => ?_
    rw [← mul_assoc, exp_rescale]

/-- After the last block the running denominator is the softmax denominator. -/
theorem onL_seven (r : Fin 8192) : onL xr adj wr ar r 7 = den xr adj wr ar r := by
  rw [onL_eq, onM_seven]
  exact (sum_blocks (num xr adj wr ar r)).symm

/-- After the last block the running numerator is the sum of the shifted exponentials times h. -/
theorem onAcc_seven (r : Fin 8192) (d : Fin 256) :
    onAcc xr adj wr ar r d 7 = ∑ c : Fin 8192, num xr adj wr ar r c * h xr wr c d := by
  rw [onAcc_eq, onM_seven]
  exact (sum_blocks (fun c => num xr adj wr ar r c * h xr wr c d)).symm

/-- The quotient after the last block is the attention-weighted sum. -/
theorem onAcc_div_onL (r : Fin 8192) (d : Fin 256) :
    onAcc xr adj wr ar r d 7 / onL xr adj wr ar r 7 = agg xr adj wr ar r d := by
  rw [onAcc_seven, onL_seven, Finset.sum_div]
  exact Finset.sum_congr rfl fun c _ => (div_mul_eq_mul_div _ _ _).symm

/-- THE MAIN THEOREM: block by block with rescaling = softmax then product -/
theorem onOut_eq_out (r : Fin 8192) (d : Fin 256) : onOut xr adj wr ar r d = out xr adj wr ar r d := by
  unfold onOut out
  rw [onAcc_div_onL]

end Cert.Spec

end
-- ==== Proof.BlockSpec.lean ====
/-
  One block's update, at the rows of row block `i` and the columns of column block `n`, IS the step of the
  specification's running maximum, denominator and numerator: the block's score is the specification's masked
  score (the leaky rectifier written with one maximum equals the two-branch form because the slope lies in [0, 1]).
-/
import proofs.«174499_j29283087024215_2_alg».proof.Proof.BlockMath
import proofs.«174499_j29283087024215_2_alg».proof.Proof.SpecMath

noncomputable section

namespace Cert.BlockSpec

open Cert.Spec

variable (xr : Fin 8192 → Fin 512 → ℝ) (adj : Fin 8192 → Fin 8192 → BitVec 32)
  (wr : Fin 512 → Fin 256 → ℝ) (ar : Fin 512 → ℝ)

/-- Row `p` of row block `i`. -/
def row (i : ℕ) (p : Fin 1024) : Fin 8192 := ⟨(i % 8) * 1024 + p.val, by omega⟩

/-- The row terms of row block `i`. -/
def aB (i : ℕ) (p : Fin 1024) : ℝ := f1 xr wr ar (row i p)
/-- The column terms of column block `n`. -/
def bB (n : ℕ) (q : Fin 1024) : ℝ := f2 xr wr ar (col n q)
/-- The adjacency block. -/
def adjB (i n : ℕ) (p q : Fin 1024) : BitVec 32 := adj (row i p) (col n q)
/-- The rows of h of column block `n`. -/
def hvB (n : ℕ) (q : Fin 1024) (d : Fin 256) : ℝ := h xr wr (col n q) d

theorem att_eq (i n : ℕ) (p q : Fin 1024) :
    Cert.Block.att (aB xr wr ar i) (bB xr wr ar n) (adjB adj i n) p q = att xr adj wr ar (row i p) (col n q) := by
  unfold Cert.Block.att att score aB bB adjB
  rw [max_slope]

theorem bmax_eq (i n : ℕ) (p : Fin 1024) :
    Cert.Block.bmax (aB xr wr ar i) (bB xr wr ar n) (adjB adj i n) p = blkMax xr adj wr ar (row i p) n := by
  unfold Cert.Block.bmax blkMax
  exact congrArg _ (funext fun q => att_eq xr adj wr ar i n p q)

theorem first_M (i : ℕ) (p : Fin 1024) :
    Cert.Block.bmax (aB xr wr ar i) (bB xr wr ar 0) (adjB adj i 0) p = onM xr adj wr ar (row i p) 0 := by
  rw [bmax_eq]; rfl

theorem first_L (i : ℕ) (p : Fin 1024) :
    Cert.Block.firstL (aB xr wr ar i) (bB xr wr ar 0) (adjB adj i 0) p = onL xr adj wr ar (row i p) 0 := by
  unfold Cert.Block.firstL
  rw [first_M]
  show _ = ∑ q : Fin 1024, Real.exp (att xr adj wr ar (row i p) (col 0 q) - onM xr adj wr ar (row i p) 0)
  exact Finset.sum_congr rfl fun q _ => by rw [att_eq]

theorem first_Acc (i : ℕ) (p : Fin 1024) (d : Fin 256) :
    Cert.Block.firstAcc (aB xr wr ar i) (bB xr wr ar 0) (adjB adj i 0) (hvB xr wr 0) p d = onAcc xr adj wr ar (row i p) d 0 := by
  unfold Cert.Block.firstAcc
  rw [first_M]
  show _ = ∑ q : Fin 1024, Real.exp (att xr adj wr ar (row i p) (col 0 q) - onM xr adj wr ar (row i p) 0) * h xr wr (col 0 q) d
  exact Finset.sum_congr rfl fun q _ => by rw [att_eq]; rfl

theorem next_M (i n : ℕ) (p : Fin 1024) :
    Cert.Block.newM (aB xr wr ar i) (bB xr wr ar (n + 1)) (adjB adj i (n + 1)) (fun p => onM xr adj wr ar (row i p) n) p
      = onM xr adj wr ar (row i p) (n + 1) := by
  unfold Cert.Block.newM
  rw [bmax_eq]; rfl

theorem next_L (i n : ℕ) (p : Fin 1024) :
    Cert.Block.newL (aB xr wr ar i) (bB xr wr ar (n + 1)) (adjB adj i (n + 1)) (fun p => onM xr adj wr ar (row i p) n)
      (fun p => onL xr adj wr ar (row i p) n) p = onL xr adj wr ar (row i p) (n + 1) := by
  unfold Cert.Block.newL
  rw [next_M]
  show _ = Real.exp (onM xr adj wr ar (row i p) n - onM xr adj wr ar (row i p) (n + 1)) * onL xr adj wr ar (row i p) n
      + ∑ q : Fin 1024, Real.exp (att xr adj wr ar (row i p) (col (n + 1) q) - onM xr adj wr ar (row i p) (n + 1))
  congr 1
  exact Finset.sum_congr rfl fun q _ => by rw [att_eq]

theorem next_Acc (i n : ℕ) (p : Fin 1024) (d : Fin 256) :
    Cert.Block.newAcc (aB xr wr ar i) (bB xr wr ar (n + 1)) (adjB adj i (n + 1)) (hvB xr wr (n + 1)) (fun p => onM xr adj wr ar (row i p) n)
      (fun p d => onAcc xr adj wr ar (row i p) d n) p d = onAcc xr adj wr ar (row i p) d (n + 1) := by
  unfold Cert.Block.newAcc
  rw [next_M]
  show _ = Real.exp (onM xr adj wr ar (row i p) n - onM xr adj wr ar (row i p) (n + 1)) * onAcc xr adj wr ar (row i p) d n
      + ∑ q : Fin 1024, Real.exp (att xr adj wr ar (row i p) (col (n + 1) q) - onM xr adj wr ar (row i p) (n + 1)) * h xr wr (col (n + 1) q) d
  congr 1
  exact Finset.sum_congr rfl fun q _ => by rw [att_eq]; rfl

theorem fin_eq (i : ℕ) (p : Fin 1024) (d : Fin 256) :
    Cert.Block.fin (fun p d => onAcc xr adj wr ar (row i p) d 7) (fun p => onL xr adj wr ar (row i p) 7) p d
      = out xr adj wr ar (row i p) d := by
  rw [← onOut_eq_out]; rfl

end Cert.BlockSpec

end
-- ==== Proof.Value1Blocks.lean ====
/-
  The attention region's input blocks as real functions.

  At grid point t the region works on row block t / 8 and column block t % 8.  Given that the projection region
  left h, f1 and f2 in its three output arrays, the f1 window's block is the row terms of row block t / 8, the
  f2ᵀ window's block the column terms of column block t % 8, the adjacency window's block the adjacency entries
  of that row block by that column block, and the rows of h that the body takes are those of column block t % 8.
-/
import proofs.«174499_j29283087024215_2_alg».proof.Proof.Boundary
import proofs.«174499_j29283087024215_2_alg».proof.Proof.ValBlocks1
import proofs.«174499_j29283087024215_2_alg».proof.Proof.ValDefs
import proofs.«174499_j29283087024215_2_alg».proof.Proof.BlockSpec
import Idealize.ShloMosaic.Lib.ValueLayout

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand

variable [Cert.KernelIdeal.Facts] (m : (ℓ : Loc nD τ sig) → Buf (Elt Ideal) ℓ) (ρ : Dev nD → PrngReg)
  (x' : S8192x512.Idx → ℝ) (w' : S512x256.Idx → ℝ) (a' : S512x1.Idx → ℝ) (c : Dev nD)

/-- The adjacency array as launched. -/
abbrev adjM : S8192x8192.Idx → BitVec 32 := m ((c : Thread nD τ).loc main_arg1)

local notation "X" => xR x'
local notation "W" => wR w'
local notation "Av" => aR a'
local notation "ADJ" => adjR (adjM m c)

/-- The f1 window's block at point t: the row terms of row block `i = t / 8`. -/
theorem blk1_f1_at (hF1 : (dat0 (V1 m ρ) c).arrAt 5 cfg0.N = GF1 x' w' a') (t : Fin cfg1.N) (i : ℕ) (hi : t.val / 8 = i)
    (p : Fin 1024) :
    (iblk1 (V3 m ρ) c 0 t : Vec Ideal S1024x1 .f32) (ix2 p (0 : Fin 1)) = ((Cert.BlockSpec.aB X W Av i p : ℝ) : EReal) := by
  subst hi
  have hN : cfg1.N = 64 := N_1
  have ht : t.val < cfg1.N := t.isLt
  rw [iblk1_0_apply (V3 m ρ) c t p (Cert.BlockSpec.row (t.val / 8) p)
    (by show (t.val / 8) % 8 * 1024 + p.val = 1024 * (t.val / 8) + p.val; omega)]
  rw [V3_v2_1, hF1]
  rfl

theorem blk1_f1 (hF1 : (dat0 (V1 m ρ) c).arrAt 5 cfg0.N = GF1 x' w' a') (t : Fin cfg1.N) (p : Fin 1024) :
    (iblk1 (V3 m ρ) c 0 t : Vec Ideal S1024x1 .f32) (ix2 p (0 : Fin 1)) = ((Cert.BlockSpec.aB X W Av (t.val / 8) p : ℝ) : EReal) :=
  blk1_f1_at m ρ x' w' a' c hF1 t _ rfl p

/-- The f2ᵀ window's block at point t: the column terms of column block `k = t % 8`. -/
theorem blk1_f2_at (hF2 : (dat0 (V1 m ρ) c).arrAt 6 cfg0.N = GF2 x' w' a') (t : Fin cfg1.N) (k : ℕ) (hk : t.val % 8 = k)
    (q : Fin 1024) :
    (iblk1 (V3 m ρ) c 1 t : Vec Ideal S1x1024 .f32) (ix2 (0 : Fin 1) q) = ((Cert.BlockSpec.bB X W Av k q : ℝ) : EReal) := by
  subst hk
  rw [iblk1_1_apply (V3 m ρ) c t q (Cert.Spec.col (t.val % 8) q)
    (by show (t.val % 8) % 8 * 1024 + q.val = 1024 * (t.val % 8) + q.val; omega)]
  rw [V3_v3, transpose_ix2_apply, hF2]
  rfl

theorem blk1_f2 (hF2 : (dat0 (V1 m ρ) c).arrAt 6 cfg0.N = GF2 x' w' a') (t : Fin cfg1.N) (q : Fin 1024) :
    (iblk1 (V3 m ρ) c 1 t : Vec Ideal S1x1024 .f32) (ix2 (0 : Fin 1) q) = ((Cert.BlockSpec.bB X W Av (t.val % 8) q : ℝ) : EReal) :=
  blk1_f2_at m ρ x' w' a' c hF2 t _ rfl q

/-- The adjacency window's block at point t: row block `i = t / 8` by column block `k = t % 8`. -/
theorem blk1_adj_at (t : Fin cfg1.N) (i k : ℕ) (hi : t.val / 8 = i) (hk : t.val % 8 = k) (p q : Fin 1024) :
    (iblk1 (V3 m ρ) c 2 t : Vec Ideal S1024x1024 .i32) (ix2 p q) = Cert.BlockSpec.adjB ADJ i k p q := by
  subst hi; subst hk
  have hN : cfg1.N = 64 := N_1
  have ht : t.val < cfg1.N := t.isLt
  rw [iblk1_2_apply (V3 m ρ) c t p q (Cert.BlockSpec.row (t.val / 8) p) (Cert.Spec.col (t.val % 8) q)
    (by show (t.val / 8) % 8 * 1024 + p.val = 1024 * (t.val / 8) + p.val; omega)
    (by show (t.val % 8) % 8 * 1024 + q.val = 1024 * (t.val % 8) + q.val; omega)]
  rw [V3_arg1]
  rfl

theorem blk1_adj (t : Fin cfg1.N) (p q : Fin 1024) :
    (iblk1 (V3 m ρ) c 2 t : Vec Ideal S1024x1024 .i32) (ix2 p q) = Cert.BlockSpec.adjB ADJ (t.val / 8) (t.val % 8) p q :=
  blk1_adj_at m ρ c t _ _ rfl rfl p q

/-- The rows of h the body takes at point t: those of column block `k = t % 8`. -/
theorem blk1_hv_at (hH : (dat0 (V1 m ρ) c).arrAt 4 cfg0.N = GH x' w') (t : Fin cfg1.N) (k : ℕ) (hk : t.val % 8 = k)
    (q : Fin 1024) (d : Fin 256) :
    vslice (grid1.coords t) (iblk1 (V3 m ρ) c 3 t : Vec Ideal S8192x256 .bf16) (ix2 q d) = ((Cert.BlockSpec.hvB X W k q d : ℝ) : EReal) := by
  subst hk
  rw [vslice_apply (V3 m ρ) c t q d (Cert.Spec.col (t.val % 8) q)
    (by show (t.val % 8) % 8 * 1024 + q.val = 1024 * (t.val % 8) + q.val; omega)]
  rw [V3_v2_0, hH]
  rfl

theorem blk1_hv (hH : (dat0 (V1 m ρ) c).arrAt 4 cfg0.N = GH x' w') (t : Fin cfg1.N) (q : Fin 1024) (d : Fin 256) :
    vslice (grid1.coords t) (iblk1 (V3 m ρ) c 3 t : Vec Ideal S8192x256 .bf16) (ix2 q d) = ((Cert.BlockSpec.hvB X W (t.val % 8) q d : ℝ) : EReal) :=
  blk1_hv_at m ρ x' w' c hH t _ rfl q d

end Cert.KernelIdeal.Val

end
-- ==== Proof.Value1Ind.lean ====
/-
  The carried arrays after each grid point, by induction over the column blocks.

  Within one row block the kernel visits the column blocks in order; at the first it starts the running maximum,
  denominator and numerator from the empty start, at every later one it rescales what it carries by
  exp (old maximum − new maximum) and adds the block's contribution.  These are the recurrences that define the
  specification's block-by-block quantities, so after the point of column block k the three arrays hold, at row p of
  the row block, the running maximum, denominator and numerator after blocks 0..k; after the last column block the
  quotient under the exponential linear unit is the layer's result.
-/
import proofs.«174499_j29283087024215_2_alg».proof.Proof.Value1Blocks

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand

variable [Cert.KernelIdeal.Facts] (m : (ℓ : Loc nD τ sig) → Buf (Elt Ideal) ℓ) (ρ : Dev nD → PrngReg)
  (x' : S8192x512.Idx → ℝ) (w' : S512x256.Idx → ℝ) (a' : S512x1.Idx → ℝ) (c : Dev nD)

local notation "X" => xR x'
local notation "W" => wR w'
local notation "Av" => aR a'
local notation "ADJ" => adjR (adjM m c)

/-! The three facts about one grid point's update that the induction rests on (proved beside this module). -/
variable
  (step_first : ∀ (a b : Fin 1024 → ℝ) (adj : Fin 1024 → Fin 1024 → BitVec 32) (hv : Fin 1024 → Fin 256 → ℝ) (i : grid1.Coords)
      (x0 : Vec Ideal S1024x1 .f32) (x1 : Vec Ideal S1x1024 .f32) (x2 : Vec Ideal S1024x1024 .i32) (x3 : Vec Ideal S8192x256 .bf16)
      (hx0 : ∀ p : Fin 1024, x0 (ix2 p (0 : Fin 1)) = ((a p : ℝ) : EReal)) (hx1 : ∀ q : Fin 1024, x1 (ix2 (0 : Fin 1) q) = ((b q : ℝ) : EReal))
      (hx2 : ∀ p q : Fin 1024, x2 (ix2 p q) = adj p q) (hx3 : ∀ (q : Fin 1024) (d : Fin 256), vslice i x3 (ix2 q d) = ((hv q d : ℝ) : EReal)),
      (∀ p, (step (F := Ideal) i x0 x1 x2 x3 init).1 (ix2 p (0 : Fin 1)) = ((Cert.Block.bmax a b adj p : ℝ) : EReal))
      ∧ (∀ p, (step (F := Ideal) i x0 x1 x2 x3 init).2.1 (ix2 p (0 : Fin 1)) = ((Cert.Block.firstL a b adj p : ℝ) : EReal))
      ∧ (∀ p d, (step (F := Ideal) i x0 x1 x2 x3 init).2.2 (ix2 p d) = ((Cert.Block.firstAcc a b adj hv p d : ℝ) : EReal)))
  (step_next : ∀ (a b : Fin 1024 → ℝ) (adj : Fin 1024 → Fin 1024 → BitVec 32) (hv : Fin 1024 → Fin 256 → ℝ) (i : grid1.Coords)
      (x0 : Vec Ideal S1024x1 .f32) (x1 : Vec Ideal S1x1024 .f32) (x2 : Vec Ideal S1024x1024 .i32) (x3 : Vec Ideal S8192x256 .bf16)
      (hx0 : ∀ p : Fin 1024, x0 (ix2 p (0 : Fin 1)) = ((a p : ℝ) : EReal)) (hx1 : ∀ q : Fin 1024, x1 (ix2 (0 : Fin 1) q) = ((b q : ℝ) : EReal))
      (hx2 : ∀ p q : Fin 1024, x2 (ix2 p q) = adj p q) (hx3 : ∀ (q : Fin 1024) (d : Fin 256), vslice i x3 (ix2 q d) = ((hv q d : ℝ) : EReal))
      (s : Scr Ideal) (M Lr : Fin 1024 → ℝ) (A : Fin 1024 → Fin 256 → ℝ)
      (hM : ∀ p, s.1 (ix2 p (0 : Fin 1)) = ((M p : ℝ) : EReal)) (hL : ∀ p, s.2.1 (ix2 p (0 : Fin 1)) = ((Lr p : ℝ) : EReal))
      (hA : ∀ p d, s.2.2 (ix2 p d) = ((A p d : ℝ) : EReal)),
      (∀ p, (step (F := Ideal) i x0 x1 x2 x3 s).1 (ix2 p (0 : Fin 1)) = ((Cert.Block.newM a b adj M p : ℝ) : EReal))
      ∧ (∀ p, (step (F := Ideal) i x0 x1 x2 x3 s).2.1 (ix2 p (0 : Fin 1)) = ((Cert.Block.newL a b adj M Lr p : ℝ) : EReal))
      ∧ (∀ p d, (step (F := Ideal) i x0 x1 x2 x3 s).2.2 (ix2 p d) = ((Cert.Block.newAcc a b adj hv M A p d : ℝ) : EReal)))
  (finish_apply : ∀ (s : Scr Ideal) (Lr : Fin 1024 → ℝ) (A : Fin 1024 → Fin 256 → ℝ)
      (hL : ∀ p, s.2.1 (ix2 p (0 : Fin 1)) = ((Lr p : ℝ) : EReal)) (hA : ∀ p d, s.2.2 (ix2 p d) = ((A p d : ℝ) : EReal))
      (hpos : ∀ p, Lr p ≠ 0) (p : Fin 1024) (d : Fin 256),
      finish (F := Ideal) s (ix2 p d) = ((Cert.Block.fin A Lr p d : ℝ) : EReal))

include step_first step_next in
/-- After grid point n (row block n / 8, column block n % 8) the carried arrays hold the running maximum, denominator
    and numerator after column blocks 0..n % 8, at the rows of row block n / 8. -/
theorem scr_inv (scr : (n : ℕ) → n < cfg1.N → Scr Ideal)
    (hfirst : ∀ t : Fin cfg1.N, t.val % 8 = 0 → scr t.val t.isLt = step (grid1.coords t) (iblk1 (V3 m ρ) c 0 t) (iblk1 (V3 m ρ) c 1 t) (iblk1 (V3 m ρ) c 2 t) (iblk1 (V3 m ρ) c 3 t) init)
    (hnext : ∀ (t : Fin cfg1.N) (h : t.val % 8 ≠ 0), scr t.val t.isLt = step (grid1.coords t) (iblk1 (V3 m ρ) c 0 t) (iblk1 (V3 m ρ) c 1 t) (iblk1 (V3 m ρ) c 2 t) (iblk1 (V3 m ρ) c 3 t) (scr (t.val - 1) (by omega)))
    (hH : (dat0 (V1 m ρ) c).arrAt 4 cfg0.N = GH x' w') (hF1 : (dat0 (V1 m ρ) c).arrAt 5 cfg0.N = GF1 x' w' a')
    (hF2 : (dat0 (V1 m ρ) c).arrAt 6 cfg0.N = GF2 x' w' a')
    (n : ℕ) (hn : n < cfg1.N) :
    (∀ p : Fin 1024, (scr n hn).1 (ix2 p (0 : Fin 1)) = ((Cert.Spec.onM X ADJ W Av (Cert.BlockSpec.row (n / 8) p) (n % 8) : ℝ) : EReal))
    ∧ (∀ p : Fin 1024, (scr n hn).2.1 (ix2 p (0 : Fin 1)) = ((Cert.Spec.onL X ADJ W Av (Cert.BlockSpec.row (n / 8) p) (n % 8) : ℝ) : EReal))
    ∧ (∀ (p : Fin 1024) (d : Fin 256), (scr n hn).2.2 (ix2 p d) = ((Cert.Spec.onAcc X ADJ W Av (Cert.BlockSpec.row (n / 8) p) d (n % 8) : ℝ) : EReal)) := by
  induction n using Nat.strong_induction_on with
  | _ n ih =>
    by_cases h0 : n % 8 = 0
    · -- the first column block of a row block: the update from the empty start
      have e : scr n hn = step (grid1.coords ⟨n, hn⟩) (iblk1 (V3 m ρ) c 0 ⟨n, hn⟩) (iblk1 (V3 m ρ) c 1 ⟨n, hn⟩) (iblk1 (V3 m ρ) c 2 ⟨n, hn⟩) (iblk1 (V3 m ρ) c 3 ⟨n, hn⟩) init := hfirst ⟨n, hn⟩ h0
      obtain ⟨r1, r2, r3⟩ := step_first (Cert.BlockSpec.aB X W Av (n / 8)) (Cert.BlockSpec.bB X W Av 0)
        (Cert.BlockSpec.adjB ADJ (n / 8) 0) (Cert.BlockSpec.hvB X W 0) (grid1.coords ⟨n, hn⟩) _ _ _ _
        (blk1_f1_at m ρ x' w' a' c hF1 ⟨n, hn⟩ (n / 8) rfl) (blk1_f2_at m ρ x' w' a' c hF2 ⟨n, hn⟩ 0 h0)
        (blk1_adj_at m ρ c ⟨n, hn⟩ (n / 8) 0 rfl h0) (blk1_hv_at m ρ x' w' c hH ⟨n, hn⟩ 0 h0)
      rw [e, h0]
      exact ⟨fun p => (r1 p).trans (congrArg (fun z : ℝ => (z : EReal)) (Cert.BlockSpec.first_M X ADJ W Av (n / 8) p)),
        fun p => (r2 p).trans (congrArg (fun z : ℝ => (z : EReal)) (Cert.BlockSpec.first_L X ADJ W Av (n / 8) p)),
        fun p d => (r3 p d).trans (congrArg (fun z : ℝ => (z : EReal)) (Cert.BlockSpec.first_Acc X ADJ W Av (n / 8) p d))⟩
    · -- a later column block: the previous point is the previous column block of the same row block
      have hlt : n - 1 < n := by omega
      have hn1 : n - 1 < cfg1.N := by omega
      obtain ⟨i1, i2, i3⟩ := ih (n - 1) hlt hn1
      have hdiv : (n - 1) / 8 = n / 8 := by omega
      obtain ⟨j, hj⟩ : ∃ j, (n - 1) % 8 = j := ⟨_, rfl⟩
      have hmod : n % 8 = j + 1 := by omega
      rw [hdiv, hj] at i1 i2 i3
      have e : scr n hn = step (grid1.coords ⟨n, hn⟩) (iblk1 (V3 m ρ) c 0 ⟨n, hn⟩) (iblk1 (V3 m ρ) c 1 ⟨n, hn⟩) (iblk1 (V3 m ρ) c 2 ⟨n, hn⟩) (iblk1 (V3 m ρ) c 3 ⟨n, hn⟩) (scr (n - 1) hn1) := hnext ⟨n, hn⟩ h0
      obtain ⟨r1, r2, r3⟩ := step_next (Cert.BlockSpec.aB X W Av (n / 8)) (Cert.BlockSpec.bB X W Av (j + 1))
        (Cert.BlockSpec.adjB ADJ (n / 8) (j + 1)) (Cert.BlockSpec.hvB X W (j + 1)) (grid1.coords ⟨n, hn⟩) _ _ _ _
        (blk1_f1_at m ρ x' w' a' c hF1 ⟨n, hn⟩ (n / 8) rfl) (blk1_f2_at m ρ x' w' a' c hF2 ⟨n, hn⟩ (j + 1) hmod)
        (blk1_adj_at m ρ c ⟨n, hn⟩ (n / 8) (j + 1) rfl hmod) (blk1_hv_at m ρ x' w' c hH ⟨n, hn⟩ (j + 1) hmod)
        (scr (n - 1) hn1) (fun p => Cert.Spec.onM X ADJ W Av (Cert.BlockSpec.row (n / 8) p) j)
        (fun p => Cert.Spec.onL X ADJ W Av (Cert.BlockSpec.row (n / 8) p) j)
        (fun p d => Cert.Spec.onAcc X ADJ W Av (Cert.BlockSpec.row (n / 8) p) d j) i1 i2 i3
      rw [e, hmod]
      exact ⟨fun p => (r1 p).trans (congrArg (fun z : ℝ => (z : EReal)) (Cert.BlockSpec.next_M X ADJ W Av (n / 8) j p)),
        fun p => (r2 p).trans (congrArg (fun z : ℝ => (z : EReal)) (Cert.BlockSpec.next_L X ADJ W Av (n / 8) j p)),
        fun p d => (r3 p d).trans (congrArg (fun z : ℝ => (z : EReal)) (Cert.BlockSpec.next_Acc X ADJ W Av (n / 8) j p d))⟩

include step_first step_next finish_apply in
/-- After the last column block of a row block the output block is the layer's result at the rows of that row block. -/
theorem finish_out (scr : (n : ℕ) → n < cfg1.N → Scr Ideal)
    (hfirst : ∀ t : Fin cfg1.N, t.val % 8 = 0 → scr t.val t.isLt = step (grid1.coords t) (iblk1 (V3 m ρ) c 0 t) (iblk1 (V3 m ρ) c 1 t) (iblk1 (V3 m ρ) c 2 t) (iblk1 (V3 m ρ) c 3 t) init)
    (hnext : ∀ (t : Fin cfg1.N) (h : t.val % 8 ≠ 0), scr t.val t.isLt = step (grid1.coords t) (iblk1 (V3 m ρ) c 0 t) (iblk1 (V3 m ρ) c 1 t) (iblk1 (V3 m ρ) c 2 t) (iblk1 (V3 m ρ) c 3 t) (scr (t.val - 1) (by omega)))
    (hH : (dat0 (V1 m ρ) c).arrAt 4 cfg0.N = GH x' w') (hF1 : (dat0 (V1 m ρ) c).arrAt 5 cfg0.N = GF1 x' w' a')
    (hF2 : (dat0 (V1 m ρ) c).arrAt 6 cfg0.N = GF2 x' w' a')
    (t : Fin cfg1.N) (h7 : t.val % 8 = 7) (p : Fin 1024) (d : Fin 256) :
    finish (F := Ideal) (scr t.val t.isLt) (ix2 p d)
      = ((Cert.Spec.out X ADJ W Av (Cert.BlockSpec.row (t.val / 8) p) d : ℝ) : EReal) := by
  obtain ⟨-, i2, i3⟩ := scr_inv m ρ x' w' a' c step_first step_next scr hfirst hnext hH hF1 hF2 t.val t.isLt
  rw [h7] at i2 i3
  rw [finish_apply (scr t.val t.isLt) (fun p => Cert.Spec.onL X ADJ W Av (Cert.BlockSpec.row (t.val / 8) p) 7)
    (fun p d => Cert.Spec.onAcc X ADJ W Av (Cert.BlockSpec.row (t.val / 8) p) d 7) i2 i3
    (fun p => (Cert.Spec.onL_pos X ADJ W Av _ 7).ne') p d]
  exact congrArg (fun z : ℝ => (z : EReal)) (Cert.BlockSpec.fin_eq X ADJ W Av (t.val / 8) p d)

end Cert.KernelIdeal.Val

end
-- ==== Proof.RefConsts.lean ====
/-
  The float constants the two programs spell, as the extended reals their single-precision patterns denote
  when every operation is exact: zero, one, the leaky rectifier's slope, the mask value, and minus infinity.
  One module states them all, so that no other module unfolds the pattern decoder.
-/
import Idealize.ShloMosaic.PureOps.Ideal
import proofs.«174499_j29283087024215_2_alg».proof.Proof.Spec

noncomputable section

namespace Cert.RefConsts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of the single-precision `0.2` denotes the slope `13421773 / 2 ^ 26`. -/
theorem ofBits_slope : Ideal.ofBits .f32 0x3E4CCCCD#32 = ((Cert.Spec.slope : ℝ) : EReal) := by
  simp [Ideal.ofBits, Ideal.ieee, -EReal.coe_mul]; norm_num [Cert.Spec.slope]

/-- The pattern of the single-precision `-9e15` denotes the mask value `-8999999815811072`. -/
theorem ofBits_mask : Ideal.ofBits .f32 0xD9FFCB9E#32 = ((Cert.Spec.mask : ℝ) : EReal) := by
  simp [Ideal.ofBits, Ideal.ieee, -EReal.coe_mul]; norm_num [Cert.Spec.mask]

/-- The pattern of minus infinity denotes `⊥`. -/
theorem ofBits_neg_inf : Ideal.ofBits .f32 0xFF800000#32 = ⊥ := by
  simp [Ideal.ofBits, Ideal.ieee]

end Cert.RefConsts

end
-- ==== Proof.KernelValStep.lean ====
/-
  One grid point of the attention kernel read at an index, over the extended reals.

  With real inputs — the row terms a, the column terms b of the additive score, the adjacency block, the
  selected rows hv of h — every payload of the point is the coercion of a real number: the masked score, its
  row maximum, the new running maximum max (m, row maximum), the rescaling factor exp (m − new maximum), the
  shifted exponentials and their row sum, and the product with hv.  The update of the carried arrays is stated
  first for ARBITRARY carried values m (an extended real per row), and then specialised twice: to real carried
  values (a later column block), and to the start (−∞, 0, 0), where exp (−∞ − x) = 0 removes the carried part.
-/
import proofs.«174499_j29283087024215_2_alg».proof.Proof.Step1
import proofs.«174499_j29283087024215_2_alg».proof.Proof.BlockMath
import proofs.«174499_j29283087024215_2_alg».proof.Proof.RefConsts
import proofs.«174499_j29283087024215_2_alg».proof.Proof.LibRowReads

namespace Cert.KernelIdeal.Val

open Idealize.ShloMosaic Idealize.ShloMosaic.ValueIdx Cert.KernelIdeal Cert.KernelIdeal.Gen Cert.KernelIdeal.Hand Cert.ValLib

variable [Cert.KernelIdeal.Facts]

variable (a b : Fin 1024 → ℝ) (adj : Fin 1024 → Fin 1024 → BitVec 32) (hv : Fin 1024 → Fin 256 → ℝ)

/-- The coercion of reals into the extended reals preserves maxima. -/
theorem coe_max (x y : ℝ) : ((max x y : ℝ) : EReal) = max (x : EReal) (y : EReal) :=
  EReal.coe_strictMono.monotone.map_max

/-- The zero word as a signed integer. -/
theorem zero_toInt : (0#32 : BitVec 32).toInt = 0 := by decide

section Block

variable (x0 : FVec Ideal S1024x1 .f32) (x1 : FVec Ideal S1x1024 .f32) (x2 : IVec S1024x1024 32)
  (hx0 : ∀ p : Fin 1024, x0 (ix2 p (0 : Fin 1)) = ((a p : ℝ) : EReal))
  (hx1 : ∀ q : Fin 1024, x1 (ix2 (0 : Fin 1) q) = ((b q : ℝ) : EReal))
  (hx2 : ∀ p q : Fin 1024, x2 (ix2 p q) = adj p q)

include hx0 hx1 hx2

/-- The masked score of the block at an entry. -/
theorem pay8_apply (p q : Fin 1024) :
    k1_pay8 (F := Ideal) x0 x1 x2 (ix2 p q) = ((Cert.Block.att a b adj p q : ℝ) : EReal) := by
  unfold k1_pay8
  rw [select_apply, maximumf_apply, mulf_apply, addf_apply, broadcast_apply, broadcast_apply,
    broadcastTo_a1_ab_apply, broadcastTo_1b_ab_apply, shapeCast_self, shapeCast_self, hx0, hx1]
  show Scalar.select (IntOp.cmpi .sgt (x2 (ix2 p q)) 0#32)
      (max (((a p : ℝ) : EReal) + ((b q : ℝ) : EReal))
        (Ideal.ofBits .f32 0x3E4CCCCD#32 * (((a p : ℝ) : EReal) + ((b q : ℝ) : EReal))))
      (Ideal.ofBits .f32 0xD9FFCB9E#32) = _
  rw [hx2, Cert.RefConsts.ofBits_slope, Cert.RefConsts.ofBits_mask, ← EReal.coe_add, ← EReal.coe_mul, ← coe_max]
  unfold Cert.Block.att
  by_cases hc : 0 < (adj p q).toInt
  · rw [if_pos hc, IntOp.cmpi_sgt.2 (by rw [zero_toInt]; exact hc), select_one]
  · have hne : ¬ IntOp.cmpi .sgt (adj p q) 0#32 = 1#1 := fun h => hc (by
      have h' := IntOp.cmpi_sgt.1 h
      rwa [zero_toInt] at h')
    rw [if_neg hc, eq_zero_of_ne_one hne, select_zero]

/-- The block's row maximum. -/
theorem rowmax_apply (p : Fin 1024) :
    multiReduction (F := Ideal) .maximumf [1] S1024 (k1_pay8 (F := Ideal) x0 x1 x2) 0xFF800000#32
        Facts₀.reduces_S1024x1024_S1024 (.inl rfl) rfl (ix1 p)
      = ((Cert.Block.bmax a b adj p : ℝ) : EReal) := by
  refine (rowMax_apply _ _ _ _ p).trans ?_
  rw [Cert.RefConsts.ofBits_neg_inf]
  have e : (fun q => k1_pay8 (F := Ideal) x0 x1 x2 (ix2 p q)) = fun q => ((Cert.Block.att a b adj p q : ℝ) : EReal) :=
    funext fun q => pay8_apply a b adj x0 x1 x2 hx0 hx1 hx2 p q
  rw [e]
  exact fold_max_bot_coe (Cert.Block.att a b adj p)

variable (m : FVec Ideal S1024x1 .f32)

/-- The new running maximum at a row. -/
theorem pay10_apply (p : Fin 1024) :
    k1_pay10 (F := Ideal) x0 x1 x2 m (ix2 p (0 : Fin 1))
      = max (m (ix2 p (0 : Fin 1))) ((Cert.Block.bmax a b adj p : ℝ) : EReal) := by
  unfold k1_pay10
  rw [maximumf_apply, shapeCast_a_a1_apply, rowmax_apply a b adj x0 x1 x2 hx0 hx1 hx2 p]

/-- The rescaling factor of the carried values at a row. -/
theorem pay11_apply (m' : FVec Ideal S1024x1 .f32) (p : Fin 1024) :
    k1_pay11 (F := Ideal) x0 x1 x2 m m' (ix2 p (0 : Fin 1))
      = Ideal.exp (m' (ix2 p (0 : Fin 1)) - max (m (ix2 p (0 : Fin 1))) ((Cert.Block.bmax a b adj p : ℝ) : EReal)) := by
  unfold k1_pay11
  show Ideal.exp (m' (ix2 p (0 : Fin 1)) - k1_pay10 (F := Ideal) x0 x1 x2 m (ix2 p (0 : Fin 1))) = _
  rw [pay10_apply a b adj x0 x1 x2 hx0 hx1 hx2 m p]

/-- The shifted exponential of the block at an entry. -/
theorem pay12_apply (p q : Fin 1024) :
    k1_pay12 (F := Ideal) x0 x1 x2 m (ix2 p q)
      = Ideal.exp (((Cert.Block.att a b adj p q : ℝ) : EReal)
          - max (m (ix2 p (0 : Fin 1))) ((Cert.Block.bmax a b adj p : ℝ) : EReal)) := by
  unfold k1_pay12
  show Ideal.exp (k1_pay8 (F := Ideal) x0 x1 x2 (ix2 p q)
      - broadcastTo S1024x1024 (k1_pay10 (F := Ideal) x0 x1 x2 m) Facts₀.broadcasts_S1024x1_S1024x1024 (ix2 p q)) = _
  rw [broadcastTo_a1_ab_apply, pay8_apply a b adj x0 x1 x2 hx0 hx1 hx2 p q, pay10_apply a b adj x0 x1 x2 hx0 hx1 hx2 m p]

/-- The block's row sum of the shifted exponentials. -/
theorem pay14_apply (p : Fin 1024) :
    k1_pay14 (F := Ideal) x0 x1 x2 m (ix1 p)
      = ∑ q : Fin 1024, Ideal.exp (((Cert.Block.att a b adj p q : ℝ) : EReal)
          - max (m (ix2 p (0 : Fin 1))) ((Cert.Block.bmax a b adj p : ℝ) : EReal)) := by
  unfold k1_pay14
  refine (rowSum_apply _ _ _ _ p).trans ?_
  exact Finset.sum_congr rfl fun q _ => pay12_apply a b adj x0 x1 x2 hx0 hx1 hx2 m p q

/-- The new running maximum, as the step stores it. -/
theorem stepM_apply (p : Fin 1024) :
    stepM (F := Ideal) x0 x1 x2 m (ix2 p (0 : Fin 1))
      = max (m (ix2 p (0 : Fin 1))) ((Cert.Block.bmax a b adj p : ℝ) : EReal) := by
  unfold stepM k1_pay3
  rw [shapeCast_self]
  exact pay10_apply a b adj x0 x1 x2 hx0 hx1 hx2 m p

/-- The new running denominator at a row. -/
theorem stepL_apply (l : FVec Ideal S1024x1 .f32) (p : Fin 1024) :
    stepL (F := Ideal) x0 x1 x2 m l (ix2 p (0 : Fin 1))
      = Ideal.exp (m (ix2 p (0 : Fin 1)) - max (m (ix2 p (0 : Fin 1))) ((Cert.Block.bmax a b adj p : ℝ) : EReal))
          * l (ix2 p (0 : Fin 1))
        + ∑ q : Fin 1024, Ideal.exp (((Cert.Block.att a b adj p q : ℝ) : EReal)
            - max (m (ix2 p (0 : Fin 1))) ((Cert.Block.bmax a b adj p : ℝ) : EReal)) := by
  unfold stepL k1_pay1 k1_pay13
  rw [shapeCast_self, addf_apply, mulf_apply, shapeCast_a_a1_apply,
    pay11_apply a b adj x0 x1 x2 hx0 hx1 hx2 m m p, pay14_apply a b adj x0 x1 x2 hx0 hx1 hx2 m p]

end Block

section Acc

variable (i : grid1.Coords) (x0 : FVec Ideal S1024x1 .f32) (x1 : FVec Ideal S1x1024 .f32) (x2 : IVec S1024x1024 32)
  (x3 : Vec Ideal S8192x256 .bf16)
  (hx0 : ∀ p : Fin 1024, x0 (ix2 p (0 : Fin 1)) = ((a p : ℝ) : EReal))
  (hx1 : ∀ q : Fin 1024, x1 (ix2 (0 : Fin 1) q) = ((b q : ℝ) : EReal))
  (hx2 : ∀ p q : Fin 1024, x2 (ix2 p q) = adj p q)
  (hx3 : ∀ (q : Fin 1024) (d : Fin 256), vslice i x3 (ix2 q d) = ((hv q d : ℝ) : EReal))
  (m : FVec Ideal S1024x1 .f32)

include hx0 hx1 hx2 hx3

/-- The new running numerator at an entry. -/
theorem stepAcc_apply (acc : FVec Ideal S1024x256 .f32) (p : Fin 1024) (d : Fin 256) :
    stepAcc (F := Ideal) i x0 x1 x2 x3 m acc (ix2 p d)
      = Ideal.exp (m (ix2 p (0 : Fin 1)) - max (m (ix2 p (0 : Fin 1))) ((Cert.Block.bmax a b adj p : ℝ) : EReal))
          * acc (ix2 p d)
        + ∑ q : Fin 1024, Ideal.exp (((Cert.Block.att a b adj p q : ℝ) : EReal)
            - max (m (ix2 p (0 : Fin 1))) ((Cert.Block.bmax a b adj p : ℝ) : EReal)) * ((hv q d : ℝ) : EReal) := by
  unfold stepAcc k1_pay2 k1_pay9
  rw [shapeCast_self, addf_apply, mulf_apply, broadcastTo_a1_ab_apply,
    pay11_apply a b adj x0 x1 x2 hx0 hx1 hx2 m m p]
  congr 1
  refine (matmul2_apply Facts₀.dot_S1024x1024_S1024x256_S1024x256_1_0_0_1_n_n_wf none _ _ p d).trans ?_
  refine Finset.sum_congr rfl fun q _ => ?_
  rw [truncf_apply, shapeCast_self, pay12_apply a b adj x0 x1 x2 hx0 hx1 hx2 m p q, hx3]

end Acc

/-! ## The carried arrays before the first column block -/

/-- The running maximum starts at −∞. -/
theorem pay5_apply (p : Fin 1024) : k1_pay5 (F := Ideal) (ix2 p (0 : Fin 1)) = (⊥ : EReal) := by
  unfold k1_pay5
  rw [shapeCast_self, broadcast_apply]
  exact Cert.RefConsts.ofBits_neg_inf

/-- The running denominator starts at 0. -/
theorem pay6_apply (p : Fin 1024) : k1_pay6 (F := Ideal) (ix2 p (0 : Fin 1)) = (0 : EReal) := by
  unfold k1_pay6
  rw [shapeCast_self, broadcast_apply]
  exact Cert.RefConsts.ofBits_zero

/-- The running numerator starts at 0. -/
theorem pay7_apply (p : Fin 1024) (d : Fin 256) : k1_pay7 (F := Ideal) (ix2 p d) = (0 : EReal) := by
  unfold k1_pay7
  rw [shapeCast_self, broadcast_apply]
  exact Cert.RefConsts.ofBits_zero

/-! ## One point's update, over real carried values -/

/-- A later column block: the carried values are real, and the update is the block update over the reals. -/
theorem step_next (i : grid1.Coords) (x0 : Vec Ideal S1024x1 .f32) (x1 : Vec Ideal S1x1024 .f32) (x2 : Vec Ideal S1024x1024 .i32) (x3 : Vec Ideal S8192x256 .bf16)
    (hx0 : ∀ p : Fin 1024, x0 (ix2 p (0 : Fin 1)) = ((a p : ℝ) : EReal)) (hx1 : ∀ q : Fin 1024, x1 (ix2 (0 : Fin 1) q) = ((b q : ℝ) : EReal))
    (hx2 : ∀ p q : Fin 1024, x2 (ix2 p q) = adj p q) (hx3 : ∀ (q : Fin 1024) (d : Fin 256), vslice i x3 (ix2 q d) = ((hv q d : ℝ) : EReal))
    (s : Scr Ideal) (M Lr : Fin 1024 → ℝ) (A : Fin 1024 → Fin 256 → ℝ)
    (hM : ∀ p : Fin 1024, s.1 (ix2 p (0 : Fin 1)) = ((M p : ℝ) : EReal)) (hL : ∀ p : Fin 1024, s.2.1 (ix2 p (0 : Fin 1)) = ((Lr p : ℝ) : EReal))
    (hA : ∀ (p : Fin 1024) (d : Fin 256), s.2.2 (ix2 p d) = ((A p d : ℝ) : EReal)) :
    (∀ p, (step (F := Ideal) i x0 x1 x2 x3 s).1 (ix2 p (0 : Fin 1)) = ((Cert.Block.newM a b adj M p : ℝ) : EReal))
    ∧ (∀ p, (step (F := Ideal) i x0 x1 x2 x3 s).2.1 (ix2 p (0 : Fin 1)) = ((Cert.Block.newL a b adj M Lr p : ℝ) : EReal))
    ∧ (∀ p d, (step (F := Ideal) i x0 x1 x2 x3 s).2.2 (ix2 p d) = ((Cert.Block.newAcc a b adj hv M A p d : ℝ) : EReal)) := by
  refine ⟨fun p => ?_, fun p => ?_, fun p d => ?_⟩
  · show stepM (F := Ideal) x0 x1 x2 s.1 (ix2 p (0 : Fin 1)) = _
    rw [stepM_apply a b adj x0 x1 x2 hx0 hx1 hx2 s.1 p, hM, ← coe_max]
    rfl
  · show stepL (F := Ideal) x0 x1 x2 s.1 s.2.1 (ix2 p (0 : Fin 1)) = _
    rw [stepL_apply a b adj x0 x1 x2 hx0 hx1 hx2 s.1 s.2.1 p, hM, hL, ← coe_max]
    simp only [← EReal.coe_sub, Ideal.exp_coe, ← EReal.coe_mul, coe_sum, ← EReal.coe_add]
    rfl
  · show stepAcc (F := Ideal) i x0 x1 x2 x3 s.1 s.2.2 (ix2 p d) = _
    rw [stepAcc_apply a b adj hv i x0 x1 x2 x3 hx0 hx1 hx2 hx3 s.1 s.2.2 p d, hM, hA, ← coe_max]
    simp only [← EReal.coe_sub, Ideal.exp_coe, ← EReal.coe_mul, coe_sum, ← EReal.coe_add]
    rfl

/-- The first column block: from (−∞, 0, 0) the update gives the block's own maximum, denominator and numerator. -/
theorem step_first (i : grid1.Coords) (x0 : Vec Ideal S1024x1 .f32) (x1 : Vec Ideal S1x1024 .f32) (x2 : Vec Ideal S1024x1024 .i32) (x3 : Vec Ideal S8192x256 .bf16)
    (hx0 : ∀ p : Fin 1024, x0 (ix2 p (0 : Fin 1)) = ((a p : ℝ) : EReal)) (hx1 : ∀ q : Fin 1024, x1 (ix2 (0 : Fin 1) q) = ((b q : ℝ) : EReal))
    (hx2 : ∀ p q : Fin 1024, x2 (ix2 p q) = adj p q) (hx3 : ∀ (q : Fin 1024) (d : Fin 256), vslice i x3 (ix2 q d) = ((hv q d : ℝ) : EReal)) :
    (∀ p : Fin 1024, (step (F := Ideal) i x0 x1 x2 x3 init).1 (ix2 p (0 : Fin 1)) = ((Cert.Block.bmax a b adj p : ℝ) : EReal))
    ∧ (∀ p : Fin 1024, (step (F := Ideal) i x0 x1 x2 x3 init).2.1 (ix2 p (0 : Fin 1)) = ((Cert.Block.firstL a b adj p : ℝ) : EReal))
    ∧ (∀ (p : Fin 1024) (d : Fin 256), (step (F := Ideal) i x0 x1 x2 x3 init).2.2 (ix2 p d) = ((Cert.Block.firstAcc a b adj hv p d : ℝ) : EReal)) := by
  refine ⟨fun p => ?_, fun p => ?_, fun p d => ?_⟩
  · show stepM (F := Ideal) x0 x1 x2 (k1_pay5 (F := Ideal)) (ix2 p (0 : Fin 1)) = _
    rw [stepM_apply a b adj x0 x1 x2 hx0 hx1 hx2 _ p, pay5_apply, max_bot_left]
  · show stepL (F := Ideal) x0 x1 x2 (k1_pay5 (F := Ideal)) (k1_pay6 (F := Ideal)) (ix2 p (0 : Fin 1)) = _
    rw [stepL_apply a b adj x0 x1 x2 hx0 hx1 hx2 _ _ p, pay5_apply, pay6_apply, max_bot_left, EReal.bot_sub,
      Ideal.exp_bot, zero_mul, zero_add]
    simp only [← EReal.coe_sub, Ideal.exp_coe, coe_sum]
    rfl
  · show stepAcc (F := Ideal) i x0 x1 x2 x3 (k1_pay5 (F := Ideal)) (k1_pay7 (F := Ideal)) (ix2 p d) = _
    rw [stepAcc_apply a b adj hv i x0 x1 x2 x3 hx0 hx1 hx2 hx3 _ _ p d, pay5_apply, pay7_apply, max_bot_left, EReal.bot_sub,
      Ideal.exp_bot, zero_mul, zero_add]
    simp only [← EReal.coe_sub, Ideal.exp_coe, ← EReal.coe_mul, coe_sum]
    rfl

/-! ## The output block -/

/-- The quotient of a real numerator by a nonzero real denominator, under the exponential linear unit. -/
theorem pay4_apply (acc : FVec Ideal S1024x256 .f32) (l : FVec Ideal S1024x1 .f32) (Lr : Fin 1024 → ℝ) (A : Fin 1024 → Fin 256 → ℝ)
    (hL : ∀ p : Fin 1024, l (ix2 p (0 : Fin 1)) = ((Lr p : ℝ) : EReal))
    (hA : ∀ (p : Fin 1024) (d : Fin 256), acc (ix2 p d) = ((A p d : ℝ) : EReal)) (hpos : ∀ p, Lr p ≠ 0) (p : Fin 1024) (d : Fin 256) :
    k1_pay4 (F := Ideal) acc l (ix2 p d) = ((Cert.Block.fin A Lr p d : ℝ) : EReal) := by
  have hq : divf (F := Ideal) acc (broadcastTo S1024x256 l Facts₀.broadcasts_S1024x1_S1024x256) (ix2 p d)
      = ((A p d / Lr p : ℝ) : EReal) := by
    rw [divf_apply, broadcastTo_a1_ab_apply, hA, hL, Ideal.div_coe (hpos p), ← EReal.coe_mul, mul_one_div]
  unfold k1_pay4
  show Scalar.select
      (Ideal.cmp .ogt (divf (F := Ideal) acc (broadcastTo S1024x256 l Facts₀.broadcasts_S1024x1_S1024x256) (ix2 p d))
        (Ideal.ofBits .f32 0x00000000#32))
      (divf (F := Ideal) acc (broadcastTo S1024x256 l Facts₀.broadcasts_S1024x1_S1024x256) (ix2 p d))
      (Ideal.exp (divf (F := Ideal) acc (broadcastTo S1024x256 l Facts₀.broadcasts_S1024x1_S1024x256) (ix2 p d))
        - Ideal.ofBits .f32 0x3F800000#32) = _
  rw [hq, Cert.RefConsts.ofBits_zero, Cert.RefConsts.ofBits_one, Ideal.exp_coe]
  unfold Cert.Block.fin
  by_cases hc : 0 < A p d / Lr p
  · have h1 : Ideal.cmp .ogt ((A p d / Lr p : ℝ) : EReal) 0 = 1#1 := by
      show BitVec.ofBool (decide ((0 : EReal) < ((A p d / Lr p : ℝ) : EReal))) = 1#1
      rw [decide_eq_true (EReal.coe_pos.2 hc)]; rfl
    rw [if_pos hc, h1, select_one]
  · have h0 : Ideal.cmp .ogt ((A p d / Lr p : ℝ) : EReal) 0 = 0#1 := by
      show BitVec.ofBool (decide ((0 : EReal) < ((A p d / Lr p : ℝ) : EReal))) = 0#1
      rw [decide_eq_false (fun h => hc (EReal.coe_pos.1 h))]; rfl
    rw [if_neg hc, h0, select_zero, ← EReal.coe_one, ← EReal.coe_sub]

/-- After the last column block: the quotient of the carried numerator by the carried denominator, under the
exponential linear unit. -/
theorem finish_apply (s : Scr Ideal) (Lr : Fin 1024 → ℝ) (A : Fin 1024 → Fin 256 → ℝ)
    (hL : ∀ p : Fin 1024, s.2.1 (ix2 p (0 : Fin 1)) = ((Lr p : ℝ) : EReal))
    (hA : ∀ (p : Fin 1024) (d : Fin 256), s.2.2 (ix2 p d) = ((A p d : ℝ) : EReal)) (hpos : ∀ p, Lr p ≠ 0) (p : Fin 1024) (d : Fin 256) :
    finish (F := Ideal) s (ix2 p d) = ((Cert.Block.fin A Lr p d : ℝ) : EReal) := by
  unfold finish
  exact pay4_apply s.2.2 s.2.1 Lr A hL hA hpos p d

end Cert.KernelIdeal.Val
-- ==== Proof.LibRealReads.lean ====
/-
  Small general facts used to read the reference's result at an index: a finite sum and a finite maximum of
  real numbers, taken in the extended reals, are the real sum and the real maximum; a plain matrix product of
  two arrays of real numbers, read at an index, is the real sum of products.
-/
import Mathlib.Data.EReal.Basic
import Mathlib.Data.Finset.Fold
import Mathlib.Order.Fin.Basic
import Idealize.ShloMosaic.Lib.ValueIdx
import Idealize.ShloMosaic.Lib.StackMember
import Idealize.ShloMosaic.PureOps.Ideal.Laws

noncomputable section

namespace Cert.ReferenceIdeal.RefRead

open Idealize.ShloMosaic Idealize.ShloMosaic.ValueIdx

/-- The coercion of a finite real sum is the extended-real sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum, started at minus infinity, of finitely many real numbers (at least one) is their real maximum:
    it is above each of them and it is one of them. -/
theorem fold_max_coe {n : ℕ} (hn : (Finset.univ : Finset (Fin n)).Nonempty) (f : Fin n → ℝ) :
    (Finset.univ : Finset (Fin n)).fold max (⊥ : EReal) (fun k => ((f k : ℝ) : EReal))
      = ((Finset.univ.sup' hn f : ℝ) : EReal) := by
  apply le_antisymm
  · rw [Finset.fold_max_le]
    exact ⟨bot_le, fun k hk => EReal.coe_le_coe_iff.mpr (Finset.le_sup' f hk)⟩
  · obtain ⟨i, hi, he⟩ := Finset.exists_mem_eq_sup' hn f
    rw [Finset.le_fold_max]
    exact Or.inr ⟨i, hi, by rw [he]⟩

/-- A plain matrix product whose operands read as real numbers at every index reads, at `(a, b)`, as the real
    sum over the contracted coordinate of the products. -/
theorem dot_plain_of_coe {m k n : ℕ} {φ₁ φ₂ : FTy} (prec : Option ContractPrecision)
    (A : FVec Ideal ⟨2, ![m, k]⟩ φ₁) (B : FVec Ideal ⟨2, ![k, n]⟩ φ₂) (A' : Fin m → Fin k → ℝ) (B' : Fin k → Fin n → ℝ)
    (hA : ∀ a c, A (ix2 a c) = ((A' a c : ℝ) : EReal)) (hB : ∀ c b, B (ix2 c b) = ((B' c b : ℝ) : EReal))
    (a : Fin m) (b : Fin n) :
    Host.dotGeneral (F := Ideal) (DotDims.plain m k n) prec A B (ix2 a b) = ((∑ c : Fin k, A' a c * B' c b : ℝ) : EReal) := by
  rw [StackMember.dotGeneral_plain_apply, coe_sum]
  refine Finset.sum_congr rfl fun c _ => ?_
  rw [hA, hB, EReal.coe_mul]

end Cert.ReferenceIdeal.RefRead

end
-- ==== Proof.RefReadLayout.lean ====
/-
  The layout operations of the reference, read at an index given by its coordinates: a scalar copied to every
  index, a column copied along rows, a row copied along columns, a vector turned into a column, a column
  transposed into a row, and the two halves of the attention vector.
-/
import proofs.«174499_j29283087024215_2_alg».proof.ReferenceIdeal
import Idealize.ShloMosaic.Lib.ValueIdx
import Idealize.ShloMosaic.Lib.Pipeline.Value
import Idealize.ShloMosaic.Lib.ValueLayout

noncomputable section

namespace Cert.ReferenceIdeal.RefRead

open Idealize.ShloMosaic Idealize.ShloMosaic.ValueIdx Cert.ReferenceIdeal

variable [Facts]
open Facts₀ Facts

variable {α : Type}

/-- A scalar copied to every index of an 8192 × 8192 array reads the scalar. -/
theorem splat_S8192x8192 (x : S_.Idx → α) (j : S8192x8192.Idx) :
    broadcastInDim S8192x8192 ![] bcast_S_S8192x8192 x j = x ix0 :=
  broadcastInDim_apply _ _ x j ix0 (fun a => a.elim0)

/-- A scalar copied to every index of an 8192 × 256 array reads the scalar. -/
theorem splat_S8192x256 (x : S_.Idx → α) (j : S8192x256.Idx) :
    broadcastInDim S8192x256 ![] bcast_S_S8192x256 x j = x ix0 :=
  broadcastInDim_apply _ _ x j ix0 (fun a => a.elim0)

/-- A scalar copied to every index of a vector of length 8192 reads the scalar. -/
theorem splat_S8192 (x : S_.Idx → α) (j : S8192.Idx) :
    broadcastInDim S8192 ![] bcast_S_S8192 x j = x ix0 :=
  broadcastInDim_apply _ _ x j ix0 (fun a => a.elim0)

/-- A column copied along the rows reads, at `(r, c)`, the column at `r`. -/
theorem bcast_col (v : S8192x1.Idx → α) (r c : Fin 8192) :
    broadcastInDim S8192x8192 ![0, 1] bcast_S8192x1_S8192x8192_0_1 v (ix2 r c) = v (ix2 r (0 : Fin 1)) :=
  broadcastInDim_apply _ _ v _ _ (fun a => match a with | ⟨0, _⟩ => rfl | ⟨1, _⟩ => rfl)

/-- A row copied along the columns reads, at `(r, c)`, the row at `c`. -/
theorem bcast_row (v : S1x8192.Idx → α) (r c : Fin 8192) :
    broadcastInDim S8192x8192 ![0, 1] bcast_S1x8192_S8192x8192_0_1 v (ix2 r c) = v (ix2 (0 : Fin 1) c) :=
  broadcastInDim_apply _ _ v _ _ (fun a => match a with | ⟨0, _⟩ => rfl | ⟨1, _⟩ => rfl)

/-- A vector turned into a column reads, at `(r, 0)`, the vector at `r`. -/
theorem bcast_vec_col (v : S8192.Idx → α) (r : Fin 8192) (z : Fin 1) :
    broadcastInDim S8192x1 ![0] bcast_S8192_S8192x1_0 v (ix2 r z) = v (ix1 r) :=
  broadcastInDim_apply _ _ v _ _ (fun a => match a with | ⟨0, _⟩ => rfl)

/-- A column transposed into a row reads, at `(0, c)`, the column at `(c, 0)`. -/
theorem transpose_col (v : S8192x1.Idx → α) (z : Fin 1) (c : Fin 8192) :
    transpose S1x8192 [1, 0] v transposes_S8192x1_S1x8192_1_0 (ix2 z c) = v (ix2 c z) :=
  transpose_ix2_apply v _ z c

/-- The first half of the attention vector reads, at `(d, 0)`, the vector at `(d, 0)`. -/
theorem slice_lo (a3 : S512x1.Idx → α) (d : Fin 256) (z : Fin 1) :
    extractStridedSlice S256x1 ![0, 0] a3 slices_S512x1_S256x1_0_0 (ix2 d z)
      = a3 (ix2 (⟨d.val, by omega⟩ : Fin 512) z) :=
  slice2_axis0_apply 0 a3 _ d z ⟨d.val, by omega⟩ (Nat.zero_add _).symm

/-- The second half of the attention vector reads, at `(d, 0)`, the vector at `(256 + d, 0)`. -/
theorem slice_hi (a3 : S512x1.Idx → α) (d : Fin 256) (z : Fin 1) :
    extractStridedSlice S256x1 ![256, 0] a3 slices_S512x1_S256x1_256_0 (ix2 d z)
      = a3 (ix2 (⟨256 + d.val, by omega⟩ : Fin 512) z) :=
  slice2_axis0_apply 256 a3 _ d z ⟨256 + d.val, by omega⟩ rfl

end Cert.ReferenceIdeal.RefRead

end
-- ==== Proof.RefReadH.lean ====
/-
  The projected features h = x · W and the two attention projections f1 = h · a[0:256], f2 = h · a[256:512] of the
  reference, read at an index on arguments that are real numbers: they are the specification's h, f1 and f2.
-/
import proofs.«174499_j29283087024215_2_alg».proof.Proof.RefTerm
import proofs.«174499_j29283087024215_2_alg».proof.Proof.Spec
import proofs.«174499_j29283087024215_2_alg».proof.Proof.LibRealReads
import proofs.«174499_j29283087024215_2_alg».proof.Proof.RefReadLayout

noncomputable section

namespace Cert.ReferenceIdeal.RefRead

open Idealize.ShloMosaic Idealize.ShloMosaic.ValueIdx Cert.ReferenceIdeal Cert.ReferenceIdeal.RefValue

variable [Facts]
open Facts₀ Facts

/-- The three matrix products of the reference are plain ones (rows by columns, one contracted axis). -/
theorem dot_h_eq : dot_S8192x512_S512x256_S8192x256_1_0_0_1_n_n = DotDims.plain 8192 512 256 := rfl
theorem dot_f_eq : dot_S8192x256_S256x1_S8192x1_1_0_0_1_n_n = DotDims.plain 8192 256 1 := rfl
theorem dot_agg_eq : dot_S8192x8192_S8192x256_S8192x256_1_0_0_1_n_n = DotDims.plain 8192 8192 256 := rfl

/-- The arguments as the specification takes them: by coordinates. -/
abbrev xr (x' : S8192x512.Idx → ℝ) : Fin 8192 → Fin 512 → ℝ := fun r k => x' (ix2 r k)
abbrev adjr (adj' : IVec S8192x8192 32) : Fin 8192 → Fin 8192 → BitVec 32 := fun r c => adj' (ix2 r c)
abbrev wr (w' : S512x256.Idx → ℝ) : Fin 512 → Fin 256 → ℝ := fun k d => w' (ix2 k d)
abbrev ar (a' : S512x1.Idx → ℝ) : Fin 512 → ℝ := fun k => a' (ix2 k (0 : Fin 1))

/-- The arguments as the program takes them: arrays of extended reals that are real numbers. -/
abbrev xE (x' : S8192x512.Idx → ℝ) : FVec Ideal S8192x512 .f32 := fun i => ((x' i : ℝ) : EReal)
abbrev wE (w' : S512x256.Idx → ℝ) : FVec Ideal S512x256 .f32 := fun i => ((w' i : ℝ) : EReal)
abbrev aE (a' : S512x1.Idx → ℝ) : FVec Ideal S512x1 .f32 := fun i => ((a' i : ℝ) : EReal)

variable (x' : S8192x512.Idx → ℝ) (w' : S512x256.Idx → ℝ) (a' : S512x1.Idx → ℝ)

/-- h = x · W at `(r, d)`. -/
theorem hTerm_read (r : Fin 8192) (d : Fin 256) :
    hTerm (xE x') (wE w') (ix2 r d) = ((Cert.Spec.h (xr x') (wr w') r d : ℝ) : EReal) := by
  unfold hTerm
  rw [dot_h_eq]
  exact dot_plain_of_coe none _ _ (xr x') (wr w') (fun _ _ => rfl) (fun _ _ => rfl) r d

/-- f1 = h · a[0:256] at `(r, 0)`. -/
theorem f1_read (r : Fin 8192) (z : Fin 1) :
    Host.dotGeneral (F := Ideal) dot_S8192x256_S256x1_S8192x1_1_0_0_1_n_n none (hTerm (xE x') (wE w'))
        (extractStridedSlice S256x1 ![0, 0] (aE a') slices_S512x1_S256x1_0_0) (ix2 r z)
      = ((Cert.Spec.f1 (xr x') (wr w') (ar a') r : ℝ) : EReal) := by
  rw [dot_f_eq]
  refine dot_plain_of_coe none _ _ (Cert.Spec.h (xr x') (wr w')) (fun d _ => ar a' ⟨d.val, by omega⟩)
    (hTerm_read x' w') (fun d z' => ?_) r z
  obtain rfl : z' = 0 := Subsingleton.elim _ _
  rw [slice_lo]

/-- f2 = h · a[256:512] at `(r, 0)`. -/
theorem f2_read (r : Fin 8192) (z : Fin 1) :
    Host.dotGeneral (F := Ideal) dot_S8192x256_S256x1_S8192x1_1_0_0_1_n_n none (hTerm (xE x') (wE w'))
        (extractStridedSlice S256x1 ![256, 0] (aE a') slices_S512x1_S256x1_256_0) (ix2 r z)
      = ((Cert.Spec.f2 (xr x') (wr w') (ar a') r : ℝ) : EReal) := by
  rw [dot_f_eq]
  refine dot_plain_of_coe none _ _ (Cert.Spec.h (xr x') (wr w')) (fun d _ => ar a' ⟨256 + d.val, by omega⟩)
    (hTerm_read x' w') (fun d z' => ?_) r z
  obtain rfl : z' = 0 := Subsingleton.elim _ _
  rw [slice_hi]

end Cert.ReferenceIdeal.RefRead

end
-- ==== Proof.RefReadSelect.lean ====
/-
  Scalar facts about the exact (extended-real) operations: a select on a comparison is the corresponding
  `if`; the quotient of two real numbers with a nonzero denominator is the real quotient; the leaky rectifier
  and the exponential linear unit, as the reference spells them, on a real number.
-/
import Idealize.ShloMosaic.Lib.ValueIdx
import Idealize.ShloMosaic.PureOps.Ideal.Laws

noncomputable section

namespace Cert.ReferenceIdeal.RefRead

open Idealize.ShloMosaic Idealize.ShloMosaic.ValueIdx

/-- A select on "the word is positive as a signed integer". -/
theorem select_cmpi_sgt_zero {α : Type} (x : BitVec 32) (a b : α) :
    Scalar.select (IntOp.cmpi .sgt x 0#32) a b = if 0 < x.toInt then a else b := by
  unfold Scalar.select IntOp.cmpi
  by_cases h : 0 < x.toInt
  · have hs : (0#32).slt x = true := by rw [BitVec.slt_eq_decide]; simpa using h
    simp [hs, h]
  · have hs : (0#32).slt x = false := by rw [BitVec.slt_eq_decide]; simpa using h
    simp [hs, h]

/-- A select on "greater or equal" of two extended reals. -/
theorem select_cmp_oge {α : Type} (x y : EReal) (a b : α) :
    Scalar.select (Ideal.cmp .oge x y) a b = if y ≤ x then a else b := by
  unfold Scalar.select Ideal.cmp
  by_cases h : y ≤ x <;> simp [h]

/-- A select on "greater" of two extended reals. -/
theorem select_cmp_ogt {α : Type} (x y : EReal) (a b : α) :
    Scalar.select (Ideal.cmp .ogt x y) a b = if y < x then a else b := by
  unfold Scalar.select Ideal.cmp
  by_cases h : y < x <;> simp [h]

/-- The exact quotient of two real numbers with a nonzero denominator is the real quotient. -/
theorem div_coe_coe (x y : ℝ) (hy : y ≠ 0) : Ideal.div (x : EReal) (y : EReal) = ((x / y : ℝ) : EReal) := by
  rw [Ideal.div_coe hy, ← EReal.coe_mul, mul_one_div]

end Cert.ReferenceIdeal.RefRead

end
-- ==== Proof.RefReadAtt.lean ====
/-
  The masked scores of the reference, read at an index on arguments that are real numbers: the leaky rectifier of
  f1 r + f2 c where the adjacency entry is positive, the mask value elsewhere — the specification's att.
-/
import proofs.«174499_j29283087024215_2_alg».proof.Proof.RefTerm
import proofs.«174499_j29283087024215_2_alg».proof.Proof.Spec
import proofs.«174499_j29283087024215_2_alg».proof.Proof.RefConsts
import proofs.«174499_j29283087024215_2_alg».proof.Proof.RefReadLayout
import proofs.«174499_j29283087024215_2_alg».proof.Proof.RefReadSelect
import proofs.«174499_j29283087024215_2_alg».proof.Proof.RefReadH

noncomputable section

namespace Cert.ReferenceIdeal.RefRead

open Idealize.ShloMosaic Idealize.ShloMosaic.ValueIdx Cert.ReferenceIdeal Cert.ReferenceIdeal.RefValue

variable [Facts]
open Facts₀ Facts

/-- An integer comparison at an index compares the elements. -/
theorem cmpi_read {s : Shape} {w : ℕ} (p : CmpIPredicate) (x y : IVec s w) (i : s.Idx) :
    cmpi p x y i = IntOp.cmpi p (x i) (y i) := rfl

/-- The masked leaky rectifier on a real number, in the extended reals, is the real one. -/
theorem att_scalar (b : BitVec 32) (s : ℝ) :
    (if 0 < b.toInt then
        (if (0 : EReal) ≤ (s : EReal) then (s : EReal) else ((Cert.Spec.slope : ℝ) : EReal) * (s : EReal))
      else ((Cert.Spec.mask : ℝ) : EReal))
      = (((if 0 < b.toInt then (if 0 ≤ s then s else Cert.Spec.slope * s) else Cert.Spec.mask) : ℝ) : EReal) := by
  rw [← EReal.coe_mul]
  simp only [EReal.coe_nonneg]
  split_ifs <;> rfl

variable (x' : S8192x512.Idx → ℝ) (adj' : IVec S8192x8192 32) (w' : S512x256.Idx → ℝ) (a' : S512x1.Idx → ℝ)

/-- The additive score at `(r, c)`: f1 copied along the rows plus f2 transposed and copied along the columns. -/
theorem score_read (r c : Fin 8192) :
    addf
        (broadcastInDim S8192x8192 ![0, 1] bcast_S8192x1_S8192x8192_0_1
          (Host.dotGeneral (F := Ideal) dot_S8192x256_S256x1_S8192x1_1_0_0_1_n_n none (hTerm (xE x') (wE w'))
            (extractStridedSlice S256x1 ![0, 0] (aE a') slices_S512x1_S256x1_0_0)))
        (broadcastInDim S8192x8192 ![0, 1] bcast_S1x8192_S8192x8192_0_1
          (transpose S1x8192 [1, 0]
            (Host.dotGeneral (F := Ideal) dot_S8192x256_S256x1_S8192x1_1_0_0_1_n_n none (hTerm (xE x') (wE w'))
              (extractStridedSlice S256x1 ![256, 0] (aE a') slices_S512x1_S256x1_256_0))
            transposes_S8192x1_S1x8192_1_0))
        (ix2 r c)
      = ((Cert.Spec.f1 (xr x') (wr w') (ar a') r + Cert.Spec.f2 (xr x') (wr w') (ar a') c : ℝ) : EReal) := by
  rw [addf_apply, bcast_col, bcast_row, transpose_col, f1_read, f2_read, EReal.coe_add]

/-- The masked scores at `(r, c)`. -/
theorem attTerm_read (r c : Fin 8192) :
    attTerm (xE x') adj' (wE w') (aE a') (ix2 r c)
      = ((Cert.Spec.att (xr x') (adjr adj') (wr w') (ar a') r c : ℝ) : EReal) := by
  unfold attTerm
  dsimp only [id]
  rw [select_apply, cmpi_read, splat_S8192x8192, constantI_apply, select_cmpi_sgt_zero,
    select_apply, cmpf_apply, mulf_apply, score_read, splat_S8192x8192, splat_S8192x8192, splat_S8192x8192,
    constant_apply, constant_apply, constant_apply, Cert.RefConsts.ofBits_slope, Cert.RefConsts.ofBits_mask,
    Cert.RefConsts.ofBits_zero, Ideal.cmpf_def, select_cmp_oge]
  exact att_scalar _ _

end Cert.ReferenceIdeal.RefRead

end
-- ==== Proof.RefReadReduce.lean ====
/-
  The reference's two reductions along a row, read at a row: the maximum started at minus infinity and the sum
  started at zero of a row of real numbers are the row's real maximum and real sum.
-/
import proofs.«174499_j29283087024215_2_alg».proof.ReferenceIdeal
import proofs.«174499_j29283087024215_2_alg».proof.Proof.RefConsts
import proofs.«174499_j29283087024215_2_alg».proof.Proof.LibRealReads
import Idealize.ShloMosaic.Lib.ValueIdx
import Idealize.ShloMosaic.PureOps.Ideal.Laws

noncomputable section

namespace Cert.ReferenceIdeal.RefRead

open Idealize.ShloMosaic Idealize.ShloMosaic.ValueIdx Cert.ReferenceIdeal

variable [Facts]
open Facts₀ Facts

/-- Removing axis 1 of an 8192 × 8192 array leaves a vector of length 8192. -/
theorem reduces_row : S8192x8192.Reduces [1] S8192 := by decide

/-- Inserting the column `c` into the row index `r` gives the index `(r, c)`. -/
theorem lift_row (r c : Fin 8192) : reduces_row.lift (ix1 r) c = ix2 r c := by
  funext a
  apply Fin.ext
  match a with
  | ⟨0, _⟩ => rfl
  | ⟨1, _⟩ => rfl

/-- The maximum along a row, started at minus infinity, of an array that reads as real numbers is the row's
    real maximum. -/
theorem rowMax_read (v : FVec Ideal S8192x8192 .f32) (f : Fin 8192 → Fin 8192 → ℝ)
    (hv : ∀ r c, v (ix2 r c) = ((f r c : ℝ) : EReal)) (r : Fin 8192) :
    Host.reduce FloatOps.maximumf v (constant (F := Ideal) S_ .f32 0xFF800000#32) reducesTo_S8192x8192_S8192_d1 h_S_ (ix1 r)
      = ((Finset.univ.sup' Finset.univ_nonempty (f r) : ℝ) : EReal) := by
  rw [Host.reduce_eq_fold_single FloatOps.maximumf v _ reducesTo_S8192x8192_S8192_d1 reduces_row h_S_ (ix1 r)]
  rw [constant_apply, Cert.RefConsts.ofBits_neg_inf]
  have hrow : (v ∘ reduces_row.lift (ix1 r)) = fun c : Fin 8192 => ((f r c : ℝ) : EReal) := by
    funext c
    exact (congrArg v (lift_row r c)).trans (hv r c)
  rw [hrow]
  exact fold_max_coe Finset.univ_nonempty (f r)

/-- The sum along a row, started at zero, of an array that reads as real numbers is the row's real sum. -/
theorem rowSum_read (v : FVec Ideal S8192x8192 .f32) (f : Fin 8192 → Fin 8192 → ℝ)
    (hv : ∀ r c, v (ix2 r c) = ((f r c : ℝ) : EReal)) (r : Fin 8192) :
    Host.reduceAdd (F := Ideal) v (constant (F := Ideal) S_ .f32 0x00000000#32) reducesTo_S8192x8192_S8192_d1 h_S_ (ix1 r)
      = ((∑ c : Fin 8192, f r c : ℝ) : EReal) := by
  unfold Host.reduceAdd
  rw [Ideal.hostReduceAdd_def, Ideal.hostReduceAdd_single _ reduces_row, constant_apply, Cert.RefConsts.ofBits_zero,
    zero_add, coe_sum]
  exact Finset.sum_congr rfl fun c _ => (congrArg v (lift_row r c)).trans (hv r c)

end Cert.ReferenceIdeal.RefRead

end
-- ==== Proof.RefReadSm.lean ====
/-
  The softmax of the reference along a row, read at an index on an array of real numbers: the exponential of the
  entry less the row's maximum, over the row's sum of those exponentials.
-/
import proofs.«174499_j29283087024215_2_alg».proof.Proof.RefTerm
import proofs.«174499_j29283087024215_2_alg».proof.Proof.RefConsts
import proofs.«174499_j29283087024215_2_alg».proof.Proof.RefReadLayout
import proofs.«174499_j29283087024215_2_alg».proof.Proof.RefReadSelect
import proofs.«174499_j29283087024215_2_alg».proof.Proof.RefReadReduce

noncomputable section

namespace Cert.ReferenceIdeal.RefRead

open Idealize.ShloMosaic Idealize.ShloMosaic.ValueIdx Cert.ReferenceIdeal Cert.ReferenceIdeal.RefValue

variable [Facts]
open Facts₀ Facts

/-- The shifted exponentials (the softmax's numerator array). -/
def expTerm (v12 : FVec Ideal S8192x8192 .f32) : FVec Ideal S8192x8192 .f32 :=
  Host.exp (subf v12 (broadcastInDim S8192x8192 ![0, 1] bcast_S8192x1_S8192x8192_0_1
    (broadcastInDim S8192x1 ![0] bcast_S8192_S8192x1_0
      (maximumf (broadcastInDim S8192 ![] bcast_S_S8192 (constant (F := Ideal) S_ .f32 0xFF800000#32))
        (Host.reduce FloatOps.maximumf v12 (constant (F := Ideal) S_ .f32 0xFF800000#32) reducesTo_S8192x8192_S8192_d1 h_S_)))))

/-- The softmax is the quotient of the shifted exponentials by their row sums. -/
theorem smTerm_eq (v12 : FVec Ideal S8192x8192 .f32) :
    smTerm v12 = Host.divf (expTerm v12) (broadcastInDim S8192x8192 ![0, 1] bcast_S8192x1_S8192x8192_0_1
      (broadcastInDim S8192x1 ![0] bcast_S8192_S8192x1_0
        (Host.reduceAdd (F := Ideal) (expTerm v12) (constant (F := Ideal) S_ .f32 0x00000000#32) reducesTo_S8192x8192_S8192_d1 h_S_))) :=
  rfl

/-- The host's exponential and quotient at an index. -/
theorem host_exp_read {s : Shape} {φ : FTy} (x : FVec Ideal s φ) (i : s.Idx) : Host.exp x i = Ideal.exp (x i) := rfl
theorem host_divf_read {s : Shape} {φ : FTy} (x y : FVec Ideal s φ) (i : s.Idx) : Host.divf x y i = Ideal.div (x i) (y i) := rfl

variable (v12 : FVec Ideal S8192x8192 .f32) (f : Fin 8192 → Fin 8192 → ℝ) (hv : ∀ r c, v12 (ix2 r c) = ((f r c : ℝ) : EReal))
include hv

/-- A shifted exponential at `(r, c)`. -/
theorem expTerm_read (r c : Fin 8192) :
    expTerm v12 (ix2 r c) = ((Real.exp (f r c - Finset.univ.sup' Finset.univ_nonempty (f r)) : ℝ) : EReal) := by
  unfold expTerm
  rw [host_exp_read, subf_apply, bcast_col, bcast_vec_col, maximumf_apply, splat_S8192, constant_apply,
    Cert.RefConsts.ofBits_neg_inf, rowMax_read v12 f hv r, hv, max_eq_right bot_le, ← EReal.coe_sub]
  rfl

/-- The softmax at `(r, c)`. -/
theorem smTerm_read (r c : Fin 8192) :
    smTerm v12 (ix2 r c)
      = ((Real.exp (f r c - Finset.univ.sup' Finset.univ_nonempty (f r))
          / ∑ c' : Fin 8192, Real.exp (f r c' - Finset.univ.sup' Finset.univ_nonempty (f r)) : ℝ) : EReal) := by
  rw [smTerm_eq, host_divf_read, bcast_col, bcast_vec_col,
    rowSum_read (expTerm v12) (fun r c => Real.exp (f r c - Finset.univ.sup' Finset.univ_nonempty (f r)))
      (expTerm_read v12 f hv) r, expTerm_read v12 f hv]
  exact div_coe_coe _ _ (ne_of_gt (Finset.sum_pos (fun _ _ => Real.exp_pos _) Finset.univ_nonempty))

end Cert.ReferenceIdeal.RefRead

end
-- ==== Proof.RefReadElu.lean ====
/-
  The exponential linear unit as the reference spells it, read at an index on an array of real numbers:
  the entry where it is positive, its exponential less one elsewhere.
-/
import proofs.«174499_j29283087024215_2_alg».proof.Proof.RefTerm
import proofs.«174499_j29283087024215_2_alg».proof.Proof.RefConsts
import proofs.«174499_j29283087024215_2_alg».proof.Proof.RefReadLayout
import proofs.«174499_j29283087024215_2_alg».proof.Proof.RefReadSelect

noncomputable section

namespace Cert.ReferenceIdeal.RefRead

open Idealize.ShloMosaic Idealize.ShloMosaic.ValueIdx Cert.ReferenceIdeal Cert.ReferenceIdeal.RefValue

variable [Facts]
open Facts₀ Facts

/-- The host's `exp(x) - 1` at an index. -/
theorem host_expm1_read {s : Shape} {φ : FTy} (x : FVec Ideal s φ) (i : s.Idx) : Host.expm1 x i = Ideal.exp (x i) - 1 := rfl

/-- The exponential linear unit at `(r, d)`. -/
theorem eluTerm_read (v24 : FVec Ideal S8192x256 .f32) (g : Fin 8192 → Fin 256 → ℝ)
    (hv : ∀ r d, v24 (ix2 r d) = ((g r d : ℝ) : EReal)) (r : Fin 8192) (d : Fin 256) :
    eluTerm v24 (ix2 r d) = (((if 0 < g r d then g r d else Real.exp (g r d) - 1) : ℝ) : EReal) := by
  unfold eluTerm
  dsimp only [id]
  rw [select_apply, cmpf_apply, mulf_apply, host_expm1_read, select_apply, cmpf_apply, splat_S8192x256, splat_S8192x256,
    constant_apply, constant_apply, Cert.RefConsts.ofBits_zero, Cert.RefConsts.ofBits_one, hv, Ideal.cmpf_def,
    select_cmp_ogt, select_cmp_ogt, one_mul]
  simp only [EReal.coe_pos]
  by_cases h : 0 < g r d
  · rw [if_pos h, if_pos h]
  · rw [if_neg h, if_neg h, if_neg h, Ideal.exp_coe, ← EReal.coe_one, ← EReal.coe_sub]

end Cert.ReferenceIdeal.RefRead

end
-- ==== Proof.RefRead.lean ====
/-
  The reference's result, read at an index on arguments that are real numbers, is the specification's `out`:
  the stages (projected features, masked scores, softmax, aggregate, exponential linear unit) read one after
  the other.
-/
import proofs.«174499_j29283087024215_2_alg».proof.Proof.RefTerm
import proofs.«174499_j29283087024215_2_alg».proof.Proof.Spec
import proofs.«174499_j29283087024215_2_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws
import proofs.«174499_j29283087024215_2_alg».proof.Proof.LibRealReads
import proofs.«174499_j29283087024215_2_alg».proof.Proof.RefReadH
import proofs.«174499_j29283087024215_2_alg».proof.Proof.RefReadAtt
import proofs.«174499_j29283087024215_2_alg».proof.Proof.RefReadSm
import proofs.«174499_j29283087024215_2_alg».proof.Proof.RefReadElu

noncomputable section

namespace Cert.ReferenceIdeal.RefRead

open Idealize.ShloMosaic Idealize.ShloMosaic.ValueIdx Cert.ReferenceIdeal Cert.ReferenceIdeal.RefValue

variable [Facts]
open Facts₀ Facts

/-- The attention-weighted sum of the projected features at `(r, d)`. -/
theorem agg_read (x' : S8192x512.Idx → ℝ) (adj' : IVec S8192x8192 32) (w' : S512x256.Idx → ℝ) (a' : S512x1.Idx → ℝ)
    (r : Fin 8192) (d : Fin 256) :
    Host.dotGeneral (F := Ideal) dot_S8192x8192_S8192x256_S8192x256_1_0_0_1_n_n none
        (smTerm (attTerm (xE x') adj' (wE w') (aE a'))) (hTerm (xE x') (wE w')) (ix2 r d)
      = ((Cert.Spec.agg (xr x') (adjr adj') (wr w') (ar a') r d : ℝ) : EReal) := by
  rw [dot_agg_eq]
  exact dot_plain_of_coe none _ _
    (fun r c => Cert.Spec.num (xr x') (adjr adj') (wr w') (ar a') r c / Cert.Spec.den (xr x') (adjr adj') (wr w') (ar a') r)
    (Cert.Spec.h (xr x') (wr w'))
    (fun r c => smTerm_read _ _ (attTerm_read x' adj' w' a') r c) (hTerm_read x' w') r d

/-- The reference's result at `(r, d)` is the specification's `out`. -/
theorem refTerm_eq (x' : S8192x512.Idx → ℝ) (adj' : IVec S8192x8192 32) (w' : S512x256.Idx → ℝ) (a' : S512x1.Idx → ℝ)
    (r : Fin 8192) (d : Fin 256) :
    refTerm (fun i => ((x' i : ℝ) : EReal)) adj' (fun i => ((w' i : ℝ) : EReal)) (fun i => ((a' i : ℝ) : EReal)) (ix2 r d)
      = ((Cert.Spec.out (fun r k => x' (ix2 r k)) (fun r c => adj' (ix2 r c)) (fun k d => w' (ix2 k d))
          (fun k => a' (ix2 k (0 : Fin 1))) r d : ℝ) : EReal) := by
  unfold refTerm
  exact eluTerm_read _ _ (agg_read x' adj' w' a') r d

end Cert.ReferenceIdeal.RefRead

end
-- ==== Proof.PreFinite.lean ====
/-
  Finiteness of the inputs.  The precondition compares the absolute value of every entry of the three
  floating-point arguments with +∞ and takes the conjunction of all the comparisons.  Read over the extended
  reals it says that every entry is a real number: an extended real x with max x (-x) < ⊤ is neither ⊤ nor ⊥.
-/
import proofs.«174499_j29283087024215_2_alg».proof.Pre_finite_inputs
import proofs.«174499_j29283087024215_2_alg».proof.Proof.Gen.Pre_finite_inputs
import Idealize.ShloMosaic.PureOps.Ideal
import Idealize.ShloMosaic.Lib.ReduceAll
import Idealize.ShloMosaic.Lib.ValueIdx

namespace Cert.PreFinite

open Idealize.ShloMosaic Cert.Pre_finite_inputs

/-- The index set of a rank-0 array has one element. -/
instance : Subsingleton S_.Idx := ⟨fun a b => funext fun d => d.elim0⟩

/-- An extended real whose absolute value is below +∞ is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- A bit made from a Boolean is 1 only when the Boolean is true. -/
theorem ofBool_eq_one {b : Bool} (h : BitVec.ofBool b = 1#1) : b = true := by
  cases b
  · exact absurd h (by decide)
  · rfl

/-- The single-precision pattern of +∞ denotes +∞. -/
theorem ofBits_inf : Ideal.ofBits .f32 0x7F800000#32 = (⊤ : EReal) := by
  simp [Ideal.ofBits, Ideal.ieee]

/-- An entry whose absolute value compares below the pattern of +∞ is a real. -/
theorem entry_real {S : Shape} (a : FVec Ideal S .f32) (hb : S_.BroadcastsInDim S (![] : Fin 0 → Fin S.rank)) (i : S.Idx)
    (e : cmpf .olt (Host.absf a) (broadcastInDim S ![] hb (constant S_ .f32 0x7F800000#32)) i = 1#1) :
    ∃ r : ℝ, a i = (r : EReal) := by
  have e' : Ideal.cmp .olt (max (a i) (-(a i))) (Ideal.ofBits .f32 0x7F800000#32) = 1#1 := e
  rw [ofBits_inf] at e'
  exact real_of_abs_lt_top _ (of_decide_eq_true (ofBool_eq_one e'))

variable [Facts]

/-- Under the precondition every entry of the three floating-point arguments is a real number. -/
theorem reals (a0 : FVec Ideal S8192x512 .f32) (a1 : IVec S8192x8192 32) (a2 : FVec Ideal S512x256 .f32) (a3 : FVec Ideal S512x1 .f32)
    (h : fn (F := Ideal) a0 a1 a2 a3 = fun _ => 1#1) :
    (∃ x' : S8192x512.Idx → ℝ, a0 = fun i => ((x' i : ℝ) : EReal)) ∧ (∃ w' : S512x256.Idx → ℝ, a2 = fun i => ((w' i : ℝ) : EReal)) ∧ (∃ a' : S512x1.Idx → ℝ, a3 = fun i => ((a' i : ℝ) : EReal)) := by
  have h0 := congrFun h ValueIdx.ix0
  dsimp only [fn] at h0
  obtain ⟨h01, h3⟩ := IntOp.andi_eq_one.1 h0
  obtain ⟨h1, h2⟩ := IntOp.andi_eq_one.1 h01
  refine ⟨?_, ?_, ?_⟩
  · choose x' hx' using fun i => entry_real a0 _ i (Host.reduce_andi_all _ _ _ _ _ h1 i)
    exact ⟨x', funext hx'⟩
  · choose w' hw' using fun i => entry_real a2 _ i (Host.reduce_andi_all _ _ _ _ _ h2 i)
    exact ⟨w', funext hw'⟩
  · choose a' ha' using fun i => entry_real a3 _ i (Host.reduce_andi_all _ _ _ _ _ h3 i)
    exact ⟨a', funext ha'⟩

end Cert.PreFinite
-- ==== Proof.KernelRun.lean ====
/-
  The kernel program's result.  The attention region writes each row block back once, after its last column
  block, as the quotient of the carried numerator by the carried denominator under the exponential linear unit; by
  the induction over the column blocks that is the specification's result at those rows, and the eight row blocks
  cover the array.  With real inputs (which the precondition gives) the result array is therefore the
  specification's result, which is also what the reference's term reads at every index.
-/
import proofs.«174499_j29283087024215_2_alg».proof.Proof.Attn
import proofs.«174499_j29283087024215_2_alg».proof.Proof.Value0
import proofs.«174499_j29283087024215_2_alg».proof.Proof.Value1Ind
import proofs.«174499_j29283087024215_2_alg».proof.Proof.KernelValStep
import proofs.«174499_j29283087024215_2_alg».proof.Proof.RefRead
import proofs.«174499_j29283087024215_2_alg».proof.Proof.PreFinite
import proofs.«174499_j29283087024215_2_alg».proof.Proof.Claims

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

attribute [local instance] Cert.KernelIdeal.Gen.facts Cert.ReferenceIdeal.Gen.facts Cert.Pre_finite_inputs.Gen.facts

variable (m : (ℓ : Loc nD τ sig) → Buf (Elt Ideal) ℓ) (ρ : Dev nD → PrngReg)
variable (x' : S8192x512.Idx → ℝ) (w' : S512x256.Idx → ℝ) (a' : S512x1.Idx → ℝ)

section
variable (hx : ∀ c : Dev nD, (m ((c : Thread nD τ).loc main_arg0) : S8192x512.Idx → EReal) = fun i => ((x' i : ℝ) : EReal))
variable (hw : ∀ c : Dev nD, (m ((c : Thread nD τ).loc main_arg2) : S512x256.Idx → EReal) = fun i => ((w' i : ℝ) : EReal))
variable (ha : ∀ c : Dev nD, (m ((c : Thread nD τ).loc main_arg3) : S512x1.Idx → EReal) = fun i => ((a' i : ℝ) : EReal))
include hx hw ha

/-- What the last column block of a row block writes back is the specification's result at those rows. -/
theorem flushedOut (c : Dev nD) (t : Fin cfg1.N) (h7 : t.val % 8 = 7) :
    (dat1 (V3 m ρ) c).flushed 4 t = ((cfg1.win 4).blk t).view.read (Elt Ideal) (GOut x' w' a' (m ((c : Thread nD τ).loc main_arg1))) := by
  show (cfg1.win 4).cut (grid1.coords t) ((dat1 (V3 m ρ) c).after 4 t) = _
  rw [after1_4 (V3 m ρ) c t h7]
  refine funext fun (j : S1024x256.Idx) => ?_
  obtain ⟨p, d, rfl⟩ : ∃ (p : Fin 1024) (d : Fin 256), j = ix2 p d := ⟨j 0, j 1, eq_ix2 j⟩
  have ht : t.val < 64 := by have := t.isLt; have hN : cfg1.N = 64 := N_1; omega
  show finish (F := Ideal) (scrAt1 (V3 m ρ) c t.val t.isLt) (ix2 p d)
    = GOut x' w' a' (m ((c : Thread nD τ).loc main_arg1)) (((cfg1.win 4).blk t).view.emb (ix2 p d : S1024x256.Idx))
  refine Eq.trans ?_ (congrArg (GOut x' w' a' (m ((c : Thread nD τ).loc main_arg1)))
    (emb1_4 t p d (Cert.BlockSpec.row (t.val / 8) p) (by show (t.val / 8) % 8 * 1024 + p.val = _; omega))).symm
  exact finish_out m ρ x' w' a' c step_first step_next finish_apply (scrAt1 (V3 m ρ) c) (fun t h => scrAt1_first (V3 m ρ) c t h) (fun t h => scrAt1_next (V3 m ρ) c t h)
    (finalH m ρ x' w' hx hw c) (finalF1 m ρ x' w' a' hx hw ha c) (finalF2 m ρ x' w' a' hx hw ha c) t h7 p d

/-- The result array after the run. -/
theorem finalOut (c : Dev nD) : (dat1 (V3 m ρ) c).arrAt 4 cfg1.N = GOut x' w' a' (m ((c : Thread nD τ).loc main_arg1)) :=
  (dat1 (V3 m ρ) c).arrAt_eq_of_cover 4 _ (fun t hf => flushedOut m ρ x' w' a' hx hw ha c t ((flush1_4 t).mp hf)) cover1_4

/-- The specification's result array is the reference's term of the same arguments. -/
theorem GOut_eq_refTerm (c : Dev nD) :
    GOut x' w' a' (m ((c : Thread nD τ).loc main_arg1))
      = Cert.ReferenceIdeal.RefValue.refTerm (m ((c : Thread nD τ).loc main_arg0)) (m ((c : Thread nD τ).loc main_arg1))
          (m ((c : Thread nD τ).loc main_arg2)) (m ((c : Thread nD τ).loc main_arg3)) := by
  funext i
  obtain ⟨r, d, rfl⟩ : ∃ (r : Fin 8192) (d : Fin 256), i = ix2 r d := ⟨i 0, i 1, eq_ix2 i⟩
  rw [hx c, hw c, ha c]
  exact (Cert.ReferenceIdeal.RefRead.refTerm_eq x' (m ((c : Thread nD τ).loc main_arg1)) w' a' r d).symm

end

/-- THE KERNEL PROGRAM'S RUN: under the precondition the result array is the reference's term of the launch
    arguments, and the arguments end as launched. -/
theorem kernelRun : Cert.Proof.Claims.KernelRun := by
  intro m g hpre
  refine (θ_run (defs (F := Ideal)) _ _).mono (fun r h c => ⟨(h c).1.trans ?_, (h c).2⟩) (run_main attn m g)
  obtain ⟨⟨x', hx⟩, ⟨w', hw⟩, ⟨a', ha⟩⟩ := Cert.PreFinite.reals _ _ _ _ (hpre c)
  have e : ∀ c' : Dev nD, c' = c := fun c' => Subsingleton.elim _ _
  refine (finalOut m g x' w' a' (fun c' => e c' ▸ hx) (fun c' => e c' ▸ hw) (fun c' => e c' ▸ ha) c).trans ?_
  exact GOut_eq_refTerm m x' w' a' (fun c' => e c' ▸ hx) (fun c' => e c' ▸ hw) (fun c' => e c' ▸ ha) c

end Cert.KernelIdeal.Val

end
-- ==== Proof.Region0W.lean ====
import proofs.«174499_j29283087024215_2_alg».proof.Proof.Gen.Kernel.Launch
import proofs.«174499_j29283087024215_2_alg».proof.Proof.Gen.Kernel.Skeleton
import proofs.«174499_j29283087024215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The projection kernel's body on whole staging buffers

The body reads the row block of x (1024×512), the whole of W (512×256) and the two halves of a (256×1 each), and
stores h = x·W (rounded to the narrow format, which is the identity over the extended reals), f1 = h·a₁ and
f2 = h·a₂, each through one rectangle that is the whole buffer. -/

abbrev rX : Rect S1024x512 := Rect.unit (s := S1024x512) ![0, 0] S1024x512.size inb_S1024x512_S1024x512_0_0
abbrev rW : Rect S512x256 := Rect.unit (s := S512x256) ![0, 0] S512x256.size inb_S512x256_S512x256_0_0
abbrev rA : Rect S256x1 := Rect.unit (s := S256x1) ![0, 0] S256x1.size inb_S256x1_S256x1_0_0
abbrev rH : Rect S1024x256 := Rect.unit (s := S1024x256) ![0, 0] S1024x256.size inb_S1024x256_S1024x256_0_0
abbrev rF : Rect S1024x1 := Rect.unit (s := S1024x1) ![0, 0] S1024x1.size inb_S1024x1_S1024x1_0_0

/-- The h block the body leaves: its one store, of the product of the loaded blocks. -/
def outH (x0 : Vec F S1024x512 .f32) (x1 : Vec F S512x256 .f32) : Vec F S1024x256 .bf16 :=
  View.canon [⟨rH, k0_pay2 (View.ld x0 rX) (View.ld x1 rW)⟩]
/-- The f1 block the body leaves. -/
def outF1 (x0 : Vec F S1024x512 .f32) (x1 : Vec F S512x256 .f32) (x2 : Vec F S256x1 .f32) : Vec F S1024x1 .f32 :=
  View.canon [⟨rF, k0_pay3 (View.ld x0 rX) (View.ld x1 rW) (View.ld x2 rA)⟩]
/-- The f2 block the body leaves. -/
def outF2 (x0 : Vec F S1024x512 .f32) (x1 : Vec F S512x256 .f32) (x3 : Vec F S256x1 .f32) : Vec F S1024x1 .f32 :=
  View.canon [⟨rF, k0_pay4 (View.ld x0 rX) (View.ld x1 rW) (View.ld x3 rA)⟩]

theorem coverH (p0 : Vec F S1024x256 .bf16) (y : S1024x256.Idx) :
    ∃ pc ∈ ([⟨rH, p0⟩] : List (View.Piece (Elt F) S1024x256 .bf16)), y ∈ pc.1.set :=
  View.cover_of_tiled [⟨rH, p0⟩] S1024x256.size (by rfl) y
theorem coverF (p0 : Vec F S1024x1 .f32) (y : S1024x1.Idx) :
    ∃ pc ∈ ([⟨rF, p0⟩] : List (View.Piece (Elt F) S1024x1 .f32)), y ∈ pc.1.set :=
  View.cover_of_tiled [⟨rF, p0⟩] S1024x1.size (by rfl) y

set_option maxHeartbeats 1000000 in
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outH x0 x1)
            ∗ owns (c : Thread nD τ) arg6 fullShare (outF1 x0 x1 x2) ∗ owns (c : Thread nD τ) arg7 fullShare (outF2 x0 x1 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverH _)
  isplitl [H5]
  · iexists _; isplitr
    swap; · iexact H5
    ipureintro
    exact View.read_writes_eq_canon _ _ _ (coverF _)
  iexists _; isplitr
  swap; · iexact H6
  ipureintro
  exact View.read_writes_eq_canon _ _ _ (coverF _)

/-! # The projection region's proof data, at the contents `V` the region is entered with -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as found; after the body each input's buffer still at its block, the three outputs'
    at the body's stores of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outH (iblk0 V c 0 t) (iblk0 V c 1 t)
    | ⟨5, _⟩ => outF1 (iblk0 V c 0 t) (iblk0 V c 1 t) (iblk0 V c 2 t)
    | ⟨6, _⟩ => outF2 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outH (iblk0 V c 0 t) (iblk0 V c 1 t) := by dsimp only [dat0]
theorem after0_5 (c : Dev nD) (t : Fin cfg0.N) : (dat0 V c).after 5 t = outF1 (iblk0 V c 0 t) (iblk0 V c 1 t) (iblk0 V c 2 t) := by dsimp only [dat0]
theorem after0_6 (c : Dev nD) (t : Fin cfg0.N) : (dat0 V c).after 6 t = outF2 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KernelFrameW.lean ====
import proofs.«174499_j29283087024215_2_alg».proof.Proof.Gen.Kernel.Launch
import proofs.«174499_j29283087024215_2_alg».proof.Proof.Gen.Kernel.Skeleton
import proofs.«174499_j29283087024215_2_alg».proof.Proof.Gen.Kernel.Points
import proofs.«174499_j29283087024215_2_alg».proof.Proof.Region0W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the whole program: two kernel regions among three host operations

The buffer contents at each boundary are a fold from the launch memory: the two slices of `a`, then the projection
region's three output arrays at what its write-backs leave, then the transpose of f2, then the attention region's
output array at what its write-backs leave.  Every argument array is read back through the fold to its launch
contents, and the result array to the attention region's final array. -/

/-- What the assembly needs of the attention region: its proof data at any entry contents, the arrays those
    contents, full shares, nothing owed, the body obligation, and the invariant being the plain one (scoped rest and
    generator register at anything) before the first point and giving it back after the last. -/
structure AttnRegion (F : FTy → Type) [FloatOps F] where
  dat : ((c : Dev nD) → (b : Ref sig .tc) → Buf (Elt F) ((c : Thread nD τ).loc b)) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  body : ∀ V c, BodyObligation (dat V c) (defs₀ (F := F)) Variants.none () Set.univ
  Phi_zero : ∀ V c, (dat V c).Φ 0 = Pipeline.ΦA spec1 c
  recorded_eq : ∀ V c t, (dat V c).recorded t = Set.univ
  Phi_last : ∀ V c, (dat V c).Φ (Fin.last cfg1.N) ⊢ (Pipeline.ΦA spec1 c : sProp (MT nD τ sig Unit (Elt F) ℕ (UR sig nD τ) ℕ))

variable (R1 : AttnRegion F)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two slices of `a`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the transpose of f2. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention region. -/
def W4 (c : Dev nD) : Valuation τ sig (Elt F) :=
  Pipeline.withArrays spec1 c (W3 m ρ c) fun w => (R1.dat (V3 m ρ) c).arrAt w cfg1.N
theorem W4_arr (c : Dev nD) (w : Fin cfg1.W) :
    W4 R1 m ρ c (Proc.devRef .tc (Pipeline.arrRef spec1 w)) = (R1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 R1 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 R1 m ρ c b
theorem hF1 (c : Dev nD) (w : Fin cfg1.W) : (R1.dat (V3 m ρ) c).arrAt w cfg1.N = V4 R1 m ρ c (Pipeline.arrRef spec1 w) :=
  (W4_arr R1 m ρ c w).symm
theorem hrest1 (c : Dev nD) : ∀ b, b ∉ Finset.univ.image (Pipeline.arrRef spec1) → V4 R1 m ρ c b = V3 m ρ c b :=
  fun b hb => W4_of_ne R1 m ρ c b fun w e => hb (Finset.mem_image.mpr ⟨w, Finset.mem_univ _, e⟩)

/-! ## No host operation writes a buffer it does not name -/

theorem W1_of (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))
theorem W3_of (c : Dev nD) (b : Ref sig .tc) (h : b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-! ## The arguments end as launched -/

theorem W4_main_arg0 (c : Dev nD) : W4 R1 m ρ c (Proc.devRef .tc main_arg0) = m ((c : Thread nD τ).loc main_arg0) :=
  calc W4 R1 m ρ c (Proc.devRef .tc main_arg0)
    _ = W3 m ρ c (Proc.devRef .tc main_arg0) := W4_of_ne R1 m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide) (by decide)
    _ = m ((c : Thread nD τ).loc main_arg0) := rfl
theorem W4_main_arg1 (c : Dev nD) : W4 R1 m ρ c (Proc.devRef .tc main_arg1) = m ((c : Thread nD τ).loc main_arg1) :=
  calc W4 R1 m ρ c (Proc.devRef .tc main_arg1)
    _ = W3 m ρ c (Proc.devRef .tc main_arg1) := (W4_arr R1 m ρ c 2).trans (((R1.dat (V3 m ρ) c).arrAt_in 2 rfl _).trans (R1.A_eq (V3 m ρ) c 2))
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide) (by decide)
    _ = m ((c : Thread nD τ).loc main_arg1) := rfl
theorem W4_main_arg2 (c : Dev nD) : W4 R1 m ρ c (Proc.devRef .tc main_arg2) = m ((c : Thread nD τ).loc main_arg2) :=
  calc W4 R1 m ρ c (Proc.devRef .tc main_arg2)
    _ = W3 m ρ c (Proc.devRef .tc main_arg2) := W4_of_ne R1 m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide) (by decide)
    _ = m ((c : Thread nD τ).loc main_arg2) := rfl
theorem W4_main_arg3 (c : Dev nD) : W4 R1 m ρ c (Proc.devRef .tc main_arg3) = m ((c : Thread nD τ).loc main_arg3) :=
  calc W4 R1 m ρ c (Proc.devRef .tc main_arg3)
    _ = W3 m ρ c (Proc.devRef .tc main_arg3) := W4_of_ne R1 m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide) (by decide)
    _ = m ((c : Thread nD τ).loc main_arg3) := rfl

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => R1.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 R1 m ρ c) ∗ ∃ r, prngReg c r)

/-! ## The regions as segments -/

set_option backward.isDefEq.respectTransparency.types false in
/-- The projection region over the thread state. -/
def reg0 : Pipeline.RegionSeg (pcfgs (F := F)) adm (pdats R1 m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats R1 m ρ) launch0.win launch0.arr_whole c
      ((pdats R1 m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats R1 m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats R1 m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R1 m ρ) ((pdats R1 m ρ 0 c).share_full fun _ => rfl)
      (V1 m ρ c) (V2 m ρ c) ((pdats R1 m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state. -/
def reg1 : Pipeline.RegionSeg (pcfgs (F := F)) adm (pdats R1 m ρ) () defs₀ 𝒱₀ L lv 1 where
  win := launch1.win.to₀
  block_pos := launch1.block_pos
  stage_whole := launch1.stage_whole
  K := PEmpty
  osem k := k.elim
  ho := Pipeline.OwnSemFacts.none _
  hbody c := (R1.body (V3 m ρ) c).loose
  hwaits := Pipeline.hwaits_of_owed_zero _ _ _ _ L lv 1 fun c t => R1.owed_eq (V3 m ρ) c t
  pre c := iprop(StableHlo.held (c : Thread nD τ) (Pipeline.ucRefs τ sig) (W3 m ρ c) ∗ R c)
  post c := iprop(Tₙ R1 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats R1 m ρ) launch1.win launch1.arr_whole c
      ((pdats R1 m ρ 1 c).share_full fun w => R1.q_eq (V3 m ρ) c w) (V3 m ρ c) fun w => R1.A_eq (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R1 m ρ 1 c).owed 0 = 0 from R1.owed_eq (V3 m ρ) c 0]
      icases HO with ⟨%W, HO⟩; iexists W; isplitr
      · ipureintro
        exact fun x _ => Or.inl (by
          rw [show (pdats R1 m ρ 1 c).recorded 0 = Set.univ from R1.recorded_eq (V3 m ρ) c 0]; exact Set.mem_univ x)
      iexact HO
    isplitl [Hp]; · iexact Hp
    iexact Hrest
  hin c := by
    rw [show (pdats R1 m ρ 1 c).Φ 0 = Pipeline.ΦA spec1 c from R1.Phi_zero (V3 m ρ) c]; unfold Pipeline.ΦA
    iintro ⟨Hp, -, Hr⟩
    isplitl [Hr]; · iexact Hr
    iexact Hp
  hout c := by
    rw [Pipeline.ownSems0_none]
    refine (show (pdats R1 m ρ 1 c).Φ (Fin.last _) ⊢ (Pipeline.ΦA spec1 c : sProp 𝕄) from R1.Phi_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R1 m ρ) ((pdats R1 m ρ 1 c).share_full fun w => R1.q_eq (V3 m ρ) c w)
      (V3 m ρ c) (V4 R1 m ρ c) ((pdats R1 m ρ 1 c).arrAt · cfg1.N) (hF1 R1 m ρ c) (hrest1 R1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats R1 m ρ 1 c).owed (Fin.last (Pipeline.pin (pcfgs (F := F)) adm 1).N) = 0 from R1.owed_eq (V3 m ρ) c _]
    icases HO with ⟨%W, -, HO⟩; iexists W; iexact HO

/-! ## The program as segments, and the launch -/

abbrev segs : List (Pipeline.Seg (pcfgs (F := F)) adm (pdats R1 m ρ) () defs₀ 𝒱₀ L lv) :=
  [ .host (hseg hostOps0 hostOps0_sub hostOps0_fresh (W0 m ρ)),
    .region (reg0 R1 m ρ),
    .host (hseg hostOps1 hostOps1_sub hostOps1_fresh (W2 m ρ)),
    .region (reg1 R1 m ρ) ]
theorem main_run (c : Dev nD) : main (F := F) c = Pipeline.Seg.run (segs R1 m ρ) := (main_chain c).trans (by chain_rfl)

set_option backward.isDefEq.respectTransparency.types false in
/-- THE RUN: from any memory with zero counters every weakly fair execution of the program terminates, nothing
    faulting, and every final state holds each unscoped buffer at the last boundary's contents: the result array at
    the attention region's final array, every argument array as launched. -/
theorem run_main : θ_run defs (onTc (τ := τ) (main (F := F))) ⟨m, fun _ => 0, ρ⟩ (fun r => ∀ c : Dev nD,
      r.2.mem ((c.tc : Thread nD τ).loc main_v4) = (R1.dat (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats R1 m ρ) () cellOf_inj emb₁ defs₀ 𝒱₀ L lv m ρ main (segs R1 m ρ)
    (fun c Q => by rw [main_run R1 m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ R1 m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R1 m ρ c) s')
      isplitl [Hh] <;> iassumption)
    (hQ := fun s h c =>
      ⟨(h c _ (mem_uc main_v4 (by decide))).trans (W4_arr R1 m ρ c 4),
       (h c _ (mem_uc main_arg0 (by decide))).trans (W4_main_arg0 R1 m ρ c),
       (h c _ (mem_uc main_arg1 (by decide))).trans (W4_main_arg1 R1 m ρ c),
       (h c _ (mem_uc main_arg2 (by decide))).trans (W4_main_arg2 R1 m ρ c),
       (h c _ (mem_uc main_arg3 (by decide))).trans (W4_main_arg3 R1 m ρ c)⟩)

end Cert.Kernel.Hand

end
-- ==== Proof.Step1W.lean ====
/-
  One grid point of the attention kernel as a pure function, over the generated payloads.

  The kernel keeps three arrays between the column blocks of one row block: the running row maximum `m`
  (1024×1), the running denominator `l` (1024×1) and the running numerator `acc` (1024×256).  At a point it
  reads the f1 block `x0`, the f2ᵀ block `x1`, the adjacency block `x2` and the rows of h that the column block
  selects (`vslice`), and replaces (m, l, acc) by `step`; at the first column block it starts from `init`
  (−∞, 0, 0); after the last one the output block is `finish acc l`, the quotient under the exponential linear unit.
-/
import proofs.«174499_j29283087024215_2_alg».proof.Proof.Gen.Kernel.Skeleton
import Idealize.ShloMosaic.Lib.Pipeline.FrameBody

noncomputable section

namespace Cert.Kernel.Hand

open Idealize.ShloMosaic Cert.Kernel Cert.Kernel.Gen

variable {F : FTy → Type} [FloatOps F]

/-- The three carried arrays: (m, l, acc). -/
abbrev Scr (F : FTy → Type) [FloatOps F] : Type := Vec F S1024x1 .f32 × Vec F S1024x1 .f32 × Vec F S1024x256 .f32

/-- The rectangle of h's rows that the column block of grid point `i` selects. -/
abbrev rV (i : grid1.Coords) : Rect S8192x256 := Rect.unit (s := S8192x256) (k1_off1 i) S1024x256.size (k1_off1_inb i)
/-- Those rows of the whole h array. -/
def vslice (i : grid1.Coords) (x3 : Vec F S8192x256 .bf16) : Vec F S1024x256 .bf16 := View.ld x3 (rV i)

/-- What the first column block starts from: m = −∞, l = 0, acc = 0. -/
def init : Scr F := (k1_pay5, k1_pay6, k1_pay7)

/-- The new running maximum. -/
def stepM (x0 : Vec F S1024x1 .f32) (x1 : Vec F S1x1024 .f32) (x2 : Vec F S1024x1024 .i32) (m : Vec F S1024x1 .f32) : Vec F S1024x1 .f32 :=
  k1_pay3 (k1_pay10 x0 x1 x2 m)
/-- The new running denominator. -/
def stepL (x0 : Vec F S1024x1 .f32) (x1 : Vec F S1x1024 .f32) (x2 : Vec F S1024x1024 .i32) (m l : Vec F S1024x1 .f32) : Vec F S1024x1 .f32 :=
  k1_pay1 (k1_pay13 x0 x1 x2 m m l) (k1_pay14 x0 x1 x2 m)
/-- The new running numerator. -/
def stepAcc (i : grid1.Coords) (x0 : Vec F S1024x1 .f32) (x1 : Vec F S1x1024 .f32) (x2 : Vec F S1024x1024 .i32) (x3 : Vec F S8192x256 .bf16)
    (m : Vec F S1024x1 .f32) (acc : Vec F S1024x256 .f32) : Vec F S1024x256 .f32 :=
  k1_pay2 (k1_pay9 (vslice i x3)) (k1_pay11 x0 x1 x2 m m) (k1_pay12 x0 x1 x2 m) acc
/-- One point's update of the carried arrays. -/
def step (i : grid1.Coords) (x0 : Vec F S1024x1 .f32) (x1 : Vec F S1x1024 .f32) (x2 : Vec F S1024x1024 .i32) (x3 : Vec F S8192x256 .bf16)
    (s : Scr F) : Scr F :=
  (stepM x0 x1 x2 s.1, stepL x0 x1 x2 s.1 s.2.1, stepAcc i x0 x1 x2 x3 s.1 s.2.2)
/-- The output block after the last column block. -/
def finish (s : Scr F) : Vec F S1024x256 .f32 := k1_pay4 s.2.2 s.2.1

end Cert.Kernel.Hand

end
-- ==== Proof.Region1RunsW.lean ====
import proofs.«174499_j29283087024215_2_alg».proof.Proof.Gen.Kernel.Launch
import proofs.«174499_j29283087024215_2_alg».proof.Proof.Gen.Kernel.Skeleton
import proofs.«174499_j29283087024215_2_alg».proof.Proof.Gen.Kernel.Points
import proofs.«174499_j29283087024215_2_alg».proof.Proof.Step1W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's region: what its three control cases share

The grid is 8×8: point `t` is row block `t / 8`, column block `t % 8`.  The body initialises the three carried
arrays at the first column block, updates them at every point, and stores the output block at the last column
block only.  Here: the two branch conditions in closed form, where the output window is idle, and the region
invariant with the three carried arrays named. -/

/-! ## The body's branch conditions -/

/-- The condition of the initialising branch, from the grid coordinates. -/
abbrev cond1_0 (i : grid1.Coords) : Prop := (Scalar.cmpi .ne (Scalar.extui (Scalar.cmpi .eq (BitVec.ofNat 32 (i 1).val) 0#32)) 0#32) = 1#1
/-- It holds at the first column block only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the finishing branch, from the grid coordinates. -/
abbrev cond1_1 (i : grid1.Coords) : Prop := k1_cond2 i = 1#1
/-- It holds at the last column block only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last column block the output window is idle, and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last column block it is live. -/
theorem liveAt1_4 : ∀ t : Fin cfg1.N, cond1_1 (grid1.coords t) → cfg1.idle 4 (grid1.coords t) = false := by decide +kernel

/-! ## The staging and scratch memrefs -/

/-- One staging buffer of the output window, through which its contents are stated. -/
abbrev VO1_4 : View sig .tc .vmem S1024x256 .f32 := (Memref.whole cc1_stg4_0 : Memref sig .tc .vmem S1024x256 .f32).view
/-- Each window's current staging memref at point `t`, as the pipeline passes it, and its wholeness. -/
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .f32 := win1_4.stage (cfg1.slots t 4)
abbrev hs1_4 (t : Fin cfg1.N) : (ms1_4 t).IsWhole := hstage1_4 ((cfg1.slots t 4).cast nbuf1_4)
/-- The three carried arrays: whole scoped buffers of the kernel's own, passed beside the windows. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The region invariant -/

/-- What the region invariant holds beside the three carried arrays: the other kernel's staging buffers, each at
    some contents, and the generator register at some state. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ r, prngReg c r))

/-- The region invariant as the launch hands it over: the three carried arrays at some contents each, and the rest. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)
          ∗ (∃ d, owns (c : Thread nD τ) scM1_2 fullShare d)) ∗ rest1 c) := by
  unfold Pipeline.ΦA rest1; rw [scopedRest1_eq]; simp only [scM1_0, scM1_1, scM1_2, owns_whole]
  refine BI.equiv_iff.mp ⟨?_, ?_⟩
  · show (_ : sProp 𝕄) ⊢ _
    iintro ⟨⟨A0, A1, A2, A3, A4, A5, A6, A7, A8, A9, A10, S0, S1, S2⟩, Hg⟩
    isplitl [S0 S1 S2]
    · isplitl [S0]; · iexact S0
      isplitl [S1]; · iexact S1
      iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact Hg
  · show (_ : sProp 𝕄) ⊢ _
    iintro ⟨⟨S0, S1, S2⟩, A0, A1, A2, A3, A4, A5, A6, A7, A8, A9, A10, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [S0]; · iexact S0
    isplitl [S1]; · iexact S1
    iexact S2

end Cert.Kernel.Hand

end
-- ==== Proof.Region1RunAW.lean ====
import proofs.«174499_j29283087024215_2_alg».proof.Proof.Region1RunsW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first column block that is not a last one: the pieces its stores leave in the three carried
    arrays, with the proof that on whole memrefs — the inputs at their contents, the output's buffer at contents
    handed back untouched, the carried arrays at anything — it runs to the continuation holding the inputs as they
    were and each carried array with its pieces written. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (x0 : Vec F S1024x1 .f32) (x1 : Vec F S1x1024 .f32) (x2 : Vec F S1024x1024 .i32) (x3 : Vec F S8192x256 .bf16) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.Region1RunBW.lean ====
import proofs.«174499_j29283087024215_2_alg».proof.Proof.Region1RunsW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a column block that is neither first nor last: the pieces its stores leave in the three carried
    arrays, with the proof that on whole memrefs — the inputs at their contents, the output's buffer at contents
    handed back untouched, the carried arrays at what the point before left — it runs to the continuation holding
    the inputs as they were and each carried array with its pieces written. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.Region1RunCW.lean ====
import proofs.«174499_j29283087024215_2_alg».proof.Proof.Region1RunsW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a last column block: the pieces its stores leave in the output's buffer and in the three carried
    arrays, with the proof that on whole memrefs — the inputs at their contents, the output's buffer at anything,
    the carried arrays at what the point before left — it runs to the continuation holding the inputs as they were
    and each other buffer with its pieces written. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (x0 : Vec F S1024x1 .f32) (x1 : Vec F S1x1024 .f32) (x2 : Vec F S1024x1024 .i32) (x3 : Vec F S8192x256 .bf16) (xs0 : Vec F S1024x1 .f32) (xs1 : Vec F S1024x1 .f32) (xs2 : Vec F S1024x256 .f32) :
    Σ' (L4 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.Iblk1W.lean ====
import proofs.«174499_j29283087024215_2_alg».proof.Proof.Gen.Kernel.Launch
import proofs.«174499_j29283087024215_2_alg».proof.Proof.Gen.Kernel.Skeleton
import proofs.«174499_j29283087024215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The attention region's window `w`'s block at point `t`, read off its array as the region finds it. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

end Cert.Kernel.Hand

end
-- ==== Proof.Region1W.lean ====
import proofs.«174499_j29283087024215_2_alg».proof.Proof.Region1RunAW
import proofs.«174499_j29283087024215_2_alg».proof.Proof.Region1RunBW
import proofs.«174499_j29283087024215_2_alg».proof.Proof.Region1RunCW
import proofs.«174499_j29283087024215_2_alg».proof.Proof.Iblk1W
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The attention kernel's region: its proof data and its body obligation

One point's update of the three carried arrays is `step`; the runs of the three control cases leave pieces in the
carried arrays (and, at a last column block, in the output's buffer) that read back as `step`'s components (and as
`finish` of them).  The carried arrays point by point are `scrAt1`, the region invariant names them, and the body
obligation follows case by case. -/

theorem hz2 : (![0, 0] : Fin 2 → Nat) = fun _ => 0 := funext fun a => by fin_cases a <;> rfl

/-! # What each case's pieces read back as -/

/-- The pieces the first-column-block run leaves in the running maximum's array cover it. -/
theorem scover1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x1.Idx) : ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1024x1.size (by sl_kernel_rfl) y

/-- Read back through any view over any prior contents they are that component of the point's update. -/
theorem sread1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.1) = (step i x0 x1 x2 x3 (init (F := F))).1 := by
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the first-column-block run leaves in the running denominator's array cover it. -/
theorem scover1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x1.Idx) : ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S1024x1.size (by sl_kernel_rfl) y

/-- Read back through any view over any prior contents they are that component of the point's update. -/
theorem sread1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x1 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.2.1) = (step i x0 x1 x2 x3 (init (F := F))).2.1 := by
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the first-column-block run leaves in the running numerator's array cover it. -/
theorem scover1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (y : S1024x256.Idx) : ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S1024x256.size (by sl_kernel_rfl) y

/-- Read back through any view over any prior contents they are that component of the point's update. -/
theorem sread1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i) (x0 : Vec F S1024x1 .f32) (x1 : Vec F S1x1024 .f32) (x2 : Vec F S1024x1024 .i32) (x3 : Vec F S8192x256 .bf16) (v : View sig .tc .vmem S1024x256 .f32) (f : v.ty.Contents (Elt F)) :
    v.read (Elt F) (v.writes (Elt F) f (kernelRun1_A c i arg2 harg2 arg3 harg3 arg4 harg4 arg5 harg5 arg6 harg6 arg7 harg7 arg8 harg8 arg9 harg9 hc0 hc1 x0 x1 x2 x3).2.2.2.1) = (step i x0 x1 x2 x3 (init (F := F))).2.2 := by
  rw [View.read_writes_eq_canon _ _ _ (scover1_A_2 c i arg2 harg2 arg3 harg3 arg4 harg4 arg5 harg5 arg6 harg6 arg7 harg7 arg8 harg8 arg9 harg9 hc0 hc1 x0 x1 x2 x3)]
  unfold kernelRun1_A
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running maximum's array cover it. -/
theorem scover1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.1 S1024x1.size (by sl_kernel_rfl) y

/-- Read back through any view over any prior contents they are that component of the point's update. -/
theorem sread1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.1) = (step i x0 x1 x2 x3 s).1 := by
  rw [View.read_writes_eq_canon _ _ _ (scover1_B_0 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running denominator's array cover it. -/
theorem scover1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.2.1 S1024x1.size (by sl_kernel_rfl) y

/-- Read back through any view over any prior contents they are that component of the point's update. -/
theorem sread1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.2.1) = (step i x0 x1 x2 x3 s).2.1 := by
  rw [View.read_writes_eq_canon _ _ _ (scover1_B_1 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the middle-column-block run leaves in the running numerator's array cover it. -/
theorem scover1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_B c i arg2 harg2 arg3 harg3 arg4 harg4 arg5 harg5 arg6 harg6 arg7 harg7 arg8 harg8 arg9 harg9 hc0 hc1 x0 x1 x2 x3 s.1 s.2.1 s.2.2).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 s.1 s.2.1 s.2.2).2.2.2.1 S1024x256.size (by sl_kernel_rfl) y

/-- Read back through any view over any prior contents they are that component of the point's update. -/
theorem sread1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_B c i arg2 harg2 arg3 harg3 arg4 harg4 arg5 harg5 arg6 harg6 arg7 harg7 arg8 harg8 arg9 harg9 hc0 hc1 x0 x1 x2 x3 s.1 s.2.1 s.2.2).2.2.2.1) = (step i x0 x1 x2 x3 s).2.2 := by
  rw [View.read_writes_eq_canon _ _ _ (scover1_B_2 c i arg2 harg2 arg3 harg3 arg4 harg4 arg5 harg5 arg6 harg6 arg7 harg7 arg8 harg8 arg9 harg9 hc0 hc1 x0 x1 x2 x3 s)]
  unfold kernelRun1_B
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running maximum's array cover it. -/
theorem scover1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.1 S1024x1.size (by sl_kernel_rfl) y

/-- Read back through any view over any prior contents they are that component of the point's update. -/
theorem sread1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.1) = (step i x0 x1 x2 x3 s).1 := by
  rw [View.read_writes_eq_canon _ _ _ (scover1_C_0 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running denominator's array cover it. -/
theorem scover1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x1.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.2.1 S1024x1.size (by sl_kernel_rfl) y

/-- Read back through any view over any prior contents they are that component of the point's update. -/
theorem sread1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x1 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.2.1) = (step i x0 x1 x2 x3 s).2.1 := by
  rw [View.read_writes_eq_canon _ _ _ (scover1_C_1 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the running numerator's array cover it. -/
theorem scover1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).2.2.2.1 S1024x256.size (by sl_kernel_rfl) y

/-- Read back through any view over any prior contents they are that component of the point's update. -/
theorem sread1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).2.2.2.1) = (step i x0 x1 x2 x3 s).2.2 := by
  rw [View.read_writes_eq_canon _ _ _ (scover1_C_2 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-- The pieces the last-column-block run leaves in the output's buffer cover it. -/
theorem cover1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (y : S1024x256.Idx) : ∃ pc ∈ (kernelRun1_C c i arg2 harg2 arg3 harg3 arg4 harg4 arg5 harg5 arg6 harg6 arg7 harg7 arg8 harg8 arg9 harg9 hc0 hc1 x0 x1 x2 x3 s.1 s.2.1 s.2.2).1, y ∈ pc.1.set :=
  View.cover_of_tiledL (kernelRun1_C c i arg2 harg2 arg3 harg3 arg4 harg4 arg5 harg5 arg6 harg6 arg7 harg7 arg8 harg8 arg9 harg9 hc0 hc1 x0 x1 x2 x3 s.1 s.2.1 s.2.2).1 S1024x256.size (by sl_kernel_rfl) y

/-- Read back through any view over any prior contents they are the finished block of the updated arrays. -/
theorem read1_C_4 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .i32) (harg4 : arg4.IsWhole) (arg5 : Memref sig .tc .vmem S8192x256 .bf16) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i) (x0 : Vec F S1024x1 .f32) (x1 : Vec F S1x1024 .f32) (x2 : Vec F S1024x1024 .i32) (x3 : Vec F S8192x256 .bf16) (s : Scr F) (v : View sig .tc .vmem S1024x256 .f32) (f : v.ty.Contents (Elt F)) :
    v.read (Elt F) (v.writes (Elt F) f (kernelRun1_C c i arg2 harg2 arg3 harg3 arg4 harg4 arg5 harg5 arg6 harg6 arg7 harg7 arg8 harg8 arg9 harg9 hc0 hc1 x0 x1 x2 x3 s.1 s.2.1 s.2.2).1) = finish (step i x0 x1 x2 x3 s) := by
  rw [View.read_writes_eq_canon _ _ _ (cover1_C_4 c i arg2 harg2 arg3 harg3 arg4 harg4 arg5 harg5 arg6 harg6 arg7 harg7 arg8 harg8 arg9 harg9 hc0 hc1 x0 x1 x2 x3 s)]
  unfold kernelRun1_C
  dsimp only
  sl_unfold_words
  simp only [View.canon_cons_unit_zero (S := S1024x1) hz2, View.canon_cons_unit_zero (S := S1024x256) hz2,
    View.readCov_unit_zero (S := S1024x1) _ hz2, View.readCov_unit_zero (S := S1024x256) _ hz2,
    View.readAt_eq_ld, harg2.read_unread, harg3.read_unread, harg4.read_unread, harg5.read_unread, harg7.read_unread, harg8.read_unread, harg9.read_unread,
    View.ld_unit_zero (S := S1024x1) hz2, View.ld_unit_zero (S := S1x1024) hz2, View.ld_unit_zero (S := S1024x1024) hz2, View.ld_unit_zero (S := S1024x256) hz2]
  rfl

/-! # The carried arrays point by point, the proof data and the body obligation -/

section
variable (V : (c : Dev nD) → (b : Ref sig .tc) → Buf (Elt F) ((c : Thread nD τ).loc b))

/-- The carried arrays after the body at position `n`: at a first column block the update of the initial arrays by the
    point's blocks, elsewhere the update of what the point before left. -/
def scrAt1 (c : Dev nD) : (n : ℕ) → n < cfg1.N → Scr F
  | 0, hn => step (grid1.coords ⟨0, hn⟩) (iblk1 V c 0 ⟨0, hn⟩) (iblk1 V c 1 ⟨0, hn⟩) (iblk1 V c 2 ⟨0, hn⟩) (iblk1 V c 3 ⟨0, hn⟩) init
  | n + 1, hn =>
    if (n + 1) % 8 = 0 then step (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) init
    else step (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (scrAt1 c n (Nat.lt_of_succ_lt hn))

theorem scrAt1_first (c : Dev nD) (t : Fin cfg1.N) (h : t.val % 8 = 0) :
    scrAt1 V c t.val t.isLt = step (grid1.coords t) (iblk1 V c 0 t) (iblk1 V c 1 t) (iblk1 V c 2 t) (iblk1 V c 3 t) init := by
  obtain ⟨n, hn⟩ := t
  cases n with
  | zero => rfl
  | succ n => exact if_pos h

theorem scrAt1_next (c : Dev nD) (t : Fin cfg1.N) (h : t.val % 8 ≠ 0) :
    scrAt1 V c t.val t.isLt = step (grid1.coords t) (iblk1 V c 0 t) (iblk1 V c 1 t) (iblk1 V c 2 t) (iblk1 V c 3 t) (scrAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point what the launch hands over; afterwards the three
    carried arrays at what the point before left, and the rest. -/
def PhiS1 (c : Dev nD) : (n : ℕ) → n ≤ cfg1.N → sProp 𝕄
  | 0, _ => Pipeline.ΦA spec1 c
  | n + 1, hn => iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (scrAt1 V c n hn).1 ∗ owns (c : Thread nD τ) scM1_1 fullShare (scrAt1 V c n hn).2.1 ∗ owns (c : Thread nD τ) scM1_2 fullShare (scrAt1 V c n hn).2.2) ∗ rest1 c) := rfl

theorem PhiS1_pos (c : Dev nD) (n : ℕ) (h : n ≤ cfg1.N) (hz : n ≠ 0) :
    PhiS1 V c n h = iprop(iprop(owns (c : Thread nD τ) scM1_0 fullShare (scrAt1 V c (n - 1) (by omega)).1 ∗ owns (c : Thread nD τ) scM1_1 fullShare (scrAt1 V c (n - 1) (by omega)).2.1 ∗ owns (c : Thread nD τ) scM1_2 fullShare (scrAt1 V c (n - 1) (by omega)).2.2) ∗ rest1 c) := by
  cases n with
  | zero => exact absurd rfl hz
  | succ n => rfl

/-- The proof data: the arrays as found; after the body each input's buffer still at its block and the output's at the
    finished block of the carried arrays; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => finish (scrAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- The output's buffer after the body: the finished block (consulted where the output is stored). -/
theorem after1_4' (c : Dev nD) (t : Fin cfg1.N) : (dat1 V c).after 4 t = finish (scrAt1 V c t.val t.isLt) := by dsimp only [dat1]
theorem after1_4 (c : Dev nD) (t : Fin cfg1.N) (h : t.val % 8 = 7) : (dat1 V c).after 4 t = finish (scrAt1 V c t.val t.isLt) :=
  after1_4' V c t

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' memrefs hold their blocks; the column block says which case the point is in; the
    invariant hands the body the carried arrays (at anything before the first point, at what the point before left
    afterwards) and takes them back at this point's update; at a last column block the output's buffer is left at the
    finished block, elsewhere it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  rw [show (dat1 V c).leavesExact 3 t = owns (c : Thread nD τ) (ms1_3 t) fullShare ((dat1 V c).after 3 t) from by
        unfold Dat.leavesExact; rw [liveAt1_3 t], after1_3]
  have hN : t.val < 64 := lt_of_lt_of_eq t.isLt (show cfg1.N = 64 from N_1)
  by_cases h0 : t.val % 8 = 0
  · have h7 : ¬t.val % 8 = 7 := by omega
    rw [Dat.leavesExact_idle (dat1 V c) 4 t (idleAt1_4 t (fun h => h7 ((hcond1_1 t).mp h))) (noFlush1_4 t (fun h => h7 ((hcond1_1 t).mp h)))]
    rw [scrAt1_first V c t h0]
    by_cases hz : t.val = 0
    · rw [PhiS1_castSucc V c t, PhiS1_zero V c _ _ hz, PhiA1_eq]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_0.view es0
        isplitl [HS1]
        · unfold owns; iexists _; isplitr
          swap; · iexact HS1
          ipureintro; exact sread1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_1.view es1
        unfold owns; iexists _; isplitr
        swap; · iexact HS2
        ipureintro; exact sread1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_2.view es2
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_0.view es0
        isplitl [HS1]
        · unfold owns; iexists _; isplitr
          swap; · iexact HS1
          ipureintro; exact sread1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_1.view es1
        unfold owns; iexists _; isplitr
        swap; · iexact HS2
        ipureintro; exact sread1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) ((hcond1_0 t).mpr h0) (fun h => h7 ((hcond1_1 t).mp h)) (iblk1 V c 0 t) (iblk1 V c 1 t) (iblk1 V c 2 t) (iblk1 V c 3 t) scM1_2.view es2
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dat1 V c).leavesExact 4 t = owns (c : Thread nD τ) (ms1_4 t) fullShare ((dat1 V c).after 4 t) from by
      unfold Dat.leavesExact; rw [liveAt1_4 t ((hcond1_1 t).mpr h7)], after1_4 V c t h7]
      rw [scrAt1_next V c t h0]
      rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_0.view es0
        isplitl [HS1]
        · unfold owns; iexists _; isplitr
          swap; · iexact HS1
          ipureintro; exact sread1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_1.view es1
        unfold owns; iexists _; isplitr
        swap; · iexact HS2
        ipureintro; exact sread1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) scM1_2.view es2
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact read1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) ((hcond1_1 t).mpr h7) (iblk1 V c 0 t) (iblk1 V c 1 t) (iblk1 V c 2 t) (iblk1 V c 3 t) (scrAt1 V c (t.val - 1) (Nat.lt_of_le_of_lt (Nat.sub_le _ _) t.isLt)) (ms1_4 t).view e4
    · rw [Dat.leavesExact_idle (dat1 V c) 4 t (idleAt1_4 t (fun h => h7 ((hcond1_1 t).mp h))) (noFlush1_4 t (fun h => h7 ((hcond1_1 t).mp h)))]
      rw [scrAt1_next V c t h0]
      rw [PhiS1_castSucc V c t, PhiS1_pos V c _ _ hz]
      iintro ⟨⟨⟨HS0, HS1, HS2⟩, Hr⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)).1 (scrAt1 V c (t.val - 1) (Nat.lt_of_le_of_lt (Nat.sub_le _ _) t.isLt)).2.1 (scrAt1 V c (t.val - 1) (Nat.lt_of_le_of_lt (Nat.sub_le _ _) t.isLt)).2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hr]
      · isplitr [Hr]
        swap; · iexact Hr
        isplitl [HS0]
        · unfold owns; iexists _; isplitr
          swap; · iexact HS0
          ipureintro; exact sread1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_0.view es0
        isplitl [HS1]
        · unfold owns; iexists _; isplitr
          swap; · iexact HS1
          ipureintro; exact sread1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_1.view es1
        unfold owns; iexists _; isplitr
        swap; · iexact HS2
        ipureintro; exact sread1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (scrAt1 V c (t.val - 1) (Nat.lt_of_le_of_lt (Nat.sub_le _ _) t.isLt)) scM1_2.view es2
      isplitl [Ho]; · iexact Ho
      isplitl [H0]; · iexact H0
      isplitl [H1]; · iexact H1
      isplitl [H2]; · iexact H2
      isplitl [H3]; · iexact H3
      iexists _; iexact H4

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- The invariant before the first point is what the launch hands over. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After the last point the invariant gives it back: the carried arrays' named contents are forgotten. -/
theorem Phi1_last (c : Dev nD) : (dat1 V c).Φ (Fin.last cfg1.N) ⊢ (Pipeline.ΦA spec1 c : sProp 𝕄) := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, HS1, HS2⟩, Hr⟩
  isplitl [HS0 HS1 HS2]
  · isplitl [HS0]; · iexists _; iexact HS0
    isplitl [HS1]; · iexists _; iexact HS1
    iexists _; iexact HS2
  iexact Hr

end

end Cert.Kernel.Hand

end
-- ==== Proof.AttnW.lean ====
import proofs.«174499_j29283087024215_2_alg».proof.Proof.Gen.Kernel.Launch
import proofs.«174499_j29283087024215_2_alg».proof.Proof.Gen.Kernel.Skeleton
import proofs.«174499_j29283087024215_2_alg».proof.Proof.Gen.Kernel.Points
import proofs.«174499_j29283087024215_2_alg».proof.Proof.KernelFrameW
import proofs.«174499_j29283087024215_2_alg».proof.Proof.Region1W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The attention region's proof data, body obligation and invariant facts, as the record the assembly takes. -/
def attn : AttnRegion F where
  dat := dat1
  A_eq := A_eq1
  q_eq := fun _ _ _ => rfl
  owed_eq := fun _ _ _ => rfl
  body := body_obligation1
  Phi_zero := Phi1_zero
  recorded_eq := fun _ _ _ => rfl
  Phi_last := Phi1_last

/-- The frame: every weakly fair execution terminates without a fault and the argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main attn m ρ)

end Cert.Kernel.Hand

end
-- ==== Proof.lean ====
/-
  The graph-attention layer: the two-kernel program against its reference, over the extended reals.

  Both programs compute, from x (8192×512), the adjacency (8192×8192 integers), W (512×256) and a (512×1):
  h = x·W; f1 = h·a[0:256] and f2 = h·a[256:512]; the score of a pair (r, c) is the leaky rectifier of
  f1 r + f2 c, replaced by a large negative constant where the adjacency entry is not positive; each row of
  scores is normalised by a softmax; the normalised rows are multiplied into h; the exponential linear unit is
  applied.  The reference does this with whole arrays: the rectifier as a selection on the sign, the softmax as
  exp (s − row maximum) divided by the row sum.  The kernel program computes h, f1, f2 row block by row block in
  one kernel (the narrowing of h is the identity over the extended reals), and in a second kernel walks each row
  block over eight column blocks, writing the rectifier as max (s, slope·s) — equal to the selection because the
  slope lies in [0, 1] — and keeping a running maximum, a running denominator and a running numerator that it
  rescales by exp (old maximum − new maximum) at each block; after the last block it divides and applies the
  exponential linear unit as exp − 1 where the reference applies expm1.

  With finite inputs every quantity is a real number, and the two computations agree because
  exp (a − b) · exp (c − a) = exp (c − b): by induction over the column blocks the running denominator and
  numerator are the sums of exp (score − running maximum) and of exp (score − running maximum) · h over the
  columns seen so far, the eight blocks are all the columns, and (∑ e·h) / (∑ e) = ∑ (e / ∑ e)·h.  The first
  block starts from −∞, 0, 0, where exp (−∞ − m) = 0 makes the rescaling vanish.

  The frames: each kernel region runs its body at every grid point on whole staging buffers — the projection
  kernel through one store per output, the attention kernel in three control cases (first column block, middle
  blocks, last column block) with the three carried arrays in the region's invariant — and no host operation or
  region writes an argument array.  The same text, read at the word-level instance, is the frame of the program
  as printed; the idealization rewrote no operation, so it preserves the program trivially.
-/
import proofs.«174499_j29283087024215_2_alg».proof.Defs
import proofs.«174499_j29283087024215_2_alg».proof.Proof.Claims
import proofs.«174499_j29283087024215_2_alg».proof.Proof.KernelRun
import proofs.«174499_j29283087024215_2_alg».proof.Proof.AttnW

noncomputable section

namespace Cert.Proof

open Idealize.ShloMosaic Idealize.SL.Sem

/-- The word-level program runs to the end, faults nowhere and leaves its argument arrays unchanged. -/
theorem frame_kernel : Cert.frame_Kernel := fun m ρ _ => Cert.Kernel.Hand.frame (F := Bits) m ρ

theorem claim : Cert.Claim := Cert.Proof.Claims.claim_of frame_kernel Cert.KernelIdeal.Val.kernelRun

end Cert.Proof

end
